-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S5x128x128 : Shape := ⟨3, ![5, 128, 128]⟩
abbrev S4x128 : Shape := ⟨2, ![4, 128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S5x128x128 .f32) (main_arg6 : FVec F S4x128 .f32) (main_arg7 : FVec F S4x128 .f32) (main_arg8 : FVec F S128x40 .f32) (main_arg9 : FVec F S40 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128x128 .f32 := Host.absf main_arg5
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S256x128 .f32) (main_arg4 : FVec F S5x128x128 .f32) (main_arg5 : FVec F S5x128x128 .f32) (main_arg6 : FVec F S4x128 .f32) (main_arg7 : FVec F S4x128 .f32) (main_arg8 : FVec F S128x40 .f32) (main_arg9 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S5x128x128 .f32 := Host.absf main_arg4
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S5x128x128 : Shape := ⟨3, ![5, 128, 128]⟩
abbrev S4x128 : Shape := ⟨2, ![4, 128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S256x256 : Shape := ⟨2, ![256, 256]⟩
abbrev S2000x256 : Shape := ⟨2, ![2000, 256]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S2000x128 : Shape := ⟨2, ![2000, 128]⟩
abbrev S1x128 : Shape := ⟨2, ![1, 128]⟩
abbrev S128 : Shape := ⟨1, ![128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 218
  | .vmem => 105
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S256x128, .f32⟩
  | 4 => ⟨S5x128x128, .f32⟩
  | 5 => ⟨S5x128x128, .f32⟩
  | 6 => ⟨S4x128, .f32⟩
  | 7 => ⟨S4x128, .f32⟩
  | 8 => ⟨S128x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S256x256, .f32⟩
  | 15 => ⟨S50000x256, .f32⟩
  | 16 => ⟨S50000x128, .f32⟩
  | 17 => ⟨S50000x128, .f32⟩
  | 18 => ⟨S5x128x128, .f32⟩
  | 19 => ⟨S5x128x128, .f32⟩
  | 20 => ⟨S_, .f32⟩
  | 21 => ⟨S5x128x128, .f32⟩
  | 22 => ⟨S5x128x128, .f32⟩
  | 23 => ⟨S5x128x128, .f32⟩
  | 24 => ⟨S5x128x128, .f32⟩
  | 25 => ⟨S_, .f32⟩
  | 26 => ⟨S5x128x128, .f32⟩
  | 27 => ⟨S5x128x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S1x128x128, .f32⟩
  | 42 => ⟨S128x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x128x128, .f32⟩
  | 64 => ⟨S128x128, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S1x128x128, .f32⟩
  | 103 => ⟨S128x128, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1x128x128, .f32⟩
  | 120 => ⟨S128x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x256, .f32⟩

abbrev hbmTy0_1 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128x128, .f32⟩
  | 14 => ⟨S128x128, .f32⟩
  | 15 => ⟨S50000x128, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x128, .f32⟩
  | 31 => ⟨S128x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128x128, .f32⟩
  | 53 => ⟨S128x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x128x128, .f32⟩
  | 70 => ⟨S128x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128x128, .f32⟩
  | 86 => ⟨S128x128, .f32⟩
  | 87 => ⟨S50000x128, .f32⟩
  | 88 => ⟨S1x40, .f32⟩
  | 89 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S128x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S128x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S128x128, .f32⟩
  | .local _ .vmem, ⟨79, _⟩ => ⟨S1x128, .f32⟩
  | .local _ .vmem, ⟨80, _⟩ => ⟨S1x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S128x128, .f32⟩
  | .local _ .vmem, ⟨90, _⟩ => ⟨S2000x128, .f32⟩
  | .local _ .vmem, ⟨91, _⟩ => ⟨S2000x128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S128x128, .f32⟩
  | .local _ .vmem, ⟨97, _⟩ => ⟨S2000x128, .f32⟩
  | .local _ .vmem, ⟨98, _⟩ => ⟨S2000x128, .f32⟩
  | .local _ .vmem, ⟨99, _⟩ => ⟨S2000x128, .f32⟩
  | .local _ .vmem, ⟨100, _⟩ => ⟨S2000x128, .f32⟩
  | .local _ .vmem, ⟨101, _⟩ => ⟨S128x40, .f32⟩
  | .local _ .vmem, ⟨102, _⟩ => ⟨S1x40, .f32⟩
  | .local _ .vmem, ⟨103, _⟩ => ⟨S2000x40, .f32⟩
  | .local _ .vmem, ⟨104, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_c_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79_0 : Ref sig .tc := ⟨.hbm, 104, rfl⟩
abbrev main_v79_1 : Ref sig .tc := ⟨.hbm, 105, rfl⟩
abbrev main_c_12 : Ref sig .tc := ⟨.hbm, 106, rfl⟩
abbrev main_v80 : Ref sig .tc := ⟨.hbm, 107, rfl⟩
abbrev main_v81 : Ref sig .tc := ⟨.hbm, 108, rfl⟩
abbrev main_c_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_15 : Ref sig .tc := ⟨.hbm, 122, rfl⟩
abbrev main_v93 : Ref sig .tc := ⟨.hbm, 123, rfl⟩
abbrev main_v94 : Ref sig .tc := ⟨.hbm, 124, rfl⟩
abbrev main_c_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111_0 : Ref sig .tc := ⟨.hbm, 143, rfl⟩
abbrev main_v111_1 : Ref sig .tc := ⟨.hbm, 144, rfl⟩
abbrev main_c_18 : Ref sig .tc := ⟨.hbm, 145, rfl⟩
abbrev main_v112 : Ref sig .tc := ⟨.hbm, 146, rfl⟩
abbrev main_v113 : Ref sig .tc := ⟨.hbm, 147, rfl⟩
abbrev main_c_19 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_20 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_21 : Ref sig .tc := ⟨.hbm, 161, rfl⟩
abbrev main_v125 : Ref sig .tc := ⟨.hbm, 162, rfl⟩
abbrev main_v126 : Ref sig .tc := ⟨.hbm, 163, rfl⟩
abbrev main_c_22 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_23 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143_0 : Ref sig .tc := ⟨.hbm, 182, rfl⟩
abbrev main_v143_1 : Ref sig .tc := ⟨.hbm, 183, rfl⟩
abbrev main_c_24 : Ref sig .tc := ⟨.hbm, 184, rfl⟩
abbrev main_v144 : Ref sig .tc := ⟨.hbm, 185, rfl⟩
abbrev main_v145 : Ref sig .tc := ⟨.hbm, 186, rfl⟩
abbrev main_c_25 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_26 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_27 : Ref sig .tc := ⟨.hbm, 200, rfl⟩
abbrev main_v157 : Ref sig .tc := ⟨.hbm, 201, rfl⟩
abbrev main_v158 : Ref sig .tc := ⟨.hbm, 202, rfl⟩
abbrev main_c_28 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_29 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg6_1 : Ref sig .tc := ⟨.vmem, 42, rfl⟩
abbrev cc4_stg7_0 : Ref sig .tc := ⟨.vmem, 43, rfl⟩
abbrev cc4_stg7_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg6_1 : Ref sig .tc := ⟨.vmem, 62, rfl⟩
abbrev cc6_stg7_0 : Ref sig .tc := ⟨.vmem, 63, rfl⟩
abbrev cc6_stg7_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg6_1 : Ref sig .tc := ⟨.vmem, 82, rfl⟩
abbrev cc8_stg7_0 : Ref sig .tc := ⟨.vmem, 83, rfl⟩
abbrev cc8_stg7_1 : Ref sig .tc := ⟨.vmem, 84, rfl⟩
abbrev cc9_stg0_0 : Ref sig .tc := ⟨.vmem, 85, rfl⟩
abbrev cc9_stg0_1 : Ref sig .tc := ⟨.vmem, 86, rfl⟩
abbrev cc9_stg1_0 : Ref sig .tc := ⟨.vmem, 87, rfl⟩
abbrev cc9_stg1_1 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg3_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg3_1 : Ref sig .tc := ⟨.vmem, 98, rfl⟩
abbrev cc11_stg0_0 : Ref sig .tc := ⟨.vmem, 99, rfl⟩
abbrev cc11_stg0_1 : Ref sig .tc := ⟨.vmem, 100, rfl⟩
abbrev cc11_stg1_0 : Ref sig .tc := ⟨.vmem, 101, rfl⟩
abbrev cc11_stg2_0 : Ref sig .tc := ⟨.vmem, 102, rfl⟩
abbrev cc11_stg3_0 : Ref sig .tc := ⟨.vmem, 103, rfl⟩
abbrev cc11_stg3_1 : Ref sig .tc := ⟨.vmem, 104, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem6_1 : DmaSem sig := 42
abbrev cc4_sem7_0 : DmaSem sig := 43
abbrev cc4_sem7_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem6_1 : DmaSem sig := 62
abbrev cc6_sem7_0 : DmaSem sig := 63
abbrev cc6_sem7_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem6_1 : DmaSem sig := 82
abbrev cc8_sem7_0 : DmaSem sig := 83
abbrev cc8_sem7_1 : DmaSem sig := 84
abbrev cc9_sem0_0 : DmaSem sig := 85
abbrev cc9_sem0_1 : DmaSem sig := 86
abbrev cc9_sem1_0 : DmaSem sig := 87
abbrev cc9_sem1_1 : DmaSem sig := 88
abbrev cc9_sem2_0 : DmaSem sig := 89
abbrev cc9_sem3_0 : DmaSem sig := 90
abbrev cc9_sem3_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem3_1 : DmaSem sig := 98
abbrev cc11_sem0_0 : DmaSem sig := 99
abbrev cc11_sem0_1 : DmaSem sig := 100
abbrev cc11_sem1_0 : DmaSem sig := 101
abbrev cc11_sem2_0 : DmaSem sig := 102
abbrev cc11_sem3_0 : DmaSem sig := 103
abbrev cc11_sem3_1 : DmaSem sig := 104

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S2000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x40 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x40 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x40 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S256x128_S256x128_S256x256_d1 : Shape.Concatenates [S256x128, S256x128] S256x256 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S50000x256_S50000x128_0_0 : S50000x256.Slices ![0, 0] S50000x128
  slices_S50000x256_S50000x128_0_128 : S50000x256.Slices ![0, 128] S50000x128
  transposes_S5x128x128_S5x128x128_0_2_1 : S5x128x128.Transposes [0, 2, 1] S5x128x128
  bcast_S_S5x128x128 : S_.BroadcastsInDim S5x128x128 (![] : Fin 0 → Fin S5x128x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S5x128x128_S1x128x128_1_0_0 : S5x128x128.Slices ![1, 0, 0] S1x128x128
  slices_S4x128_S1x128_1_0 : S4x128.Slices ![1, 0] S1x128
  slices_S5x128x128_S1x128x128_2_0_0 : S5x128x128.Slices ![2, 0, 0] S1x128x128
  slices_S4x128_S1x128_2_0 : S4x128.Slices ![2, 0] S1x128
  slices_S5x128x128_S1x128x128_3_0_0 : S5x128x128.Slices ![3, 0, 0] S1x128x128
  slices_S4x128_S1x128_3_0 : S4x128.Slices ![3, 0] S1x128
  slices_S5x128x128_S1x128x128_4_0_0 : S5x128x128.Slices ![4, 0, 0] S1x128x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  dot_S2000x256_S256x256_S2000x256_1_0_0_1_n_n_wf : DotDims.WF S2000x256 S256x256 S2000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S50000x128.size a
  hwx8_6 : ∀ i : grid8.Coords, EltTy.bits .f32 = 32 ∨ (Rect.block (s := S50000x128) S2000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S50000x128.size a
  hwx8_7 : ∀ i : grid8.Coords, EltTy.bits .f32 = 32 ∨ (Rect.block (s := S50000x128) S2000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S50000x128.size a
  hwx9_3 : ∀ i : grid9.Coords, EltTy.bits .f32 = 32 ∨ (Rect.block (s := S50000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x40.size a ≤ S128x40.size a
  hwx11_1 : ∀ i : grid11.Coords, EltTy.bits .f32 = 32 ∨ (Rect.block (s := S128x40) S128x40.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x40.size a ≤ S1x40.size a
  hwx11_2 : ∀ i : grid11.Coords, EltTy.bits .f32 = 32 ∨ (Rect.block (s := S1x40) S1x40.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x40.size a ≤ S50000x40.size a
  hwx11_3 : ∀ i : grid11.Coords, EltTy.bits .f32 = 32 ∨ (Rect.block (s := S50000x40) S2000x40.size (cc11_transform_3 i) (hinb11_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47_1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v79_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v79_1) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v79_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v92) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79_1) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v102) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v110) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v105) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v108) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v111_0) S2000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v111_1) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v111_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v121) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v123) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v124) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111_1) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v134) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v142) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v137) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v140) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v143_0) S2000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v143_1) S2000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v143_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v153) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v155) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v156) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v143_1) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v166) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v168) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v169) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v169) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg8) S128x40.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v170) S1x40.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v171) S2000x40.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S5x128x128 : Shape := ⟨3, ![5, 128, 128]⟩
abbrev S4x128 : Shape := ⟨2, ![4, 128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x40 : Shape := ⟨2, ![50000, 40]⟩
abbrev S1x40 : Shape := ⟨2, ![1, 40]⟩

abbrev nBuf : Space → Nat
  | .hbm => 352
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S256x128, .f32⟩
  | 4 => ⟨S5x128x128, .f32⟩
  | 5 => ⟨S5x128x128, .f32⟩
  | 6 => ⟨S4x128, .f32⟩
  | 7 => ⟨S4x128, .f32⟩
  | 8 => ⟨S128x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x128x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x128x128, .f32⟩
  | 52 => ⟨S128x128, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S50000x128, .f32⟩
  | 59 => ⟨S50000x128, .f32⟩
  | 60 => ⟨S1x128, .f32⟩
  | 61 => ⟨S128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S1x128, .f32⟩
  | 75 => ⟨S128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1x128x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128x128, .f32⟩
  | 124 => ⟨S128x128, .f32⟩
  | 125 => ⟨S128x128, .f32⟩
  | 126 => ⟨S128x128, .f32⟩
  | 127 => ⟨S_, .f32⟩
  | _ => ⟨S50000x256, .f32⟩

abbrev hbmTy0_1 (i : Nat) : BufTy := match i % 128 with
  | 0 => ⟨S128x128, .f32⟩
  | 1 => ⟨S128x128, .f32⟩
  | 2 => ⟨S50000x128, .f32⟩
  | 3 => ⟨S50000x128, .f32⟩
  | 4 => ⟨S1x128, .f32⟩
  | 5 => ⟨S128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S50000x128, .f32⟩
  | 18 => ⟨S1x128, .f32⟩
  | 19 => ⟨S128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x128x128, .f32⟩
  | 46 => ⟨S128x128, .f32⟩
  | 47 => ⟨S128x128, .f32⟩
  | 48 => ⟨S128x128, .f32⟩
  | 49 => ⟨S_, .f32⟩
  | 50 => ⟨S128x128, .f32⟩
  | 51 => ⟨S128x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128x128, .f32⟩
  | 68 => ⟨S128x128, .f32⟩
  | 69 => ⟨S128x128, .f32⟩
  | 70 => ⟨S128x128, .f32⟩
  | 71 => ⟨S_, .f32⟩
  | 72 => ⟨S128x128, .f32⟩
  | 73 => ⟨S128x128, .f32⟩
  | 74 => ⟨S50000x128, .f32⟩
  | 75 => ⟨S50000x128, .f32⟩
  | 76 => ⟨S1x128, .f32⟩
  | 77 => ⟨S128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S50000x128, .f32⟩
  | 90 => ⟨S1x128, .f32⟩
  | 91 => ⟨S128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1x128x128, .f32⟩
  | 118 => ⟨S128x128, .f32⟩
  | 119 => ⟨S128x128, .f32⟩
  | 120 => ⟨S128x128, .f32⟩
  | 121 => ⟨S_, .f32⟩
  | 122 => ⟨S128x128, .f32⟩
  | 123 => ⟨S128x128, .f32⟩
  | 124 => ⟨S50000x128, .f32⟩
  | 125 => ⟨S50000x128, .f32⟩
  | 126 => ⟨S_, .i32⟩
  | 127 => ⟨S800000, .i32⟩
  | _ => ⟨S50000x256, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S1x128x128, .f32⟩
  | 12 => ⟨S128x128, .f32⟩
  | 13 => ⟨S128x128, .f32⟩
  | 14 => ⟨S128x128, .f32⟩
  | 15 => ⟨S_, .f32⟩
  | 16 => ⟨S128x128, .f32⟩
  | 17 => ⟨S128x128, .f32⟩
  | 18 => ⟨S50000x128, .f32⟩
  | 19 => ⟨S50000x128, .f32⟩
  | 20 => ⟨S1x128, .f32⟩
  | 21 => ⟨S128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S1x128, .f32⟩
  | 35 => ⟨S128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x128x128, .f32⟩
  | 62 => ⟨S128x128, .f32⟩
  | 63 => ⟨S128x128, .f32⟩
  | 64 => ⟨S128x128, .f32⟩
  | 65 => ⟨S_, .f32⟩
  | 66 => ⟨S128x128, .f32⟩
  | 67 => ⟨S128x128, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1x128x128, .f32⟩
  | 84 => ⟨S128x128, .f32⟩
  | 85 => ⟨S128x128, .f32⟩
  | 86 => ⟨S128x128, .f32⟩
  | 87 => ⟨S_, .f32⟩
  | 88 => ⟨S128x128, .f32⟩
  | 89 => ⟨S128x128, .f32⟩
  | 90 => ⟨S50000x128, .f32⟩
  | 91 => ⟨S50000x128, .f32⟩
  | 92 => ⟨S50000x40, .f32⟩
  | 93 => ⟨S1x40, .f32⟩
  | 94 => ⟨S50000x40, .f32⟩
  | 95 => ⟨S50000x40, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_10 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_14 : Ref sig .tc := ⟨.hbm, 110, rfl⟩
abbrev main_v84 : Ref sig .tc := ⟨.hbm, 111, rfl⟩
abbrev main_v85 : Ref sig .tc := ⟨.hbm, 112, rfl⟩
abbrev main_c_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_17 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_18 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_20 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_22 : Ref sig .tc := ⟨.hbm, 160, rfl⟩
abbrev main_v126 : Ref sig .tc := ⟨.hbm, 161, rfl⟩
abbrev main_v127 : Ref sig .tc := ⟨.hbm, 162, rfl⟩
abbrev main_c_23 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_24 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_25 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c_26 : Ref sig .tc := ⟨.hbm, 182, rfl⟩
abbrev main_v144 : Ref sig .tc := ⟨.hbm, 183, rfl⟩
abbrev main_v145 : Ref sig .tc := ⟨.hbm, 184, rfl⟩
abbrev main_c_27 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_28 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_29 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_30 : Ref sig .tc := ⟨.hbm, 208, rfl⟩
abbrev main_v166 : Ref sig .tc := ⟨.hbm, 209, rfl⟩
abbrev main_v167 : Ref sig .tc := ⟨.hbm, 210, rfl⟩
abbrev main_cst_31 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_32 : Ref sig .tc := ⟨.hbm, 222, rfl⟩
abbrev main_v178 : Ref sig .tc := ⟨.hbm, 223, rfl⟩
abbrev main_v179 : Ref sig .tc := ⟨.hbm, 224, rfl⟩
abbrev main_cst_33 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_c_34 : Ref sig .tc := ⟨.hbm, 232, rfl⟩
abbrev main_v186 : Ref sig .tc := ⟨.hbm, 233, rfl⟩
abbrev main_v187 : Ref sig .tc := ⟨.hbm, 234, rfl⟩
abbrev main_c_35 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_36 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_37 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_c_38 : Ref sig .tc := ⟨.hbm, 254, rfl⟩
abbrev main_v204 : Ref sig .tc := ⟨.hbm, 255, rfl⟩
abbrev main_v205 : Ref sig .tc := ⟨.hbm, 256, rfl⟩
abbrev main_c_39 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_cst_40 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_cst_41 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_cst_42 : Ref sig .tc := ⟨.hbm, 280, rfl⟩
abbrev main_v226 : Ref sig .tc := ⟨.hbm, 281, rfl⟩
abbrev main_v227 : Ref sig .tc := ⟨.hbm, 282, rfl⟩
abbrev main_cst_43 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_44 : Ref sig .tc := ⟨.hbm, 294, rfl⟩
abbrev main_v238 : Ref sig .tc := ⟨.hbm, 295, rfl⟩
abbrev main_v239 : Ref sig .tc := ⟨.hbm, 296, rfl⟩
abbrev main_cst_45 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_c_46 : Ref sig .tc := ⟨.hbm, 304, rfl⟩
abbrev main_v246 : Ref sig .tc := ⟨.hbm, 305, rfl⟩
abbrev main_v247 : Ref sig .tc := ⟨.hbm, 306, rfl⟩
abbrev main_c_47 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_cst_48 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_cst_49 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_c_50 : Ref sig .tc := ⟨.hbm, 326, rfl⟩
abbrev main_v264 : Ref sig .tc := ⟨.hbm, 327, rfl⟩
abbrev main_v265 : Ref sig .tc := ⟨.hbm, 328, rfl⟩
abbrev main_c_51 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_cst_52 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_cst_53 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  transposes_S128x128_S128x128_1_0 : S128x128.Transposes [1, 0] S128x128
  bcast_S_S128x128 : S_.BroadcastsInDim S128x128 (![] : Fin 0 → Fin S128x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S4x128_S1x128_1_0 : S4x128.Slices ![1, 0] S1x128
  slices_S5x128x128_S1x128x128_2_0_0 : S5x128x128.Slices ![2, 0, 0] S1x128x128
  slices_S4x128_S1x128_2_0 : S4x128.Slices ![2, 0] S1x128
  slices_S5x128x128_S1x128x128_3_0_0 : S5x128x128.Slices ![3, 0, 0] S1x128x128
  slices_S4x128_S1x128_3_0 : S4x128.Slices ![3, 0] S1x128
  slices_S5x128x128_S1x128x128_4_0_0 : S5x128x128.Slices ![4, 0, 0] S1x128x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«109571_j64716567216291_1_alg».proof.Proof.LibPlainMatmul
import proofs.«109571_j64716567216291_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«109571_j64716567216291_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«109571_j64716567216291_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibLeadingLoad.lean ====
/-
  One entry of the leading axis of a rank-3 array, picked out by a load.

  An array of shape [n, a, b] is a stack of n matrices. Loading the unit-stride rectangle of sizes [1, a, b] at offsets
  (g, 0, 0) reads the g-th matrix of the stack: the loaded value at (0, i, j) is the array at (g, i, j), because a
  unit-stride rectangle places its coordinate x on an axis at offset + 1 · x.
-/
import Idealize.ShloMosaic.Lib.Pipeline.Value
import Idealize.ShloMosaic.Lib.ValueIdx

namespace Idealize.ShloMosaic.ValueIdx

open Idealize.ShloMosaic

/-- The [1, a, b] rectangle at offsets (g, 0, 0) of an [n, a, b] array, loaded and read at (0, i, j), is the array at
    (g, i, j). -/
theorem ld_lead3_apply {Val : EltTy → Type} {e : EltTy} {n a b : ℕ} (X : (⟨3, ![n, a, b]⟩ : Shape).Idx → Val e)
    (g : ℕ) (hg : g < n)
    (inb : ∀ ax, (![g, 0, 0] : Fin 3 → ℕ) ax + (⟨3, ![1, a, b]⟩ : Shape).size ax ≤ (⟨3, ![n, a, b]⟩ : Shape).size ax)
    (i : Fin a) (j : Fin b) :
    View.ld X (Rect.unit (s := ⟨3, ![n, a, b]⟩) ![g, 0, 0] (⟨3, ![1, a, b]⟩ : Shape).size inb) (ix3 (0 : Fin 1) i j)
      = X (ix3 ⟨g, hg⟩ i j) := by
  show X _ = X _
  congr 1
  funext ax
  apply Fin.ext
  match ax with
  | ⟨0, _⟩ => show g + 1 * 0 = g; omega
  | ⟨1, _⟩ => show 0 + 1 * i.val = i.val; omega
  | ⟨2, _⟩ => show 0 + 1 * j.val = j.val; omega

end Idealize.ShloMosaic.ValueIdx
-- ==== Proof.LibStackedLayers.lean ====
/-
  A stack of n matrices [n, a, b] and a stack of n bias vectors [n, b]: the g-th matrix and the g-th bias row, and the
  machine forms that pick them out.

  A kernel picks the g-th matrix by loading the unit-stride rectangle of sizes [1, a, b] at offsets (g, 0, 0) and
  dropping the leading unit axis by a shape cast; a host program picks it by a slice [g:g+1, 0:a, 0:b] followed by a
  reshape. Both read the stack at (g, i, j). The same for the g-th row of an [n, b] array, which the kernel loads as a
  [1, b] row and the host slices, reshapes to a vector, and lays out as a row again.
-/
import Idealize.ShloMosaic.Lib.Pipeline.Value
import Idealize.ShloMosaic.Lib.ValueIdx
import Idealize.ShloMosaic.Lib.ValueLayout
import proofs.«109571_j64716567216291_1_alg».proof.Proof.LibLeadingLoad
import proofs.«109571_j64716567216291_1_alg».proof.Proof.LibBiasedBlock

noncomputable section

namespace Cert.Stack

open Idealize.ShloMosaic Idealize.ShloMosaic.ValueIdx Cert.Gcn

variable {α : Type}

/-- The g-th matrix of a stack. -/
def layer {n a b : ℕ} (g : Fin n) (W : (⟨3, ![n, a, b]⟩ : Shape).Idx → α) : (⟨2, ![a, b]⟩ : Shape).Idx → α :=
  fun i => W (ix3 g (i 0) (i 1))

/-- The g-th row of an [n, b] array, as a one-row array. -/
def biasRow {n b : ℕ} (g : Fin n) (B : (⟨2, ![n, b]⟩ : Shape).Idx → α) : (⟨2, ![1, b]⟩ : Shape).Idx → α :=
  fun i => B (ix2 g (i 1))

/-- The [1, b] rectangle at offsets (g, 0) of an [n, b] array, loaded and read at (0, j), is the array at (g, j). -/
theorem ld_lead2_apply {Val : EltTy → Type} {e : EltTy} {n b : ℕ} (X : (⟨2, ![n, b]⟩ : Shape).Idx → Val e)
    (g : ℕ) (hg : g < n)
    (inb : ∀ ax, (![g, 0] : Fin 2 → ℕ) ax + (⟨2, ![1, b]⟩ : Shape).size ax ≤ (⟨2, ![n, b]⟩ : Shape).size ax)
    (u : Fin 1) (j : Fin b) :
    View.ld X (Rect.unit (s := ⟨2, ![n, b]⟩) ![g, 0] (⟨2, ![1, b]⟩ : Shape).size inb) (ix2 u j) = X (ix2 ⟨g, hg⟩ j) := by
  have hu : u.val = 0 := by omega
  show X _ = X _
  congr 1
  funext ax
  apply Fin.ext
  match ax with
  | ⟨0, _⟩ => show g + 1 * u.val = g; omega
  | ⟨1, _⟩ => show 0 + 1 * j.val = j.val; omega

/-- The kernel's form of the g-th matrix: load the [1, a, b] rectangle at (g, 0, 0), drop the unit axis. -/
theorem ld_layer {Val : EltTy → Type} {e : EltTy} {n a b : ℕ} (W : (⟨3, ![n, a, b]⟩ : Shape).Idx → Val e) (g : ℕ) (hg : g < n)
    (inb : ∀ ax, (![g, 0, 0] : Fin 3 → ℕ) ax + (⟨3, ![1, a, b]⟩ : Shape).size ax ≤ (⟨3, ![n, a, b]⟩ : Shape).size ax)
    (h : (⟨3, ![1, a, b]⟩ : Shape).ShapeCasts ⟨2, ![a, b]⟩) :
    shapeCast ⟨2, ![a, b]⟩ (View.ld W (Rect.unit (s := ⟨3, ![n, a, b]⟩) ![g, 0, 0] (⟨3, ![1, a, b]⟩ : Shape).size inb)) h
      = layer ⟨g, hg⟩ W := by
  funext i
  obtain ⟨p, q, rfl⟩ : ∃ (p : Fin a) (q : Fin b), i = ix2 p q := ⟨i 0, i 1, eq_ix2 i⟩
  rw [shapeCast_1ab_ab_apply, ld_lead3_apply W g hg inb p q]
  rfl

/-- The kernel's form of the g-th bias row: load the [1, b] rectangle at (g, 0). -/
theorem ld_biasRow {Val : EltTy → Type} {e : EltTy} {n b : ℕ} (B : (⟨2, ![n, b]⟩ : Shape).Idx → Val e) (g : ℕ) (hg : g < n)
    (inb : ∀ ax, (![g, 0] : Fin 2 → ℕ) ax + (⟨2, ![1, b]⟩ : Shape).size ax ≤ (⟨2, ![n, b]⟩ : Shape).size ax) :
    View.ld B (Rect.unit (s := ⟨2, ![n, b]⟩) ![g, 0] (⟨2, ![1, b]⟩ : Shape).size inb) = biasRow ⟨g, hg⟩ B := by
  funext i
  obtain ⟨u, q, rfl⟩ : ∃ (u : Fin 1) (q : Fin b), i = ix2 u q := ⟨i 0, i 1, eq_ix2 i⟩
  rw [ld_lead2_apply B g hg inb u q]
  rfl

/-- The host's form of the g-th matrix: slice [g:g+1, 0:a, 0:b], reshape to [a, b]. -/
theorem slice_layer {n a b : ℕ} (W : (⟨3, ![n, a, b]⟩ : Shape).Idx → α) (g : ℕ) (hg : g < n)
    (hs : (⟨3, ![n, a, b]⟩ : Shape).Slices ![g, 0, 0] ⟨3, ![1, a, b]⟩)
    (h : (⟨3, ![1, a, b]⟩ : Shape).ShapeCasts ⟨2, ![a, b]⟩) :
    shapeCast ⟨2, ![a, b]⟩ (extractStridedSlice ⟨3, ![1, a, b]⟩ ![g, 0, 0] W hs) h = layer ⟨g, hg⟩ W := by
  funext i
  obtain ⟨p, q, rfl⟩ : ∃ (p : Fin a) (q : Fin b), i = ix2 p q := ⟨i 0, i 1, eq_ix2 i⟩
  rw [shapeCast_1ab_ab_apply]
  refine extractStridedSlice_apply _ W hs _ (ix3 ⟨g, hg⟩ p q) (fun ax => ?_)
  match ax with
  | ⟨0, _⟩ => show g = g + 0; omega
  | ⟨1, _⟩ => show p.val = 0 + p.val; omega
  | ⟨2, _⟩ => show q.val = 0 + q.val; omega

/-- The host's form of the g-th bias row: slice [g:g+1, 0:b], reshape to a vector, laid out as a row. -/
theorem slice_biasRow {n b : ℕ} (B : (⟨2, ![n, b]⟩ : Shape).Idx → EReal) (g : ℕ) (hg : g < n)
    (hs : (⟨2, ![n, b]⟩ : Shape).Slices ![g, 0] ⟨2, ![1, b]⟩)
    (h : (⟨2, ![1, b]⟩ : Shape).ShapeCasts ⟨1, ![b]⟩) :
    rowOf (shapeCast ⟨1, ![b]⟩ (extractStridedSlice ⟨2, ![1, b]⟩ ![g, 0] B hs) h) = biasRow ⟨g, hg⟩ B := by
  funext i
  obtain ⟨u, q, rfl⟩ : ∃ (u : Fin 1) (q : Fin b), i = ix2 u q := ⟨i 0, i 1, eq_ix2 i⟩
  show shapeCast ⟨1, ![b]⟩ (extractStridedSlice ⟨2, ![1, b]⟩ ![g, 0] B hs) h (ix1 q) = B (ix2 ⟨g, hg⟩ q)
  rw [shapeCast_1a_a_apply]
  refine extractStridedSlice_apply _ B hs _ (ix2 ⟨g, hg⟩ q) (fun ax => ?_)
  match ax with
  | ⟨0, _⟩ => show g = g + 0; omega
  | ⟨1, _⟩ => show q.val = 0 + q.val; omega

end Cert.Stack

end
-- ==== Proof.Spec.lean ====
/-
  The network both programs compute, as one function of the argument arrays over the extended reals.

  With x an N × F array of node features, (src, dst) the edge list, Wp, Wq two F × H matrices, U, D two stacks of five
  H × H matrices, α, β two 4 × H arrays, Wo an H × C matrix and b a vector of length C, the network keeps two N × H
  arrays p and q, started at p = x · Wp and q = x · Wq. A layer l = 0 … 3 does, in this order,
      p ← p + agg(q) · ½(U_l + U_lᵀ),      q ← q + agg(p) · ½(D_l + D_lᵀ),
      p ← p + α_l ⊙ σ(q),                  q ← q + β_l ⊙ σ(p),
  where agg sums, into each node, the rows of its in-neighbours (a gather of rows by src followed by a scatter-add by
  dst), σ is the logistic function 1 / (1 + e^{-t}) entry by entry and α_l ⊙ multiplies column k by α(l, k). After the
  four layers one more half-layer with U_4 and D_4 (no σ), and the result is q · Wo + b.

  Nothing below uses what agg is: it is a parameter, one function both programs apply to equal arrays.
-/
import proofs.«109571_j64716567216291_1_alg».proof.Proof.LibBiasedBlock
import proofs.«109571_j64716567216291_1_alg».proof.Proof.LibStackedLayers

noncomputable section

namespace Cert.Sympl

open Idealize.ShloMosaic Idealize.ShloMosaic.ValueIdx Cert.MatrixProduct Cert.Gcn Cert.Stack

/-- An a × b array of extended reals. -/
abbrev Mat (a b : ℕ) : Type := (⟨2, ![a, b]⟩ : Shape).Idx → EReal

/-- The float word of one half, as an extended real. -/
abbrev half : EReal := Ideal.ofBits .f32 0x3F000000#32

/-- `p + a · w`: a message-passing update, entry (r, k) being p(r, k) + Σ_j a(r, j) · w(j, k). -/
def upd {M K : ℕ} (p a : Mat M K) (w : Mat K K) : Mat M K := fun i => p i + mm a w i

/-- `p + α ⊙ σ(q)`: entry (r, k) is p(r, k) + α(0, k) · σ(q(r, k)), α a one-row array. -/
def act {M K : ℕ} (p q : Mat M K) (α : Mat 1 K) : Mat M K :=
  fun i => p i + α (ix2 (0 : Fin 1) (i 1)) * Ideal.logistic (q i)

/-- The symmetrised l-th matrix of a stack: entry (j, k) is ½ · (S(l, j, k) + S(l, k, j)). -/
def symm {n K : ℕ} (l : Fin n) (S : (⟨3, ![n, K, K]⟩ : Shape).Idx → EReal) : Mat K K :=
  fun i => half * (S (ix3 l (i 0) (i 1)) + S (ix3 l (i 1) (i 0)))

variable {N Fd H C : ℕ}

/-- One full layer on the pair (p, q), with the layer's two symmetrised matrices and two activation rows. -/
def layerStep (agg : Mat N H → Mat N H) (u d : Mat H H) (a b : Mat 1 H) (pq : Mat N H × Mat N H) : Mat N H × Mat N H :=
  let p1 := upd pq.1 (agg pq.2) u
  let q1 := upd pq.2 (agg p1) d
  let p2 := act p1 q1 a
  (p2, act q1 p2 b)

/-- The state (p, q) after the four full layers. -/
def afterLayers (agg : Mat N H → Mat N H) (x : Mat N Fd) (Wp Wq : Mat Fd H)
    (U D : (⟨3, ![5, H, H]⟩ : Shape).Idx → EReal) (al be : Mat 4 H) : Mat N H × Mat N H :=
  layerStep agg (symm 3 U) (symm 3 D) (biasRow 3 al) (biasRow 3 be)
    (layerStep agg (symm 2 U) (symm 2 D) (biasRow 2 al) (biasRow 2 be)
      (layerStep agg (symm 1 U) (symm 1 D) (biasRow 1 al) (biasRow 1 be)
        (layerStep agg (symm 0 U) (symm 0 D) (biasRow 0 al) (biasRow 0 be) (mm x Wp, mm x Wq))))

/-- The whole network: four layers, the last half-layer, the output projection. -/
def model (agg : Mat N H → Mat N H) (x : Mat N Fd) (Wp Wq : Mat Fd H)
    (U D : (⟨3, ![5, H, H]⟩ : Shape).Idx → EReal) (al be : Mat 4 H) (Wo : Mat H C)
    (b : (⟨1, ![C]⟩ : Shape).Idx → EReal) : Mat N C :=
  let pq := afterLayers agg x Wp Wq U D al be
  let p5 := upd pq.1 (agg pq.2) (symm 4 U)
  let q5 := upd pq.2 (agg p5) (symm 4 D)
  biasedProduct q5 Wo (rowOf b)

end Cert.Sympl

end
-- ==== Proof.KTerms.lean ====
/-
  The pieces of the tiled program's host side, named: the sender and receiver index vectors cut out of the edge list,
  the neighbourhood sum (a gather of rows by sender followed by a scatter-add by receiver), the two weight matrices laid
  side by side, and the stack of symmetrised matrices ½(W + Wᵀ) computed for all five layers at once.
-/
import proofs.«109571_j64716567216291_1_alg».proof.KernelIdeal
import proofs.«109571_j64716567216291_1_alg».proof.Proof.Gen.KernelIdeal
import proofs.«109571_j64716567216291_1_alg».proof.Proof.Spec

noncomputable section

namespace Cert.KernelIdeal.Chain

open Cert.KernelIdeal Idealize.ShloMosaic Idealize.ShloMosaic.ValueIdx Cert.Sympl
open Cert.KernelIdeal.Facts₀ Cert.KernelIdeal.Facts

/-- The senders: row 0 of the 2 × E edge list, as a vector. -/
def srcOf (E : (⟨S2x800000, .i32⟩ : BufTy).Contents (Elt Ideal)) : (⟨S800000, .i32⟩ : BufTy).Contents (Elt Ideal) :=
  shapeCast S800000 (extractStridedSlice S1x800000 ![0, 0] E slices_S2x800000_S1x800000_0_0) shapeCasts_S1x800000_S800000

/-- The receivers: row 1 of the edge list, as a vector. -/
def dstOf (E : (⟨S2x800000, .i32⟩ : BufTy).Contents (Elt Ideal)) : (⟨S800000, .i32⟩ : BufTy).Contents (Elt Ideal) :=
  shapeCast S800000 (extractStridedSlice S1x800000 ![1, 0] E slices_S2x800000_S1x800000_1_0) shapeCasts_S1x800000_S800000

/-- The neighbourhood sum: gather the rows of `v` named by the senders (a negative number counted from the end), and add
    each gathered row into the row named by its receiver, starting from zeros. -/
def aggK (src dst : (⟨S800000, .i32⟩ : BufTy).Contents (Elt Ideal)) (v : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 v
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The two projection matrices side by side: an F × 2H matrix. -/
def sideBySide (Wp Wq : FVec Ideal S256x128 .f32) : FVec Ideal S256x256 .f32 :=
  concatenate S256x256 1 [⟨S256x128, Wp⟩, ⟨S256x128, Wq⟩] concatenates_S256x128_S256x128_S256x256_d1

/-- All five symmetrised matrices at once: ½ · (S + S with its two inner axes exchanged). -/
def symStack (S : FVec Ideal S5x128x128 .f32) : FVec Ideal S5x128x128 .f32 :=
  mulf (broadcastInDim S5x128x128 ![] bcast_S_S5x128x128 (constant (F := Ideal) S_ .f32 0x3F000000#32))
    (addf S (transpose S5x128x128 [0, 2, 1] S transposes_S5x128x128_S5x128x128_0_2_1))

end Cert.KernelIdeal.Chain

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.Glue.lean ====
/-
  How the tiled program's host side spells the network's pieces: the l-th symmetrised matrix cut out of the stack of
  all five, the l-th activation row cut out of a 4 × H array, the two halves of the product with the side-by-side
  matrix, and the bias vector laid out as a row.
-/
import proofs.«109571_j64716567216291_1_alg».proof.Proof.KTerms
import Idealize.ShloMosaic.Lib.ValueLayout
import Idealize.ShloMosaic.Lib.Pipeline.Value
import proofs.«109571_j64716567216291_1_alg».proof.Proof.LibConcatRead

noncomputable section

namespace Cert.KernelIdeal.Chain

open Cert.KernelIdeal Idealize.ShloMosaic Idealize.ShloMosaic.ValueIdx Cert.Sympl Cert.MatrixProduct Cert.Gcn Cert.Stack
open Cert.KernelIdeal.Facts₀ Cert.KernelIdeal.Facts

/-- Slicing matrix l out of the symmetrised stack and dropping the unit axis gives ½(S_l + S_lᵀ). -/
theorem layer_symStack (l : ℕ) (hl : l < 5) (S : FVec Ideal S5x128x128 .f32) (hs : S5x128x128.Slices ![l, 0, 0] S1x128x128) :
    shapeCast S128x128 (extractStridedSlice S1x128x128 ![l, 0, 0] (symStack S) hs) shapeCasts_S1x128x128_S128x128
      = symm (⟨l, hl⟩ : Fin 5) S := by
  refine (slice_layer (symStack S) l hl hs shapeCasts_S1x128x128_S128x128).trans ?_
  funext i
  obtain ⟨j, k, rfl⟩ : ∃ (j k : Fin 128), i = ix2 j k := ⟨i 0, i 1, eq_ix2 i⟩
  -- the stack with its inner axes exchanged, read at (l, j, k), is the stack at (l, k, j)
  have ht : transpose S5x128x128 [0, 2, 1] S transposes_S5x128x128_S5x128x128_0_2_1 (ix3 (⟨l, hl⟩ : Fin 5) j k)
      = S (ix3 (⟨l, hl⟩ : Fin 5) k j) :=
    transpose_apply _ S _ _ _ (fun b => by
      match b with
      | ⟨0, _⟩ => rfl
      | ⟨1, _⟩ => rfl
      | ⟨2, _⟩ => rfl)
  show symStack S (ix3 (⟨l, hl⟩ : Fin 5) j k)
    = half * (S (ix3 (⟨l, hl⟩ : Fin 5) j k) + S (ix3 (⟨l, hl⟩ : Fin 5) k j))
  rw [← ht]
  simp only [symStack, mulf, addf, broadcastInDim, constant, Ideal.mulf_def, Ideal.addf_def, Ideal.ofBits_def]

/-- Slicing row l out of a 4 × H array, flattening it to a vector and laying it out as a row again gives row l. -/
theorem row_of_rows (l : ℕ) (hl : l < 4) (A : FVec Ideal S4x128 .f32) (hs : S4x128.Slices ![l, 0] S1x128) :
    shapeCast S1x128 (shapeCast S128 (extractStridedSlice S1x128 ![l, 0] A hs) shapeCasts_S1x128_S128) shapeCasts_S128_S1x128
      = biasRow (⟨l, hl⟩ : Fin 4) A := by
  rw [cast_row_eq_rowOf]
  exact slice_biasRow A l hl hs shapeCasts_S1x128_S128

/-- The first H columns of x · [Wp | Wq] are x · Wp. -/
theorem left_cols (X : FVec Ideal S50000x256 .f32) (Wp Wq : FVec Ideal S256x128 .f32) :
    extractStridedSlice S50000x128 ![0, 0] (mm X (sideBySide Wp Wq)) slices_S50000x256_S50000x128_0_0 = mm X Wp := by
  funext i
  obtain ⟨r, j, rfl⟩ : ∃ (r : Fin 50000) (j : Fin 128), i = ix2 r j := ⟨i 0, i 1, eq_ix2 i⟩
  have hj : j.val < 256 := Nat.lt_of_lt_of_le j.isLt (by decide)
  -- entry (r, j) of the slice is entry (r, j) of the product
  refine (slice2_axis1_apply 0 (mm X (sideBySide Wp Wq)) slices_S50000x256_S50000x128_0_0 r j ⟨j.val, hj⟩
    (Nat.zero_add _).symm).trans ?_
  rw [mm_apply, mm_apply]
  -- under the sum, column j of the joined matrix is column j of its left piece
  refine Finset.sum_congr rfl (fun c _ => ?_)
  rw [show sideBySide Wp Wq (ix2 c (⟨j.val, hj⟩ : Fin 256)) = Wp (ix2 c j) from
    concat_cols_left Wp Wq concatenates_S256x128_S256x128_S256x256_d1 c j ⟨j.val, hj⟩ rfl]

/-- The last H columns of x · [Wp | Wq] are x · Wq. -/
theorem right_cols (X : FVec Ideal S50000x256 .f32) (Wp Wq : FVec Ideal S256x128 .f32) :
    extractStridedSlice S50000x128 ![0, 128] (mm X (sideBySide Wp Wq)) slices_S50000x256_S50000x128_0_128 = mm X Wq := by
  funext i
  obtain ⟨r, j, rfl⟩ : ∃ (r : Fin 50000) (j : Fin 128), i = ix2 r j := ⟨i 0, i 1, eq_ix2 i⟩
  have hj : 128 + j.val < 256 := by have := j.isLt; omega
  -- entry (r, j) of the slice is entry (r, 128 + j) of the product
  refine (slice2_axis1_apply 128 (mm X (sideBySide Wp Wq)) slices_S50000x256_S50000x128_0_128 r j ⟨128 + j.val, hj⟩
    rfl).trans ?_
  rw [mm_apply, mm_apply]
  -- under the sum, column 128 + j of the joined matrix is column j of its right piece
  refine Finset.sum_congr rfl (fun c _ => ?_)
  rw [show sideBySide Wp Wq (ix2 c (⟨128 + j.val, hj⟩ : Fin 256)) = Wq (ix2 c j) from
    concat_cols_right Wp Wq concatenates_S256x128_S256x128_S256x256_d1 c j ⟨128 + j.val, hj⟩ rfl]

/-- The bias vector reshaped to a 1 × C array is its one row. -/
theorem bias_row (b : FVec Ideal S40 .f32) : shapeCast S1x40 b shapeCasts_S40_S1x40 = rowOf b :=
  cast_row_eq_rowOf b _

end Cert.KernelIdeal.Chain

end
-- ==== Proof.FinalUpd1.lean ====
/-
  Region 1 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd1

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k1_pay1 (F := Ideal) a w p = upd p a w := by
  funext j
  unfold k1_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the whole-array update of the arrays the region finds. -/
theorem flushed_eq (t : Fin cfg1.N) :
    (dat1 (F := Ideal) V c).flushed 3 t
      = ((cfg1.win 3).blk t).view.read (Elt Ideal) (upd (V c main_v6) (V c main_v25) (V c main_v27)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk1 V c 0 t) (iblk1 V c 1 t) (iblk1 V c 2 t) j
    = upd (V c main_v6) (V c main_v25) (V c main_v27) (((cfg1.win 3).blk t).view.emb j)
  have hj0 : (j 0).val < 2000 := (j 0).isLt
  have hj1 : (j 1).val < 128 := (j 1).isLt
  refine upd_of_row (V c main_v6) (V c main_v25) (V c main_v27) (iblk1 V c 0 t) (iblk1 V c 1 t) (iblk1 V c 2 t) j
    (((cfg1.win 3).blk t).view.emb j) ?_ (fun k => ?_) (fun k => ?_)
  · show V c main_v6 (((cfg1.win 0).blk t).view.emb j) = V c main_v6 (((cfg1.win 3).blk t).view.emb j)
    refine congrArg (V c main_v6) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  · show V c main_v25 (((cfg1.win 1).blk t).view.emb (ix2 (j 0) k)) = V c main_v25 (ix2 ((((cfg1.win 3).blk t).view.emb j) 0) k)
    refine congrArg (V c main_v25) (funext fun a => Fin.ext ?_)
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 128 + 1 * k.val = k.val; omega
  · show V c main_v27 (((cfg1.win 2).blk t).view.emb (ix2 k (j 1))) = V c main_v27 (ix2 k ((((cfg1.win 3).blk t).view.emb j) 1))
    refine congrArg (V c main_v27) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v28).slice (win1_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < 25 := by omega
  refine ⟨⟨(i 0).val / 2000, ht⟩, flush1_3 _, ?_⟩
  rw [mem_blk]
  obtain ⟨e0, e1, e2, e3, e4, e5, e6, e7⟩ := idx_facts ⟨(i 0).val / 2000, ht⟩
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e7]
    omega

/-- The output array after the region's 25 points: the whole-array update. -/
theorem final : (dat1 (F := Ideal) V c).arrAt 3 cfg1.N = upd (V c main_v6) (V c main_v25) (V c main_v27) :=
  (dat1 (F := Ideal) V c).arrAt_eq_of_cover 3 (upd (V c main_v6) (V c main_v25) (V c main_v27))
    (fun t _ => flushed_eq V c t) cover

end Cert.KernelIdeal.FinalUpd1

end
-- ==== Proof.FinalUpd3.lean ====
/-
  Region 3 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd3

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k3_pay1 (F := Ideal) a w p = upd p a w := by
  funext j
  unfold k3_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the whole-array update of the arrays the region finds. -/
theorem flushed_eq (t : Fin cfg3.N) :
    (dat3 (F := Ideal) V c).flushed 3 t
      = ((cfg3.win 3).blk t).view.read (Elt Ideal) (upd (V c main_v47_0) (V c main_v57) (V c main_v59)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk3 V c 0 t) (iblk3 V c 1 t) (iblk3 V c 2 t) j
    = upd (V c main_v47_0) (V c main_v57) (V c main_v59) (((cfg3.win 3).blk t).view.emb j)
  have hj0 : (j 0).val < 2000 := (j 0).isLt
  have hj1 : (j 1).val < 128 := (j 1).isLt
  refine upd_of_row (V c main_v47_0) (V c main_v57) (V c main_v59) (iblk3 V c 0 t) (iblk3 V c 1 t) (iblk3 V c 2 t) j
    (((cfg3.win 3).blk t).view.emb j) ?_ (fun k => ?_) (fun k => ?_)
  · show V c main_v47_0 (((cfg3.win 0).blk t).view.emb j) = V c main_v47_0 (((cfg3.win 3).blk t).view.emb j)
    refine congrArg (V c main_v47_0) (funext fun a => Fin.ext ?_)
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  · show V c main_v57 (((cfg3.win 1).blk t).view.emb (ix2 (j 0) k)) = V c main_v57 (ix2 ((((cfg3.win 3).blk t).view.emb j) 0) k)
    refine congrArg (V c main_v57) (funext fun a => Fin.ext ?_)
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 128 + 1 * k.val = k.val; omega
  · show V c main_v59 (((cfg3.win 2).blk t).view.emb (ix2 k (j 1))) = V c main_v59 (ix2 k ((((cfg3.win 3).blk t).view.emb j) 1))
    refine congrArg (V c main_v59) (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_3.index t (1 : Fin 2) * 128 + 1 * (j 1).val; omega

/-- An index of the array is in point t's block iff each coordinate is in the block's range on its axis. -/
theorem mem_blk (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v60).slice (win3_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 2000 < 25 := by omega
  refine ⟨⟨(i 0).val / 2000, ht⟩, flush3_3 _, ?_⟩
  rw [mem_blk]
  obtain ⟨e0, e1, e2, e3, e4, e5, e6, e7⟩ := idx_facts ⟨(i 0).val / 2000, ht⟩
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e7]
    omega

/-- The output array after the region's 25 points: the whole-array update. -/
theorem final : (dat3 (F := Ideal) V c).arrAt 3 cfg3.N = upd (V c main_v47_0) (V c main_v57) (V c main_v59) :=
  (dat3 (F := Ideal) V c).arrAt_eq_of_cover 3 (upd (V c main_v47_0) (V c main_v57) (V c main_v59))
    (fun t _ => flushed_eq V c t) cover

end Cert.KernelIdeal.FinalUpd3

end
-- ==== Proof.FinalUpd5.lean ====
/-
  Region 5 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd5

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k5_pay1 (F := Ideal) a w p = upd p a w := by
  funext j
  unfold k5_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What point t writes back is block t of the whole-array update of the arrays the region finds. -/
theorem flushed_eq (t : Fin cfg5.N) :
    (dat5 (F := Ideal) V c).flushed 3 t
      = ((cfg5.win 3).blk t).view.read (Elt Ideal) (upd (V c main_v79_0) (V c main_v89) (V c main_v91)) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk5 V c 0 t) (iblk5 V c 1 t) (iblk5 V c 2 t) j
    = upd (V c main_v79_0) (V c main_v89) (V c main_v91) (((cfg5.win 3).blk t).view.emb j)
  have hj0 : (j 0).val < 2000 := (j 0).isLt
  have hj1 : (j 1).val < 128 := (j 1).isLt
  refine upd_of_row (V c main_v79_0) (V c main_v89) (V c main_v91) (iblk5 V c 0 t) (iblk5 V c 1 t) (iblk5 V c 2 t) j
    (((cfg5.win 3).blk t).view.emb j) ?_ (fun k => ?_) (fun k => ?_)
  · show V c main_v79_0 (((cfg5.win 0).blk t).view.emb j) = V c main_v79_0 (((cfg5.win 3).blk t).view.emb j)
    refine congrArg (V c main_v79_0) (funext fun a => Fin.ext ?_)
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 128 + 1 * (j 1).val = win5_3.index t (1 : Fin 2) * 128 + 1 * (j 1).val; omega
  · show V c main_v89 (((cfg5.win 1).blk t).view.emb (ix2 (j 0) k)) = V c main_v89 (ix2 ((((cfg5.win 3).blk t).view.emb j) 0) k)
    refine congrArg (V c main_v89) (funext fun a => Fin.ext ?_)
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 128 + 1 * k.val = k.val; omega
  · show V c main_v91 (((cfg5.win 2).blk t).view.emb (ix2 k (j 1))) = V c main_v91 (ix2 k ((((cfg5.win 3).blk t).view.emb j) 1))
    refine congrArg (V c main_v91) (funext fun a => Fin.ext ?_)
    match a with
    | ⟨0, _⟩ => show win5_2.index t (0 : Fin 2) * 128 + 1 * k.val = k.val; omega
    | ⟨1, _⟩ => show win5_2.index t (1 : Fin 2) * 128 + 1 * (j 1).val = win5_3.index t (1 : Fin 2) * 128 + 1 * (j 1).val; omega

/-- An index of the array is in point t's block iff each coordinate is in the block's range on its axis. -/
theorem mem_blk (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v92).slice (win5_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have ht : (i 0).val / 2000 < 25 := by omega
  refine ⟨⟨(i 0).val / 2000, ht⟩, flush5_3 _, ?_⟩
  rw [mem_blk]
  obtain ⟨e0, e1, e2, e3, e4, e5, e6, e7⟩ := idx_facts ⟨(i 0).val / 2000, ht⟩
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    rw [e7]
    omega

/-- The output array after the region's 25 points: the whole-array update. -/
theorem final : (dat5 (F := Ideal) V c).arrAt 3 cfg5.N = upd (V c main_v79_0) (V c main_v89) (V c main_v91) :=
  (dat5 (F := Ideal) V c).arrAt_eq_of_cover 3 (upd (V c main_v79_0) (V c main_v89) (V c main_v91))
    (fun t _ => flushed_eq V c t) cover

end Cert.KernelIdeal.FinalUpd5

end
-- ==== Proof.FinalUpd7.lean ====
/-
  Region 7 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd7

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k7_pay1 (F := Ideal) a w p = upd p a w := by
  funext j
  unfold k7_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- What point t writes back is block t of the whole-array update of the arrays the region finds. -/
theorem flushed_eq (t : Fin cfg7.N) :
    (dat7 (F := Ideal) V c).flushed 3 t
      = ((cfg7.win 3).blk t).view.read (Elt Ideal) (upd (V c main_v111_0) (V c main_v121) (V c main_v123)) := by
  show (cfg7.win 3).cut (grid7.coords t) ((dat7 V c).after 3 t) = _
  rw [after7_3]
  unfold out7_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk7 V c 0 t) (iblk7 V c 1 t) (iblk7 V c 2 t) j
    = upd (V c main_v111_0) (V c main_v121) (V c main_v123) (((cfg7.win 3).blk t).view.emb j)
  have hj0 : (j 0).val < 2000 := (j 0).isLt
  have hj1 : (j 1).val < 128 := (j 1).isLt
  refine upd_of_row (V c main_v111_0) (V c main_v121) (V c main_v123) (iblk7 V c 0 t) (iblk7 V c 1 t) (iblk7 V c 2 t) j
    (((cfg7.win 3).blk t).view.emb j) ?_ (fun k => ?_) (fun k => ?_)
  · show V c main_v111_0 (((cfg7.win 0).blk t).view.emb j) = V c main_v111_0 (((cfg7.win 3).blk t).view.emb j)
    refine congrArg (V c main_v111_0) (funext fun a => Fin.ext ?_)
    match a with
    | ⟨0, _⟩ => show win7_0.index t (0 : Fin 2) * 2000 + 1 * (j 0).val = win7_3.index t (0 : Fin 2) * 2000 + 1 * (j 0).val; omega
    | ⟨1, _⟩ => show win7_0.index t (1 : Fin 2) * 128 + 1 * (j 1).val = win7_3.index t (1 : Fin 2) * 128 + 1 * (j 1).val; omega
  · show V c main_v121 (((cfg7.win 1).blk t).view.emb (ix2 (j 0) k)) = V c main_v121 (ix2 ((((cfg7.win 3).blk t).view.emb j) 0) k)
    refine congrArg (V c main_v121) (funext fun a => Fin.ext ?_)
    match a with
    | ⟨0, _⟩ => show win7_1.index t (0 : Fin 2) * 2000 + 1 * (j 0).val = win7_3.index t (0 : Fin 2) * 2000 + 1 * (j 0).val; omega
    | ⟨1, _⟩ => show win7_1.index t (1 : Fin 2) * 128 + 1 * k.val = k.val; omega
  · show V c main_v123 (((cfg7.win 2).blk t).view.emb (ix2 k (j 1))) = V c main_v123 (ix2 k ((((cfg7.win 3).blk t).view.emb j) 1))
    refine congrArg (V c main_v123) (funext fun a => Fin.ext ?_)
    match a with
    | ⟨0, _⟩ => show win7_2.index t (0 : Fin 2) * 128 + 1 * k.val = k.val; omega
    | ⟨1, _⟩ => show win7_2.index t (1 : Fin 2) * 128 + 1 * (j 1).val = win7_3.index t (1 : Fin 2) * 128 + 1 * (j 1).val; omega

/-- An index of the array is in point t's block iff each coordinate is in the block's range on its axis. -/
theorem mem_blk (t : Fin cfg7.N) (i : S50000x128.Idx) :
    i ∈ ((cfg7.win 3).blk t).view.set ↔ ∀ a : Fin 2, win7_3.index t a * S2000x128.size a ≤ (i a).val
      ∧ (i a).val < win7_3.index t a * S2000x128.size a + S2000x128.size a := by
  show i ∈ ((View.whole main_v124).slice (win7_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have ht : (i 0).val / 2000 < 25 := by omega
  refine ⟨⟨(i 0).val / 2000, ht⟩, flush7_3 _, ?_⟩
  rw [mem_blk]
  obtain ⟨e0, e1, e2, e3, e4, e5, e6, e7⟩ := idx_facts ⟨(i 0).val / 2000, ht⟩
  intro a
  match a with
  | ⟨0, _⟩ =>
    show win7_3.index ⟨(i 0).val / 2000, ht⟩ (0 : Fin 2) * 2000 ≤ (i 0).val
      ∧ (i 0).val < win7_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win7_3.index ⟨(i 0).val / 2000, ht⟩ (1 : Fin 2) * 128 ≤ (i 1).val
      ∧ (i 1).val < win7_3.index ⟨(i 0).val / 2000, ht⟩ (1 : Fin 2) * 128 + 128
    rw [e7]
    omega

/-- The output array after the region's 25 points: the whole-array update. -/
theorem final : (dat7 (F := Ideal) V c).arrAt 3 cfg7.N = upd (V c main_v111_0) (V c main_v121) (V c main_v123) :=
  (dat7 (F := Ideal) V c).arrAt_eq_of_cover 3 (upd (V c main_v111_0) (V c main_v121) (V c main_v123))
    (fun t _ => flushed_eq V c t) cover

end Cert.KernelIdeal.FinalUpd7

end
-- ==== Proof.FinalUpd9.lean ====
/-
  Region 9 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd9

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k9_pay1 (F := Ideal) a w p = upd p a w := by
  funext j
  unfold k9_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- What point t writes back is block t of the whole-array update of the arrays the region finds. -/
theorem flushed_eq (t : Fin cfg9.N) :
    (dat9 (F := Ideal) V c).flushed 3 t
      = ((cfg9.win 3).blk t).view.read (Elt Ideal) (upd (V c main_v143_0) (V c main_v153) (V c main_v155)) := by
  show (cfg9.win 3).cut (grid9.coords t) ((dat9 V c).after 3 t) = _
  rw [after9_3]
  unfold out9_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk9 V c 0 t) (iblk9 V c 1 t) (iblk9 V c 2 t) j
    = upd (V c main_v143_0) (V c main_v153) (V c main_v155) (((cfg9.win 3).blk t).view.emb j)
  have hj0 : (j 0).val < 2000 := (j 0).isLt
  have hj1 : (j 1).val < 128 := (j 1).isLt
  refine upd_of_row (V c main_v143_0) (V c main_v153) (V c main_v155) (iblk9 V c 0 t) (iblk9 V c 1 t) (iblk9 V c 2 t) j
    (((cfg9.win 3).blk t).view.emb j) ?_ (fun k => ?_) (fun k => ?_)
  · show V c main_v143_0 (((cfg9.win 0).blk t).view.emb j) = V c main_v143_0 (((cfg9.win 3).blk t).view.emb j)
    refine congrArg (V c main_v143_0) (funext fun a => Fin.ext ?_)
    match a with
    | ⟨0, _⟩ => show win9_0.index t (0 : Fin 2) * 2000 + 1 * (j 0).val = win9_3.index t (0 : Fin 2) * 2000 + 1 * (j 0).val; omega
    | ⟨1, _⟩ => show win9_0.index t (1 : Fin 2) * 128 + 1 * (j 1).val = win9_3.index t (1 : Fin 2) * 128 + 1 * (j 1).val; omega
  · show V c main_v153 (((cfg9.win 1).blk t).view.emb (ix2 (j 0) k)) = V c main_v153 (ix2 ((((cfg9.win 3).blk t).view.emb j) 0) k)
    refine congrArg (V c main_v153) (funext fun a => Fin.ext ?_)
    match a with
    | ⟨0, _⟩ => show win9_1.index t (0 : Fin 2) * 2000 + 1 * (j 0).val = win9_3.index t (0 : Fin 2) * 2000 + 1 * (j 0).val; omega
    | ⟨1, _⟩ => show win9_1.index t (1 : Fin 2) * 128 + 1 * k.val = k.val; omega
  · show V c main_v155 (((cfg9.win 2).blk t).view.emb (ix2 k (j 1))) = V c main_v155 (ix2 k ((((cfg9.win 3).blk t).view.emb j) 1))
    refine congrArg (V c main_v155) (funext fun a => Fin.ext ?_)
    match a with
    | ⟨0, _⟩ => show win9_2.index t (0 : Fin 2) * 128 + 1 * k.val = k.val; omega
    | ⟨1, _⟩ => show win9_2.index t (1 : Fin 2) * 128 + 1 * (j 1).val = win9_3.index t (1 : Fin 2) * 128 + 1 * (j 1).val; omega

/-- An index of the array is in point t's block iff each coordinate is in the block's range on its axis. -/
theorem mem_blk (t : Fin cfg9.N) (i : S50000x128.Idx) :
    i ∈ ((cfg9.win 3).blk t).view.set ↔ ∀ a : Fin 2, win9_3.index t a * S2000x128.size a ≤ (i a).val
      ∧ (i a).val < win9_3.index t a * S2000x128.size a + S2000x128.size a := by
  show i ∈ ((View.whole main_v156).slice (win9_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg9.N, (cfg9.win 3).flush t = true ∧ i ∈ ((cfg9.win 3).blk t).view.set := by
  have hi0 : (i 0).val < 50000 := (i 0).isLt
  have hi1 : (i 1).val < 128 := (i 1).isLt
  have ht : (i 0).val / 2000 < 25 := by omega
  refine ⟨⟨(i 0).val / 2000, ht⟩, flush9_3 _, ?_⟩
  rw [mem_blk]
  obtain ⟨e0, e1, e2, e3, e4, e5, e6, e7⟩ := idx_facts ⟨(i 0).val / 2000, ht⟩
  intro a
  match a with
  | ⟨0, _⟩ =>
    show win9_3.index ⟨(i 0).val / 2000, ht⟩ (0 : Fin 2) * 2000 ≤ (i 0).val
      ∧ (i 0).val < win9_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win9_3.index ⟨(i 0).val / 2000, ht⟩ (1 : Fin 2) * 128 ≤ (i 1).val
      ∧ (i 1).val < win9_3.index ⟨(i 0).val / 2000, ht⟩ (1 : Fin 2) * 128 + 128
    rw [e7]
    omega

/-- The output array after the region's 25 points: the whole-array update. -/
theorem final : (dat9 (F := Ideal) V c).arrAt 3 cfg9.N = upd (V c main_v143_0) (V c main_v153) (V c main_v155) :=
  (dat9 (F := Ideal) V c).arrAt_eq_of_cover 3 (upd (V c main_v143_0) (V c main_v153) (V c main_v155))
    (fun t _ => flushed_eq V c t) cover

end Cert.KernelIdeal.FinalUpd9

end
-- ==== Proof.FinalUpd10.lean ====
/-
  Region 10 of the tiled program: what its 25 grid points leave in the output array is the whole-array update
  p + a · w of the arrays the region finds. Point t works on rows 2000·t … 2000·t + 1999 of p and a and on the whole of
  w; an entry of a product depends on one row of the left factor only, so the block's result is the block of the
  whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalUpd10

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the a-block times the w-block into zeros, added to the p-block. -/
theorem pay_eq (a p : FVec Ideal S2000x128 .f32) (w : FVec Ideal S128x128 .f32) : k10_pay1 (F := Ideal) a w p = upd p a w := by
  funext j
  unfold k10_pay1
  rw [addf_apply, shapeCast_self]
  show _ = p j + mm a w j
  refine congrArg (p j + ·) ?_
  refine (congrFun (matmul_zero_eq_mm dot_S2000x128_S128x128_S2000x128_1_0_0_1_n_n_wf none _ _) j).trans ?_
  rw [shapeCast_self, shapeCast_self]
  rfl

/-- An entry of a block's update is the entry of the whole arrays' update: entry j of the block is entry i of the
    array when the p-block holds p(i) at j, row j 0 of the a-block is row i 0 of a, and column j 1 of the w-block is
    column i 1 of w. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ c : Fin K, x1 (ix2 (j 0) c) = A (ix2 (i 0) c))
    (hw : ∀ c : Fin K, x2 (ix2 c (j 1)) = W (ix2 c (i 1))) :
    upd x0 x1 x2 j = upd P A W i := by
  show x0 j + mm x1 x2 j = P i + mm A W i
  rw [hp, mm_of_row_col A W x1 x2 j i ha hw]

variable (V : (c : Dev nD) → (b : Ref sig .tc) → Buf (Elt Ideal) ((c : Thread nD τ).loc b)) (c : Dev nD)

/-- The printed index maps over the grid: the row-block index of p, of a and of the output is the point, their column-block
    index and both block indices of w are 0. -/
theorem idx_facts : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0 :=
  (by decide +kernel : ∀ t : Fin grid10.N, _)

/-- What point t writes back is block t of the whole-array update of the arrays the region finds. -/
theorem flushed_eq (t : Fin cfg10.N) :
    (dat10 (F := Ideal) V c).flushed 3 t
      = ((cfg10.win 3).blk t).view.read (Elt Ideal) (upd (V c main_v143_1) (V c main_v166) (V c main_v168)) := by
  show (cfg10.win 3).cut (grid10.coords t) ((dat10 V c).after 3 t) = _
  rw [after10_3]
  unfold out10_3
  rw [View.canon_unit_zero hz]
  simp only [View.ld_unit_zero (S := S2000x128) hz, View.ld_unit_zero (S := S128x128) hz]
  rw [pay_eq]
  obtain ⟨e0, e1, e2, e3, e4, e5, e6, e7⟩ := idx_facts t
  funext j
  show upd (iblk10 V c 0 t) (iblk10 V c 1 t) (iblk10 V c 2 t) j
    = upd (V c main_v143_1) (V c main_v166) (V c main_v168) (((cfg10.win 3).blk t).view.emb j)
  have hj0 : (j 0).val < 2000 := (j 0).isLt
  have hj1 : (j 1).val < 128 := (j 1).isLt
  refine upd_of_row (V c main_v143_1) (V c main_v166) (V c main_v168) (iblk10 V c 0 t) (iblk10 V c 1 t) (iblk10 V c 2 t) j
    (((cfg10.win 3).blk t).view.emb j) ?_ (fun k => ?_) (fun k => ?_)
  · show V c main_v143_1 (((cfg10.win 0).blk t).view.emb j) = V c main_v143_1 (((cfg10.win 3).blk t).view.emb j)
    refine congrArg (V c main_v143_1) (funext fun a => Fin.ext ?_)
    match a with
    | ⟨0, _⟩ => show win10_0.index t (0 : Fin 2) * 2000 + 1 * (j 0).val = win10_3.index t (0 : Fin 2) * 2000 + 1 * (j 0).val; omega
    | ⟨1, _⟩ => show win10_0.index t (1 : Fin 2) * 128 + 1 * (j 1).val = win10_3.index t (1 : Fin 2) * 128 + 1 * (j 1).val; omega
  · show V c main_v166 (((cfg10.win 1).blk t).view.emb (ix2 (j 0) k)) = V c main_v166 (ix2 ((((cfg10.win 3).blk t).view.emb j) 0) k)
    refine congrArg (V c main_v166) (funext fun a => Fin.ext ?_)
    match a with
    | ⟨0, _⟩ => show win10_1.index t (0 : Fin 2) * 2000 + 1 * (j 0).val = win10_3.index t (0 : Fin 2) * 2000 + 1 * (j 0).val; omega
    | ⟨1, _⟩ => show win10_1.index t (1 : Fin 2) * 128 + 1 * k.val = k.val; omega
  · show V c main_v168 (((cfg10.win 2).blk t).view.emb (ix2 k (j 1))) = V c main_v168 (ix2 k ((((cfg10.win 3).blk t).view.emb j) 1))
    refine congrArg (V c main_v168) (funext fun a => Fin.ext ?_)
    match a with
    | ⟨0, _⟩ => show win10_2.index t (0 : Fin 2) * 128 + 1 * k.val = k.val; omega
    | ⟨1, _⟩ => show win10_2.index t (1 : Fin 2) * 128 + 1 * (j 1).val = win10_3.index t (1 : Fin 2) * 128 + 1 * (j 1).val; omega

/-- An index of the array is in point t's block iff each coordinate is in the block's range on its axis. -/
theorem mem_blk (t : Fin cfg10.N) (i : S50000x128.Idx) :
    i ∈ ((cfg10.win 3).blk t).view.set ↔ ∀ a : Fin 2, win10_3.index t a * S2000x128.size a ≤ (i a).val
      ∧ (i a).val < win10_3.index t a * S2000x128.size a + S2000x128.size a := by
  show i ∈ ((View.whole main_v169).slice (win10_3.rect t)).set ↔ _
  rw [View.set_slice_whole, Rect.mem_set_unit]
  exact Iff.rfl

/-- Row r of the array is in the block of point r / 2000: the 25 row blocks cover the 50000 rows. -/
theorem cover (i : S50000x128.Idx) :
    ∃ t : Fin cfg10.N, (cfg10.win 3).flush t = true ∧ i ∈ ((cfg10.win 3).blk t).view.set := by
  have hi0 : (i 0).val < 50000 := (i 0).isLt
  have hi1 : (i 1).val < 128 := (i 1).isLt
  have ht : (i 0).val / 2000 < 25 := by omega
  refine ⟨⟨(i 0).val / 2000, ht⟩, flush10_3 _, ?_⟩
  rw [mem_blk]
  obtain ⟨e0, e1, e2, e3, e4, e5, e6, e7⟩ := idx_facts ⟨(i 0).val / 2000, ht⟩
  intro a
  match a with
  | ⟨0, _⟩ =>
    show win10_3.index ⟨(i 0).val / 2000, ht⟩ (0 : Fin 2) * 2000 ≤ (i 0).val
      ∧ (i 0).val < win10_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win10_3.index ⟨(i 0).val / 2000, ht⟩ (1 : Fin 2) * 128 ≤ (i 1).val
      ∧ (i 1).val < win10_3.index ⟨(i 0).val / 2000, ht⟩ (1 : Fin 2) * 128 + 128
    rw [e7]
    omega

/-- The output array after the region's 25 points: the whole-array update. -/
theorem final : (dat10 (F := Ideal) V c).arrAt 3 cfg10.N = upd (V c main_v143_1) (V c main_v166) (V c main_v168) :=
  (dat10 (F := Ideal) V c).arrAt_eq_of_cover 3 (upd (V c main_v143_1) (V c main_v166) (V c main_v168))
    (fun t _ => flushed_eq V c t) cover

end Cert.KernelIdeal.FinalUpd10

end
-- ==== Proof.FinalAct2.lean ====
/-
  Region 2 of the tiled program: what its 25 grid points leave in its two output arrays. With p, q, a, w, α, β the
  arrays the region finds, the first output is p' = p + α ⊙ σ(q') and the second q' + β ⊙ σ(p'), where q' = q + a · w.
  Point t works on rows 2000·t … 2000·t + 1999 of p, q and a and on the whole of w, α and β; every entry of the two
  results depends on one row of the row-indexed operands only, so each block's result is the block of the whole
  arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalAct2

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-! ## The body's arithmetic on its blocks -/

/-- The a-block times the w-block into zeros, added to the q-block. -/
theorem pay1_eq (a q : FVec Ideal S2000x128 .f32) (w : FVec Ideal S128x128 .f32) : k2_pay1 (F := Ideal) a w q = upd q a w := by
  funext j
  unfold k2_pay1
  rw [addf_apply, shapeCast_self]
  show _ = q j + mm a w j
  refine congrArg (q j + ·) ?_
  refine (congrFun (matmul_zero_eq_mm dot_S2000x128_S128x128_S2000x128_1_0_0_1_n_n_wf none _ _) j).trans ?_
  rw [shapeCast_self, shapeCast_self]
  rfl

/-- The first store: the p-block plus the α-row times the logistic of the updated q-block. -/
theorem pay2_eq (a q p : FVec Ideal S2000x128 .f32) (w : FVec Ideal S128x128 .f32) (al : FVec Ideal S1x128 .f32) :
    k2_pay2 (F := Ideal) a w q p al = act p (upd q a w) al := by
  funext j
  obtain ⟨r, k, rfl⟩ : ∃ (r : Fin 2000) (k : Fin 128), j = ix2 r k := ⟨j 0, j 1, eq_ix2 j⟩
  unfold k2_pay2
  rw [addf_apply, mulf_apply, shapeCast_self, shapeCast_self, broadcastTo_1b_ab_apply, pay1_eq]
  rfl

/-- The second store: the updated q-block plus the β-row times the logistic of the first store. -/
theorem pay3_eq (a q p : FVec Ideal S2000x128 .f32) (w : FVec Ideal S128x128 .f32) (al be : FVec Ideal S1x128 .f32) :
    k2_pay3 (F := Ideal) a w q p al be = act (upd q a w) (act p (upd q a w) al) be := by
  funext j
  obtain ⟨r, k, rfl⟩ : ∃ (r : Fin 2000) (k : Fin 128), j = ix2 r k := ⟨j 0, j 1, eq_ix2 j⟩
  unfold k2_pay3
  rw [addf_apply, mulf_apply, shapeCast_self, broadcastTo_1b_ab_apply, pay1_eq, pay2_eq]
  rfl

/-! ## One row of the row-indexed operands decides an entry -/

/-- An entry of a block's update is the entry of the whole arrays' update. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ k : Fin K, x1 (ix2 (j 0) k) = A (ix2 (i 0) k))
    (hw : ∀ k : Fin K, x2 (ix2 k (j 1)) = W (ix2 k (i 1))) :
    upd x0 x1 x2 j = upd P A W i := by
  show x0 j + mm x1 x2 j = P i + mm A W i
  rw [hp, mm_of_row_col A W x1 x2 j i ha hw]

/-- An entry of a block's activation step is the entry of the whole arrays' activation step. -/
theorem act_of_row {M R K : ℕ} (P Q : Mat M K) (Al : Mat 1 K) (x0 x1 : Mat R K) (x2 : Mat 1 K)
    (j : (⟨2, ![R, K]⟩ : Shape).Idx) (i : (⟨2, ![M, K]⟩ : Shape).Idx)
    (hp : x0 j = P i) (hq : x1 j = Q i) (hal : x2 (ix2 (0 : Fin 1) (j 1)) = Al (ix2 (0 : Fin 1) (i 1))) :
    act x0 x1 x2 j = act P Q Al i := by
  show x0 j + x2 (ix2 (0 : Fin 1) (j 1)) * Ideal.logistic (x1 j) = P i + Al (ix2 (0 : Fin 1) (i 1)) * Ideal.logistic (Q i)
  rw [hp, hq, hal]

variable (V : (c : Dev nD) → (b : Ref sig .tc) → Buf (Elt Ideal) ((c : Thread nD τ).loc b)) (c : Dev nD)

/-- The printed index maps over the grid: the row-block index of p, q, a and of the two outputs is the point, their
    column-block index and both block indices of w, α and β are 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## The blocks of point t, read off the arrays: entry j of a row block is entry i of the array when i is j moved
    down by 2000 · t rows -/

/-- The updated q-block is the block of the whole update q + a · w. -/
theorem blk_upd (t : Fin cfg2.N) (j : S2000x128.Idx) (i : S50000x128.Idx)
    (h0 : (i 0).val = t.val * 2000 + (j 0).val) (h1 : (i 1).val = (j 1).val) :
    upd (iblk2 V c 1 t) (iblk2 V c 2 t) (iblk2 V c 3 t) j = upd (V c main_v7) (V c main_v38) (V c main_v46) i := by
  obtain ⟨e0, e1, e2, e3, e4, e5, e6, e7, e8, e9, e10, e11, e12, e13, e14, e15⟩ := idx_facts t
  refine upd_of_row (V c main_v7) (V c main_v38) (V c main_v46) (iblk2 V c 1 t) (iblk2 V c 2 t) (iblk2 V c 3 t) j i
    ?_ (fun k => ?_) (fun k => ?_)
  · show V c main_v7 (((cfg2.win 1).blk t).view.emb j) = V c main_v7 i
    refine congrArg (V c main_v7) (funext fun a => Fin.ext ?_)
    match a with
    | ⟨0, _⟩ => show win2_1.index t (0 : Fin 2) * 2000 + 1 * (j 0).val = (i 0).val; omega
    | ⟨1, _⟩ => show win2_1.index t (1 : Fin 2) * 128 + 1 * (j 1).val = (i 1).val; omega
  · show V c main_v38 (((cfg2.win 2).blk t).view.emb (ix2 (j 0) k)) = V c main_v38 (ix2 (i 0) k)
    refine congrArg (V c main_v38) (funext fun a => Fin.ext ?_)
    match a with
    | ⟨0, _⟩ => show win2_2.index t (0 : Fin 2) * 2000 + 1 * (j 0).val = (i 0).val; omega
    | ⟨1, _⟩ => show win2_2.index t (1 : Fin 2) * 128 + 1 * k.val = k.val; omega
  · show V c main_v46 (((cfg2.win 3).blk t).view.emb (ix2 k (j 1))) = V c main_v46 (ix2 k (i 1))
    refine congrArg (V c main_v46) (funext fun a => Fin.ext ?_)
    match a with
    | ⟨0, _⟩ => show win2_3.index t (0 : Fin 2) * 128 + 1 * k.val = k.val; omega
    | ⟨1, _⟩ => show win2_3.index t (1 : Fin 2) * 128 + 1 * (j 1).val = (i 1).val; omega

/-- The first store's block is the block of p' = p + α ⊙ σ(q + a · w). -/
theorem blk_actp (t : Fin cfg2.N) (j : S2000x128.Idx) (i : S50000x128.Idx)
    (h0 : (i 0).val = t.val * 2000 + (j 0).val) (h1 : (i 1).val = (j 1).val) :
    act (iblk2 V c 0 t) (upd (iblk2 V c 1 t) (iblk2 V c 2 t) (iblk2 V c 3 t)) (iblk2 V c 4 t) j
      = act (V c main_v28) (upd (V c main_v7) (V c main_v38) (V c main_v46)) (V c main_v41) i := by
  obtain ⟨e0, e1, e2, e3, e4, e5, e6, e7, e8, e9, e10, e11, e12, e13, e14, e15⟩ := idx_facts t
  refine act_of_row (V c main_v28) (upd (V c main_v7) (V c main_v38) (V c main_v46)) (V c main_v41)
    (iblk2 V c 0 t) (upd (iblk2 V c 1 t) (iblk2 V c 2 t) (iblk2 V c 3 t)) (iblk2 V c 4 t) j i ?_ (blk_upd V c t j i h0 h1) ?_
  · show V c main_v28 (((cfg2.win 0).blk t).view.emb j) = V c main_v28 i
    refine congrArg (V c main_v28) (funext fun a => Fin.ext ?_)
    match a with
    | ⟨0, _⟩ => show win2_0.index t (0 : Fin 2) * 2000 + 1 * (j 0).val = (i 0).val; omega
    | ⟨1, _⟩ => show win2_0.index t (1 : Fin 2) * 128 + 1 * (j 1).val = (i 1).val; omega
  · show V c main_v41 (((cfg2.win 4).blk t).view.emb (ix2 (0 : Fin 1) (j 1))) = V c main_v41 (ix2 (0 : Fin 1) (i 1))
    refine congrArg (V c main_v41) (funext fun a => Fin.ext ?_)
    match a with
    | ⟨0, _⟩ => show win2_4.index t (0 : Fin 2) * 1 + 1 * 0 = 0; omega
    | ⟨1, _⟩ => show win2_4.index t (1 : Fin 2) * 128 + 1 * (j 1).val = (i 1).val; omega

/-- The second store's block is the block of q' + β ⊙ σ(p'). -/
theorem blk_actq (t : Fin cfg2.N) (j : S2000x128.Idx) (i : S50000x128.Idx)
    (h0 : (i 0).val = t.val * 2000 + (j 0).val) (h1 : (i 1).val = (j 1).val) :
    act (upd (iblk2 V c 1 t) (iblk2 V c 2 t) (iblk2 V c 3 t))
        (act (iblk2 V c 0 t) (upd (iblk2 V c 1 t) (iblk2 V c 2 t) (iblk2 V c 3 t)) (iblk2 V c 4 t)) (iblk2 V c 5 t) j
      = act (upd (V c main_v7) (V c main_v38) (V c main_v46))
          (act (V c main_v28) (upd (V c main_v7) (V c main_v38) (V c main_v46)) (V c main_v41)) (V c main_v44) i := by
  obtain ⟨e0, e1, e2, e3, e4, e5, e6, e7, e8, e9, e10, e11, e12, e13, e14, e15⟩ := idx_facts t
  refine act_of_row (upd (V c main_v7) (V c main_v38) (V c main_v46))
    (act (V c main_v28) (upd (V c main_v7) (V c main_v38) (V c main_v46)) (V c main_v41)) (V c main_v44)
    (upd (iblk2 V c 1 t) (iblk2 V c 2 t) (iblk2 V c 3 t))
    (act (iblk2 V c 0 t) (upd (iblk2 V c 1 t) (iblk2 V c 2 t) (iblk2 V c 3 t)) (iblk2 V c 4 t)) (iblk2 V c 5 t) j i
    (blk_upd V c t j i h0 h1) (blk_actp V c t j i h0 h1) ?_
  show V c main_v44 (((cfg2.win 5).blk t).view.emb (ix2 (0 : Fin 1) (j 1))) = V c main_v44 (ix2 (0 : Fin 1) (i 1))
  refine congrArg (V c main_v44) (funext fun a => Fin.ext ?_)
  match a with
  | ⟨0, _⟩ => show win2_5.index t (0 : Fin 2) * 1 + 1 * 0 = 0; omega
  | ⟨1, _⟩ => show win2_5.index t (1 : Fin 2) * 128 + 1 * (j 1).val = (i 1).val; omega

/-! ## The first output -/

/-- What point t writes back to output 6 is block t of the whole-array result. -/
theorem flushed6_eq (t : Fin cfg2.N) :
    (dat2 (F := Ideal) V c).flushed 6 t = ((cfg2.win 6).blk t).view.read (Elt Ideal) (act (V c main_v28) (upd (V c main_v7) (V c main_v38) (V c main_v46)) (V c main_v41)) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  rw [pay2_eq]
  obtain ⟨e0, e1, e2, e3, e4, e5, e6, e7, e8, e9, e10, e11, e12, e13, e14, e15⟩ := idx_facts t
  funext j
  refine blk_actp V c t j (((cfg2.win 6).blk t).view.emb j) ?_ ?_
  · show win2_6.index t (0 : Fin 2) * 2000 + 1 * (j 0).val = t.val * 2000 + (j 0).val; omega
  · show win2_6.index t (1 : Fin 2) * 128 + 1 * (j 1).val = (j 1).val; omega

/-- An index of output 6's array is in point t's block iff each coordinate is in the block's range on its axis. -/
theorem mem_blk6 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v47_0).slice (win2_6.rect t)).set ↔ _
  rw [View.set_slice_whole, Rect.mem_set_unit]
  exact Iff.rfl

/-- Row r of output 6's array is in the block of point r / 2000: the 25 row blocks cover the 50000 rows. -/
theorem cover6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 2000 < 25 := by omega
  refine ⟨⟨(i 0).val / 2000, ht⟩, flush2_6 _, ?_⟩
  rw [mem_blk6]
  obtain ⟨e0, e1, e2, e3, e4, e5, e6, e7, e8, e9, e10, e11, e12, e13, e14, e15⟩ := idx_facts ⟨(i 0).val / 2000, ht⟩
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e12]
    show (i 0).val / 2000 * 2000 ≤ (i 0).val ∧ (i 0).val < (i 0).val / 2000 * 2000 + 2000
    omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e13]
    omega

/-- Output 6's array after the region's 25 points. -/
theorem finalp : (dat2 (F := Ideal) V c).arrAt 6 cfg2.N = act (V c main_v28) (upd (V c main_v7) (V c main_v38) (V c main_v46)) (V c main_v41) :=
  (dat2 (F := Ideal) V c).arrAt_eq_of_cover 6 (act (V c main_v28) (upd (V c main_v7) (V c main_v38) (V c main_v46)) (V c main_v41))
    (fun t _ => flushed6_eq V c t) cover6

/-! ## The second output -/

/-- What point t writes back to output 7 is block t of the whole-array result. -/
theorem flushed7_eq (t : Fin cfg2.N) :
    (dat2 (F := Ideal) V c).flushed 7 t = ((cfg2.win 7).blk t).view.read (Elt Ideal) (act (upd (V c main_v7) (V c main_v38) (V c main_v46)) (act (V c main_v28) (upd (V c main_v7) (V c main_v38) (V c main_v46)) (V c main_v41)) (V c main_v44)) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x128) hz, View.ld_unit_zero (S := S1x128) hz]
  rw [pay3_eq]
  obtain ⟨e0, e1, e2, e3, e4, e5, e6, e7, e8, e9, e10, e11, e12, e13, e14, e15⟩ := idx_facts t
  funext j
  refine blk_actq V c t j (((cfg2.win 7).blk t).view.emb j) ?_ ?_
  · show win2_7.index t (0 : Fin 2) * 2000 + 1 * (j 0).val = t.val * 2000 + (j 0).val; omega
  · show win2_7.index t (1 : Fin 2) * 128 + 1 * (j 1).val = (j 1).val; omega

/-- An index of output 7's array is in point t's block iff each coordinate is in the block's range on its axis. -/
theorem mem_blk7 (t : Fin cfg2.N) (i : S50000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v47_1).slice (win2_7.rect t)).set ↔ _
  rw [View.set_slice_whole, Rect.mem_set_unit]
  exact Iff.rfl

/-- Row r of output 7's array is in the block of point r / 2000: the 25 row blocks cover the 50000 rows. -/
theorem cover7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have ht : (i 0).val / 2000 < 25 := by omega
  refine ⟨⟨(i 0).val / 2000, ht⟩, flush2_7 _, ?_⟩
  rw [mem_blk7]
  obtain ⟨e0, e1, e2, e3, e4, e5, e6, e7, e8, e9, e10, e11, e12, e13, e14, e15⟩ := idx_facts ⟨(i 0).val / 2000, ht⟩
  intro a
  match a with
  | ⟨0, _⟩ =>
    show win2_7.index ⟨(i 0).val / 2000, ht⟩ (0 : Fin 2) * 2000 ≤ (i 0).val
      ∧ (i 0).val < win2_7.index ⟨(i 0).val / 2000, ht⟩ (0 : Fin 2) * 2000 + 2000
    rw [e14]
    show (i 0).val / 2000 * 2000 ≤ (i 0).val ∧ (i 0).val < (i 0).val / 2000 * 2000 + 2000
    omega
  | ⟨1, _⟩ =>
    show win2_7.index ⟨(i 0).val / 2000, ht⟩ (1 : Fin 2) * 128 ≤ (i 1).val
      ∧ (i 1).val < win2_7.index ⟨(i 0).val / 2000, ht⟩ (1 : Fin 2) * 128 + 128
    rw [e15]
    omega

/-- Output 7's array after the region's 25 points. -/
theorem finalq : (dat2 (F := Ideal) V c).arrAt 7 cfg2.N = act (upd (V c main_v7) (V c main_v38) (V c main_v46)) (act (V c main_v28) (upd (V c main_v7) (V c main_v38) (V c main_v46)) (V c main_v41)) (V c main_v44) :=
  (dat2 (F := Ideal) V c).arrAt_eq_of_cover 7 (act (upd (V c main_v7) (V c main_v38) (V c main_v46)) (act (V c main_v28) (upd (V c main_v7) (V c main_v38) (V c main_v46)) (V c main_v41)) (V c main_v44))
    (fun t _ => flushed7_eq V c t) cover7

end Cert.KernelIdeal.FinalAct2

end
-- ==== Proof.FinalAct4.lean ====
/-
  Region 4 of the tiled program: what its 25 grid points leave in its two output arrays. With p, q, a, w, α, β the
  arrays the region finds, the first output is p' = p + α ⊙ σ(q') and the second q' + β ⊙ σ(p'), where q' = q + a · w.
  Point t works on rows 2000·t … 2000·t + 1999 of p, q and a and on the whole of w, α and β; every entry of the two
  results depends on one row of the row-indexed operands only, so each block's result is the block of the whole
  arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalAct4

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-! ## The body's arithmetic on its blocks -/

/-- The a-block times the w-block into zeros, added to the q-block. -/
theorem pay1_eq (a q : FVec Ideal S2000x128 .f32) (w : FVec Ideal S128x128 .f32) : k4_pay1 (F := Ideal) a w q = upd q a w := by
  funext j
  unfold k4_pay1
  rw [addf_apply, shapeCast_self]
  show _ = q j + mm a w j
  refine congrArg (q j + ·) ?_
  refine (congrFun (matmul_zero_eq_mm dot_S2000x128_S128x128_S2000x128_1_0_0_1_n_n_wf none _ _) j).trans ?_
  rw [shapeCast_self, shapeCast_self]
  rfl

/-- The first store: the p-block plus the α-row times the logistic of the updated q-block. -/
theorem pay2_eq (a q p : FVec Ideal S2000x128 .f32) (w : FVec Ideal S128x128 .f32) (al : FVec Ideal S1x128 .f32) :
    k4_pay2 (F := Ideal) a w q p al = act p (upd q a w) al := by
  funext j
  obtain ⟨r, k, rfl⟩ : ∃ (r : Fin 2000) (k : Fin 128), j = ix2 r k := ⟨j 0, j 1, eq_ix2 j⟩
  unfold k4_pay2
  rw [addf_apply, mulf_apply, shapeCast_self, shapeCast_self, broadcastTo_1b_ab_apply, pay1_eq]
  rfl

/-- The second store: the updated q-block plus the β-row times the logistic of the first store. -/
theorem pay3_eq (a q p : FVec Ideal S2000x128 .f32) (w : FVec Ideal S128x128 .f32) (al be : FVec Ideal S1x128 .f32) :
    k4_pay3 (F := Ideal) a w q p al be = act (upd q a w) (act p (upd q a w) al) be := by
  funext j
  obtain ⟨r, k, rfl⟩ : ∃ (r : Fin 2000) (k : Fin 128), j = ix2 r k := ⟨j 0, j 1, eq_ix2 j⟩
  unfold k4_pay3
  rw [addf_apply, mulf_apply, shapeCast_self, broadcastTo_1b_ab_apply, pay1_eq, pay2_eq]
  rfl

/-! ## One row of the row-indexed operands decides an entry -/

/-- An entry of a block's update is the entry of the whole arrays' update. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ k : Fin K, x1 (ix2 (j 0) k) = A (ix2 (i 0) k))
    (hw : ∀ k : Fin K, x2 (ix2 k (j 1)) = W (ix2 k (i 1))) :
    upd x0 x1 x2 j = upd P A W i := by
  show x0 j + mm x1 x2 j = P i + mm A W i
  rw [hp, mm_of_row_col A W x1 x2 j i ha hw]

/-- An entry of a block's activation step is the entry of the whole arrays' activation step. -/
theorem act_of_row {M R K : ℕ} (P Q : Mat M K) (Al : Mat 1 K) (x0 x1 : Mat R K) (x2 : Mat 1 K)
    (j : (⟨2, ![R, K]⟩ : Shape).Idx) (i : (⟨2, ![M, K]⟩ : Shape).Idx)
    (hp : x0 j = P i) (hq : x1 j = Q i) (hal : x2 (ix2 (0 : Fin 1) (j 1)) = Al (ix2 (0 : Fin 1) (i 1))) :
    act x0 x1 x2 j = act P Q Al i := by
  show x0 j + x2 (ix2 (0 : Fin 1) (j 1)) * Ideal.logistic (x1 j) = P i + Al (ix2 (0 : Fin 1) (i 1)) * Ideal.logistic (Q i)
  rw [hp, hq, hal]

variable (V : (c : Dev nD) → (b : Ref sig .tc) → Buf (Elt Ideal) ((c : Thread nD τ).loc b)) (c : Dev nD)

/-- The printed index maps over the grid: the row-block index of p, q, a and of the two outputs is the point, their
    column-block index and both block indices of w, α and β are 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

/-! ## The blocks of point t, read off the arrays: entry j of a row block is entry i of the array when i is j moved
    down by 2000 · t rows -/

/-- The updated q-block is the block of the whole update q + a · w. -/
theorem blk_upd (t : Fin cfg4.N) (j : S2000x128.Idx) (i : S50000x128.Idx)
    (h0 : (i 0).val = t.val * 2000 + (j 0).val) (h1 : (i 1).val = (j 1).val) :
    upd (iblk4 V c 1 t) (iblk4 V c 2 t) (iblk4 V c 3 t) j = upd (V c main_v47_1) (V c main_v70) (V c main_v78) i := by
  obtain ⟨e0, e1, e2, e3, e4, e5, e6, e7, e8, e9, e10, e11, e12, e13, e14, e15⟩ := idx_facts t
  refine upd_of_row (V c main_v47_1) (V c main_v70) (V c main_v78) (iblk4 V c 1 t) (iblk4 V c 2 t) (iblk4 V c 3 t) j i
    ?_ (fun k => ?_) (fun k => ?_)
  · show V c main_v47_1 (((cfg4.win 1).blk t).view.emb j) = V c main_v47_1 i
    refine congrArg (V c main_v47_1) (funext fun a => Fin.ext ?_)
    match a with
    | ⟨0, _⟩ => show win4_1.index t (0 : Fin 2) * 2000 + 1 * (j 0).val = (i 0).val; omega
    | ⟨1, _⟩ => show win4_1.index t (1 : Fin 2) * 128 + 1 * (j 1).val = (i 1).val; omega
  · show V c main_v70 (((cfg4.win 2).blk t).view.emb (ix2 (j 0) k)) = V c main_v70 (ix2 (i 0) k)
    refine congrArg (V c main_v70) (funext fun a => Fin.ext ?_)
    match a with
    | ⟨0, _⟩ => show win4_2.index t (0 : Fin 2) * 2000 + 1 * (j 0).val = (i 0).val; omega
    | ⟨1, _⟩ => show win4_2.index t (1 : Fin 2) * 128 + 1 * k.val = k.val; omega
  · show V c main_v78 (((cfg4.win 3).blk t).view.emb (ix2 k (j 1))) = V c main_v78 (ix2 k (i 1))
    refine congrArg (V c main_v78) (funext fun a => Fin.ext ?_)
    match a with
    | ⟨0, _⟩ => show win4_3.index t (0 : Fin 2) * 128 + 1 * k.val = k.val; omega
    | ⟨1, _⟩ => show win4_3.index t (1 : Fin 2) * 128 + 1 * (j 1).val = (i 1).val; omega

/-- The first store's block is the block of p' = p + α ⊙ σ(q + a · w). -/
theorem blk_actp (t : Fin cfg4.N) (j : S2000x128.Idx) (i : S50000x128.Idx)
    (h0 : (i 0).val = t.val * 2000 + (j 0).val) (h1 : (i 1).val = (j 1).val) :
    act (iblk4 V c 0 t) (upd (iblk4 V c 1 t) (iblk4 V c 2 t) (iblk4 V c 3 t)) (iblk4 V c 4 t) j
      = act (V c main_v60) (upd (V c main_v47_1) (V c main_v70) (V c main_v78)) (V c main_v73) i := by
  obtain ⟨e0, e1, e2, e3, e4, e5, e6, e7, e8, e9, e10, e11, e12, e13, e14, e15⟩ := idx_facts t
  refine act_of_row (V c main_v60) (upd (V c main_v47_1) (V c main_v70) (V c main_v78)) (V c main_v73)
    (iblk4 V c 0 t) (upd (iblk4 V c 1 t) (iblk4 V c 2 t) (iblk4 V c 3 t)) (iblk4 V c 4 t) j i ?_ (blk_upd V c t j i h0 h1) ?_
  · show V c main_v60 (((cfg4.win 0).blk t).view.emb j) = V c main_v60 i
    refine congrArg (V c main_v60) (funext fun a => Fin.ext ?_)
    match a with
    | ⟨0, _⟩ => show win4_0.index t (0 : Fin 2) * 2000 + 1 * (j 0).val = (i 0).val; omega
    | ⟨1, _⟩ => show win4_0.index t (1 : Fin 2) * 128 + 1 * (j 1).val = (i 1).val; omega
  · show V c main_v73 (((cfg4.win 4).blk t).view.emb (ix2 (0 : Fin 1) (j 1))) = V c main_v73 (ix2 (0 : Fin 1) (i 1))
    refine congrArg (V c main_v73) (funext fun a => Fin.ext ?_)
    match a with
    | ⟨0, _⟩ => show win4_4.index t (0 : Fin 2) * 1 + 1 * 0 = 0; omega
    | ⟨1, _⟩ => show win4_4.index t (1 : Fin 2) * 128 + 1 * (j 1).val = (i 1).val; omega

/-- The second store's block is the block of q' + β ⊙ σ(p'). -/
theorem blk_actq (t : Fin cfg4.N) (j : S2000x128.Idx) (i : S50000x128.Idx)
    (h0 : (i 0).val = t.val * 2000 + (j 0).val) (h1 : (i 1).val = (j 1).val) :
    act (upd (iblk4 V c 1 t) (iblk4 V c 2 t) (iblk4 V c 3 t))
        (act (iblk4 V c 0 t) (upd (iblk4 V c 1 t) (iblk4 V c 2 t) (iblk4 V c 3 t)) (iblk4 V c 4 t)) (iblk4 V c 5 t) j
      = act (upd (V c main_v47_1) (V c main_v70) (V c main_v78))
          (act (V c main_v60) (upd (V c main_v47_1) (V c main_v70) (V c main_v78)) (V c main_v73)) (V c main_v76) i := by
  obtain ⟨e0, e1, e2, e3, e4, e5, e6, e7, e8, e9, e10, e11, e12, e13, e14, e15⟩ := idx_facts t
  refine act_of_row (upd (V c main_v47_1) (V c main_v70) (V c main_v78))
    (act (V c main_v60) (upd (V c main_v47_1) (V c main_v70) (V c main_v78)) (V c main_v73)) (V c main_v76)
    (upd (iblk4 V c 1 t) (iblk4 V c 2 t) (iblk4 V c 3 t))
    (act (iblk4 V c 0 t) (upd (iblk4 V c 1 t) (iblk4 V c 2 t) (iblk4 V c 3 t)) (iblk4 V c 4 t)) (iblk4 V c 5 t) j i
    (blk_upd V c t j i h0 h1) (blk_actp V c t j i h0 h1) ?_
  show V c main_v76 (((cfg4.win 5).blk t).view.emb (ix2 (0 : Fin 1) (j 1))) = V c main_v76 (ix2 (0 : Fin 1) (i 1))
  refine congrArg (V c main_v76) (funext fun a => Fin.ext ?_)
  match a with
  | ⟨0, _⟩ => show win4_5.index t (0 : Fin 2) * 1 + 1 * 0 = 0; omega
  | ⟨1, _⟩ => show win4_5.index t (1 : Fin 2) * 128 + 1 * (j 1).val = (i 1).val; omega

/-! ## The first output -/

/-- What point t writes back to output 6 is block t of the whole-array result. -/
theorem flushed6_eq (t : Fin cfg4.N) :
    (dat4 (F := Ideal) V c).flushed 6 t = ((cfg4.win 6).blk t).view.read (Elt Ideal) (act (V c main_v60) (upd (V c main_v47_1) (V c main_v70) (V c main_v78)) (V c main_v73)) := by
  show (cfg4.win 6).cut (grid4.coords t) ((dat4 V c).after 6 t) = _
  rw [after4_6]
  unfold out4_6
  rw [View.canon_unit_zero hz]
  simp only [View.ld_unit_zero (S := S2000x128) hz, View.ld_unit_zero (S := S128x128) hz, View.ld_unit_zero (S := S1x128) hz]
  rw [pay2_eq]
  obtain ⟨e0, e1, e2, e3, e4, e5, e6, e7, e8, e9, e10, e11, e12, e13, e14, e15⟩ := idx_facts t
  funext j
  refine blk_actp V c t j (((cfg4.win 6).blk t).view.emb j) ?_ ?_
  · show win4_6.index t (0 : Fin 2) * 2000 + 1 * (j 0).val = t.val * 2000 + (j 0).val; omega
  · show win4_6.index t (1 : Fin 2) * 128 + 1 * (j 1).val = (j 1).val; omega

/-- An index of output 6's array is in point t's block iff each coordinate is in the block's range on its axis. -/
theorem mem_blk6 (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v79_0).slice (win4_6.rect t)).set ↔ _
  rw [View.set_slice_whole, Rect.mem_set_unit]
  exact Iff.rfl

/-- Row r of output 6's array is in the block of point r / 2000: the 25 row blocks cover the 50000 rows. -/
theorem cover6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have ht : (i 0).val / 2000 < 25 := by omega
  refine ⟨⟨(i 0).val / 2000, ht⟩, flush4_6 _, ?_⟩
  rw [mem_blk6]
  obtain ⟨e0, e1, e2, e3, e4, e5, e6, e7, e8, e9, e10, e11, e12, e13, e14, e15⟩ := idx_facts ⟨(i 0).val / 2000, ht⟩
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [e12]
    show (i 0).val / 2000 * 2000 ≤ (i 0).val ∧ (i 0).val < (i 0).val / 2000 * 2000 + 2000
    omega
  | ⟨1, _⟩ =>
    show win4_6.index ⟨(i 0).val / 2000, ht⟩ (1 : Fin 2) * 128 ≤ (i 1).val
      ∧ (i 1).val < win4_6.index ⟨(i 0).val / 2000, ht⟩ (1 : Fin 2) * 128 + 128
    rw [e13]
    omega

/-- Output 6's array after the region's 25 points. -/
theorem finalp : (dat4 (F := Ideal) V c).arrAt 6 cfg4.N = act (V c main_v60) (upd (V c main_v47_1) (V c main_v70) (V c main_v78)) (V c main_v73) :=
  (dat4 (F := Ideal) V c).arrAt_eq_of_cover 6 (act (V c main_v60) (upd (V c main_v47_1) (V c main_v70) (V c main_v78)) (V c main_v73))
    (fun t _ => flushed6_eq V c t) cover6

/-! ## The second output -/

/-- What point t writes back to output 7 is block t of the whole-array result. -/
theorem flushed7_eq (t : Fin cfg4.N) :
    (dat4 (F := Ideal) V c).flushed 7 t = ((cfg4.win 7).blk t).view.read (Elt Ideal) (act (upd (V c main_v47_1) (V c main_v70) (V c main_v78)) (act (V c main_v60) (upd (V c main_v47_1) (V c main_v70) (V c main_v78)) (V c main_v73)) (V c main_v76)) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x128) hz, View.ld_unit_zero (S := S1x128) hz]
  rw [pay3_eq]
  obtain ⟨e0, e1, e2, e3, e4, e5, e6, e7, e8, e9, e10, e11, e12, e13, e14, e15⟩ := idx_facts t
  funext j
  refine blk_actq V c t j (((cfg4.win 7).blk t).view.emb j) ?_ ?_
  · show win4_7.index t (0 : Fin 2) * 2000 + 1 * (j 0).val = t.val * 2000 + (j 0).val; omega
  · show win4_7.index t (1 : Fin 2) * 128 + 1 * (j 1).val = (j 1).val; omega

/-- An index of output 7's array is in point t's block iff each coordinate is in the block's range on its axis. -/
theorem mem_blk7 (t : Fin cfg4.N) (i : S50000x128.Idx) :
    i ∈ ((cfg4.win 7).blk t).view.set ↔ ∀ a : Fin 2, win4_7.index t a * S2000x128.size a ≤ (i a).val
      ∧ (i a).val < win4_7.index t a * S2000x128.size a + S2000x128.size a := by
  show i ∈ ((View.whole main_v79_1).slice (win4_7.rect t)).set ↔ _
  rw [View.set_slice_whole, Rect.mem_set_unit]
  exact Iff.rfl

/-- Row r of output 7's array is in the block of point r / 2000: the 25 row blocks cover the 50000 rows. -/
theorem cover7 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have ht : (i 0).val / 2000 < 25 := by omega
  refine ⟨⟨(i 0).val / 2000, ht⟩, flush4_7 _, ?_⟩
  rw [mem_blk7]
  obtain ⟨e0, e1, e2, e3, e4, e5, e6, e7, e8, e9, e10, e11, e12, e13, e14, e15⟩ := idx_facts ⟨(i 0).val / 2000, ht⟩
  intro a
  match a with
  | ⟨0, _⟩ =>
    show win4_7.index ⟨(i 0).val / 2000, ht⟩ (0 : Fin 2) * 2000 ≤ (i 0).val
      ∧ (i 0).val < win4_7.index ⟨(i 0).val / 2000, ht⟩ (0 : Fin 2) * 2000 + 2000
    rw [e14]
    show (i 0).val / 2000 * 2000 ≤ (i 0).val ∧ (i 0).val < (i 0).val / 2000 * 2000 + 2000
    omega
  | ⟨1, _⟩ =>
    show win4_7.index ⟨(i 0).val / 2000, ht⟩ (1 : Fin 2) * 128 ≤ (i 1).val
      ∧ (i 1).val < win4_7.index ⟨(i 0).val / 2000, ht⟩ (1 : Fin 2) * 128 + 128
    rw [e15]
    omega

/-- Output 7's array after the region's 25 points. -/
theorem finalq : (dat4 (F := Ideal) V c).arrAt 7 cfg4.N = act (upd (V c main_v47_1) (V c main_v70) (V c main_v78)) (act (V c main_v60) (upd (V c main_v47_1) (V c main_v70) (V c main_v78)) (V c main_v73)) (V c main_v76) :=
  (dat4 (F := Ideal) V c).arrAt_eq_of_cover 7 (act (upd (V c main_v47_1) (V c main_v70) (V c main_v78)) (act (V c main_v60) (upd (V c main_v47_1) (V c main_v70) (V c main_v78)) (V c main_v73)) (V c main_v76))
    (fun t _ => flushed7_eq V c t) cover7

end Cert.KernelIdeal.FinalAct4

end
-- ==== Proof.FinalAct6.lean ====
/-
  Region 6 of the tiled program: what its 25 grid points leave in its two output arrays. With p, q, a, w, α, β the
  arrays the region finds, the first output is p' = p + α ⊙ σ(q') and the second q' + β ⊙ σ(p'), where q' = q + a · w.
  Point t works on rows 2000·t … 2000·t + 1999 of p, q and a and on the whole of w, α and β; every entry of the two
  results depends on one row of the row-indexed operands only, so each block's result is the block of the whole
  arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalAct6

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-! ## The body's arithmetic on its blocks -/

/-- The a-block times the w-block into zeros, added to the q-block. -/
theorem pay1_eq (a q : FVec Ideal S2000x128 .f32) (w : FVec Ideal S128x128 .f32) : k6_pay1 (F := Ideal) a w q = upd q a w := by
  funext j
  unfold k6_pay1
  rw [addf_apply, shapeCast_self]
  show _ = q j + mm a w j
  refine congrArg (q j + ·) ?_
  refine (congrFun (matmul_zero_eq_mm dot_S2000x128_S128x128_S2000x128_1_0_0_1_n_n_wf none _ _) j).trans ?_
  rw [shapeCast_self, shapeCast_self]
  rfl

/-- The first store: the p-block plus the α-row times the logistic of the updated q-block. -/
theorem pay2_eq (a q p : FVec Ideal S2000x128 .f32) (w : FVec Ideal S128x128 .f32) (al : FVec Ideal S1x128 .f32) :
    k6_pay2 (F := Ideal) a w q p al = act p (upd q a w) al := by
  funext j
  obtain ⟨r, k, rfl⟩ : ∃ (r : Fin 2000) (k : Fin 128), j = ix2 r k := ⟨j 0, j 1, eq_ix2 j⟩
  unfold k6_pay2
  rw [addf_apply, mulf_apply, shapeCast_self, shapeCast_self, broadcastTo_1b_ab_apply, pay1_eq]
  rfl

/-- The second store: the updated q-block plus the β-row times the logistic of the first store. -/
theorem pay3_eq (a q p : FVec Ideal S2000x128 .f32) (w : FVec Ideal S128x128 .f32) (al be : FVec Ideal S1x128 .f32) :
    k6_pay3 (F := Ideal) a w q p al be = act (upd q a w) (act p (upd q a w) al) be := by
  funext j
  obtain ⟨r, k, rfl⟩ : ∃ (r : Fin 2000) (k : Fin 128), j = ix2 r k := ⟨j 0, j 1, eq_ix2 j⟩
  unfold k6_pay3
  rw [addf_apply, mulf_apply, shapeCast_self, broadcastTo_1b_ab_apply, pay1_eq, pay2_eq]
  rfl

/-! ## One row of the row-indexed operands decides an entry -/

/-- An entry of a block's update is the entry of the whole arrays' update. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ k : Fin K, x1 (ix2 (j 0) k) = A (ix2 (i 0) k))
    (hw : ∀ k : Fin K, x2 (ix2 k (j 1)) = W (ix2 k (i 1))) :
    upd x0 x1 x2 j = upd P A W i := by
  show x0 j + mm x1 x2 j = P i + mm A W i
  rw [hp, mm_of_row_col A W x1 x2 j i ha hw]

/-- An entry of a block's activation step is the entry of the whole arrays' activation step. -/
theorem act_of_row {M R K : ℕ} (P Q : Mat M K) (Al : Mat 1 K) (x0 x1 : Mat R K) (x2 : Mat 1 K)
    (j : (⟨2, ![R, K]⟩ : Shape).Idx) (i : (⟨2, ![M, K]⟩ : Shape).Idx)
    (hp : x0 j = P i) (hq : x1 j = Q i) (hal : x2 (ix2 (0 : Fin 1) (j 1)) = Al (ix2 (0 : Fin 1) (i 1))) :
    act x0 x1 x2 j = act P Q Al i := by
  show x0 j + x2 (ix2 (0 : Fin 1) (j 1)) * Ideal.logistic (x1 j) = P i + Al (ix2 (0 : Fin 1) (i 1)) * Ideal.logistic (Q i)
  rw [hp, hq, hal]

variable (V : (c : Dev nD) → (b : Ref sig .tc) → Buf (Elt Ideal) ((c : Thread nD τ).loc b)) (c : Dev nD)

/-- The printed index maps over the grid: the row-block index of p, q, a and of the two outputs is the point, their
    column-block index and both block indices of w, α and β are 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-! ## The blocks of point t, read off the arrays: entry j of a row block is entry i of the array when i is j moved
    down by 2000 · t rows -/

/-- The updated q-block is the block of the whole update q + a · w. -/
theorem blk_upd (t : Fin cfg6.N) (j : S2000x128.Idx) (i : S50000x128.Idx)
    (h0 : (i 0).val = t.val * 2000 + (j 0).val) (h1 : (i 1).val = (j 1).val) :
    upd (iblk6 V c 1 t) (iblk6 V c 2 t) (iblk6 V c 3 t) j = upd (V c main_v79_1) (V c main_v102) (V c main_v110) i := by
  obtain ⟨e0, e1, e2, e3, e4, e5, e6, e7, e8, e9, e10, e11, e12, e13, e14, e15⟩ := idx_facts t
  refine upd_of_row (V c main_v79_1) (V c main_v102) (V c main_v110) (iblk6 V c 1 t) (iblk6 V c 2 t) (iblk6 V c 3 t) j i
    ?_ (fun k => ?_) (fun k => ?_)
  · show V c main_v79_1 (((cfg6.win 1).blk t).view.emb j) = V c main_v79_1 i
    refine congrArg (V c main_v79_1) (funext fun a => Fin.ext ?_)
    match a with
    | ⟨0, _⟩ => show win6_1.index t (0 : Fin 2) * 2000 + 1 * (j 0).val = (i 0).val; omega
    | ⟨1, _⟩ => show win6_1.index t (1 : Fin 2) * 128 + 1 * (j 1).val = (i 1).val; omega
  · show V c main_v102 (((cfg6.win 2).blk t).view.emb (ix2 (j 0) k)) = V c main_v102 (ix2 (i 0) k)
    refine congrArg (V c main_v102) (funext fun a => Fin.ext ?_)
    match a with
    | ⟨0, _⟩ => show win6_2.index t (0 : Fin 2) * 2000 + 1 * (j 0).val = (i 0).val; omega
    | ⟨1, _⟩ => show win6_2.index t (1 : Fin 2) * 128 + 1 * k.val = k.val; omega
  · show V c main_v110 (((cfg6.win 3).blk t).view.emb (ix2 k (j 1))) = V c main_v110 (ix2 k (i 1))
    refine congrArg (V c main_v110) (funext fun a => Fin.ext ?_)
    match a with
    | ⟨0, _⟩ => show win6_3.index t (0 : Fin 2) * 128 + 1 * k.val = k.val; omega
    | ⟨1, _⟩ => show win6_3.index t (1 : Fin 2) * 128 + 1 * (j 1).val = (i 1).val; omega

/-- The first store's block is the block of p' = p + α ⊙ σ(q + a · w). -/
theorem blk_actp (t : Fin cfg6.N) (j : S2000x128.Idx) (i : S50000x128.Idx)
    (h0 : (i 0).val = t.val * 2000 + (j 0).val) (h1 : (i 1).val = (j 1).val) :
    act (iblk6 V c 0 t) (upd (iblk6 V c 1 t) (iblk6 V c 2 t) (iblk6 V c 3 t)) (iblk6 V c 4 t) j
      = act (V c main_v92) (upd (V c main_v79_1) (V c main_v102) (V c main_v110)) (V c main_v105) i := by
  obtain ⟨e0, e1, e2, e3, e4, e5, e6, e7, e8, e9, e10, e11, e12, e13, e14, e15⟩ := idx_facts t
  refine act_of_row (V c main_v92) (upd (V c main_v79_1) (V c main_v102) (V c main_v110)) (V c main_v105)
    (iblk6 V c 0 t) (upd (iblk6 V c 1 t) (iblk6 V c 2 t) (iblk6 V c 3 t)) (iblk6 V c 4 t) j i ?_ (blk_upd V c t j i h0 h1) ?_
  · show V c main_v92 (((cfg6.win 0).blk t).view.emb j) = V c main_v92 i
    refine congrArg (V c main_v92) (funext fun a => Fin.ext ?_)
    match a with
    | ⟨0, _⟩ => show win6_0.index t (0 : Fin 2) * 2000 + 1 * (j 0).val = (i 0).val; omega
    | ⟨1, _⟩ => show win6_0.index t (1 : Fin 2) * 128 + 1 * (j 1).val = (i 1).val; omega
  · show V c main_v105 (((cfg6.win 4).blk t).view.emb (ix2 (0 : Fin 1) (j 1))) = V c main_v105 (ix2 (0 : Fin 1) (i 1))
    refine congrArg (V c main_v105) (funext fun a => Fin.ext ?_)
    match a with
    | ⟨0, _⟩ => show win6_4.index t (0 : Fin 2) * 1 + 1 * 0 = 0; omega
    | ⟨1, _⟩ => show win6_4.index t (1 : Fin 2) * 128 + 1 * (j 1).val = (i 1).val; omega

/-- The second store's block is the block of q' + β ⊙ σ(p'). -/
theorem blk_actq (t : Fin cfg6.N) (j : S2000x128.Idx) (i : S50000x128.Idx)
    (h0 : (i 0).val = t.val * 2000 + (j 0).val) (h1 : (i 1).val = (j 1).val) :
    act (upd (iblk6 V c 1 t) (iblk6 V c 2 t) (iblk6 V c 3 t))
        (act (iblk6 V c 0 t) (upd (iblk6 V c 1 t) (iblk6 V c 2 t) (iblk6 V c 3 t)) (iblk6 V c 4 t)) (iblk6 V c 5 t) j
      = act (upd (V c main_v79_1) (V c main_v102) (V c main_v110))
          (act (V c main_v92) (upd (V c main_v79_1) (V c main_v102) (V c main_v110)) (V c main_v105)) (V c main_v108) i := by
  obtain ⟨e0, e1, e2, e3, e4, e5, e6, e7, e8, e9, e10, e11, e12, e13, e14, e15⟩ := idx_facts t
  refine act_of_row (upd (V c main_v79_1) (V c main_v102) (V c main_v110))
    (act (V c main_v92) (upd (V c main_v79_1) (V c main_v102) (V c main_v110)) (V c main_v105)) (V c main_v108)
    (upd (iblk6 V c 1 t) (iblk6 V c 2 t) (iblk6 V c 3 t))
    (act (iblk6 V c 0 t) (upd (iblk6 V c 1 t) (iblk6 V c 2 t) (iblk6 V c 3 t)) (iblk6 V c 4 t)) (iblk6 V c 5 t) j i
    (blk_upd V c t j i h0 h1) (blk_actp V c t j i h0 h1) ?_
  show V c main_v108 (((cfg6.win 5).blk t).view.emb (ix2 (0 : Fin 1) (j 1))) = V c main_v108 (ix2 (0 : Fin 1) (i 1))
  refine congrArg (V c main_v108) (funext fun a => Fin.ext ?_)
  match a with
  | ⟨0, _⟩ => show win6_5.index t (0 : Fin 2) * 1 + 1 * 0 = 0; omega
  | ⟨1, _⟩ => show win6_5.index t (1 : Fin 2) * 128 + 1 * (j 1).val = (i 1).val; omega

/-! ## The first output -/

/-- What point t writes back to output 6 is block t of the whole-array result. -/
theorem flushed6_eq (t : Fin cfg6.N) :
    (dat6 (F := Ideal) V c).flushed 6 t = ((cfg6.win 6).blk t).view.read (Elt Ideal) (act (V c main_v92) (upd (V c main_v79_1) (V c main_v102) (V c main_v110)) (V c main_v105)) := by
  show (cfg6.win 6).cut (grid6.coords t) ((dat6 V c).after 6 t) = _
  rw [after6_6]
  unfold out6_6
  rw [View.canon_unit_zero hz]
  simp only [View.ld_unit_zero (S := S2000x128) hz, View.ld_unit_zero (S := S128x128) hz, View.ld_unit_zero (S := S1x128) hz]
  rw [pay2_eq]
  obtain ⟨e0, e1, e2, e3, e4, e5, e6, e7, e8, e9, e10, e11, e12, e13, e14, e15⟩ := idx_facts t
  funext j
  refine blk_actp V c t j (((cfg6.win 6).blk t).view.emb j) ?_ ?_
  · show win6_6.index t (0 : Fin 2) * 2000 + 1 * (j 0).val = t.val * 2000 + (j 0).val; omega
  · show win6_6.index t (1 : Fin 2) * 128 + 1 * (j 1).val = (j 1).val; omega

/-- An index of output 6's array is in point t's block iff each coordinate is in the block's range on its axis. -/
theorem mem_blk6 (t : Fin cfg6.N) (i : S50000x128.Idx) :
    i ∈ ((cfg6.win 6).blk t).view.set ↔ ∀ a : Fin 2, win6_6.index t a * S2000x128.size a ≤ (i a).val
      ∧ (i a).val < win6_6.index t a * S2000x128.size a + S2000x128.size a := by
  show i ∈ ((View.whole main_v111_0).slice (win6_6.rect t)).set ↔ _
  rw [View.set_slice_whole, Rect.mem_set_unit]
  exact Iff.rfl

/-- Row r of output 6's array is in the block of point r / 2000: the 25 row blocks cover the 50000 rows. -/
theorem cover6 (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have ht : (i 0).val / 2000 < 25 := by omega
  refine ⟨⟨(i 0).val / 2000, ht⟩, flush6_6 _, ?_⟩
  rw [mem_blk6]
  obtain ⟨e0, e1, e2, e3, e4, e5, e6, e7, e8, e9, e10, e11, e12, e13, e14, e15⟩ := idx_facts ⟨(i 0).val / 2000, ht⟩
  intro a
  match a with
  | ⟨0, _⟩ =>
    show win6_6.index ⟨(i 0).val / 2000, ht⟩ (0 : Fin 2) * 2000 ≤ (i 0).val
      ∧ (i 0).val < win6_6.index ⟨(i 0).val / 2000, ht⟩ (0 : Fin 2) * 2000 + 2000
    rw [e12]
    show (i 0).val / 2000 * 2000 ≤ (i 0).val ∧ (i 0).val < (i 0).val / 2000 * 2000 + 2000
    omega
  | ⟨1, _⟩ =>
    show win6_6.index ⟨(i 0).val / 2000, ht⟩ (1 : Fin 2) * 128 ≤ (i 1).val
      ∧ (i 1).val < win6_6.index ⟨(i 0).val / 2000, ht⟩ (1 : Fin 2) * 128 + 128
    rw [e13]
    omega

/-- Output 6's array after the region's 25 points. -/
theorem finalp : (dat6 (F := Ideal) V c).arrAt 6 cfg6.N = act (V c main_v92) (upd (V c main_v79_1) (V c main_v102) (V c main_v110)) (V c main_v105) :=
  (dat6 (F := Ideal) V c).arrAt_eq_of_cover 6 (act (V c main_v92) (upd (V c main_v79_1) (V c main_v102) (V c main_v110)) (V c main_v105))
    (fun t _ => flushed6_eq V c t) cover6

/-! ## The second output -/

/-- What point t writes back to output 7 is block t of the whole-array result. -/
theorem flushed7_eq (t : Fin cfg6.N) :
    (dat6 (F := Ideal) V c).flushed 7 t = ((cfg6.win 7).blk t).view.read (Elt Ideal) (act (upd (V c main_v79_1) (V c main_v102) (V c main_v110)) (act (V c main_v92) (upd (V c main_v79_1) (V c main_v102) (V c main_v110)) (V c main_v105)) (V c main_v108)) := by
  show (cfg6.win 7).cut (grid6.coords t) ((dat6 V c).after 7 t) = _
  rw [after6_7]
  unfold out6_7
  rw [View.canon_unit_zero hz]
  simp only [View.ld_unit_zero (S := S2000x128) hz, View.ld_unit_zero (S := S128x128) hz, View.ld_unit_zero (S := S1x128) hz]
  rw [pay3_eq]
  obtain ⟨e0, e1, e2, e3, e4, e5, e6, e7, e8, e9, e10, e11, e12, e13, e14, e15⟩ := idx_facts t
  funext j
  refine blk_actq V c t j (((cfg6.win 7).blk t).view.emb j) ?_ ?_
  · show win6_7.index t (0 : Fin 2) * 2000 + 1 * (j 0).val = t.val * 2000 + (j 0).val; omega
  · show win6_7.index t (1 : Fin 2) * 128 + 1 * (j 1).val = (j 1).val; omega

/-- An index of output 7's array is in point t's block iff each coordinate is in the block's range on its axis. -/
theorem mem_blk7 (t : Fin cfg6.N) (i : S50000x128.Idx) :
    i ∈ ((cfg6.win 7).blk t).view.set ↔ ∀ a : Fin 2, win6_7.index t a * S2000x128.size a ≤ (i a).val
      ∧ (i a).val < win6_7.index t a * S2000x128.size a + S2000x128.size a := by
  show i ∈ ((View.whole main_v111_1).slice (win6_7.rect t)).set ↔ _
  rw [View.set_slice_whole, Rect.mem_set_unit]
  exact Iff.rfl

/-- Row r of output 7's array is in the block of point r / 2000: the 25 row blocks cover the 50000 rows. -/
theorem cover7 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have ht : (i 0).val / 2000 < 25 := by omega
  refine ⟨⟨(i 0).val / 2000, ht⟩, flush6_7 _, ?_⟩
  rw [mem_blk7]
  obtain ⟨e0, e1, e2, e3, e4, e5, e6, e7, e8, e9, e10, e11, e12, e13, e14, e15⟩ := idx_facts ⟨(i 0).val / 2000, ht⟩
  intro a
  match a with
  | ⟨0, _⟩ =>
    show win6_7.index ⟨(i 0).val / 2000, ht⟩ (0 : Fin 2) * 2000 ≤ (i 0).val
      ∧ (i 0).val < win6_7.index ⟨(i 0).val / 2000, ht⟩ (0 : Fin 2) * 2000 + 2000
    rw [e14]
    show (i 0).val / 2000 * 2000 ≤ (i 0).val ∧ (i 0).val < (i 0).val / 2000 * 2000 + 2000
    omega
  | ⟨1, _⟩ =>
    show win6_7.index ⟨(i 0).val / 2000, ht⟩ (1 : Fin 2) * 128 ≤ (i 1).val
      ∧ (i 1).val < win6_7.index ⟨(i 0).val / 2000, ht⟩ (1 : Fin 2) * 128 + 128
    rw [e15]
    omega

/-- Output 7's array after the region's 25 points. -/
theorem finalq : (dat6 (F := Ideal) V c).arrAt 7 cfg6.N = act (upd (V c main_v79_1) (V c main_v102) (V c main_v110)) (act (V c main_v92) (upd (V c main_v79_1) (V c main_v102) (V c main_v110)) (V c main_v105)) (V c main_v108) :=
  (dat6 (F := Ideal) V c).arrAt_eq_of_cover 7 (act (upd (V c main_v79_1) (V c main_v102) (V c main_v110)) (act (V c main_v92) (upd (V c main_v79_1) (V c main_v102) (V c main_v110)) (V c main_v105)) (V c main_v108))
    (fun t _ => flushed7_eq V c t) cover7

end Cert.KernelIdeal.FinalAct6

end
-- ==== Proof.FinalAct8.lean ====
/-
  Region 8 of the tiled program: what its 25 grid points leave in its two output arrays. With p, q, a, w, α, β the
  arrays the region finds, the first output is p' = p + α ⊙ σ(q') and the second q' + β ⊙ σ(p'), where q' = q + a · w.
  Point t works on rows 2000·t … 2000·t + 1999 of p, q and a and on the whole of w, α and β; every entry of the two
  results depends on one row of the row-indexed operands only, so each block's result is the block of the whole
  arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalAct8

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-! ## The body's arithmetic on its blocks -/

/-- The a-block times the w-block into zeros, added to the q-block. -/
theorem pay1_eq (a q : FVec Ideal S2000x128 .f32) (w : FVec Ideal S128x128 .f32) : k8_pay1 (F := Ideal) a w q = upd q a w := by
  funext j
  unfold k8_pay1
  rw [addf_apply, shapeCast_self]
  show _ = q j + mm a w j
  refine congrArg (q j + ·) ?_
  refine (congrFun (matmul_zero_eq_mm dot_S2000x128_S128x128_S2000x128_1_0_0_1_n_n_wf none _ _) j).trans ?_
  rw [shapeCast_self, shapeCast_self]
  rfl

/-- The first store: the p-block plus the α-row times the logistic of the updated q-block. -/
theorem pay2_eq (a q p : FVec Ideal S2000x128 .f32) (w : FVec Ideal S128x128 .f32) (al : FVec Ideal S1x128 .f32) :
    k8_pay2 (F := Ideal) a w q p al = act p (upd q a w) al := by
  funext j
  obtain ⟨r, k, rfl⟩ : ∃ (r : Fin 2000) (k : Fin 128), j = ix2 r k := ⟨j 0, j 1, eq_ix2 j⟩
  unfold k8_pay2
  rw [addf_apply, mulf_apply, shapeCast_self, shapeCast_self, broadcastTo_1b_ab_apply, pay1_eq]
  rfl

/-- The second store: the updated q-block plus the β-row times the logistic of the first store. -/
theorem pay3_eq (a q p : FVec Ideal S2000x128 .f32) (w : FVec Ideal S128x128 .f32) (al be : FVec Ideal S1x128 .f32) :
    k8_pay3 (F := Ideal) a w q p al be = act (upd q a w) (act p (upd q a w) al) be := by
  funext j
  obtain ⟨r, k, rfl⟩ : ∃ (r : Fin 2000) (k : Fin 128), j = ix2 r k := ⟨j 0, j 1, eq_ix2 j⟩
  unfold k8_pay3
  rw [addf_apply, mulf_apply, shapeCast_self, broadcastTo_1b_ab_apply, pay1_eq, pay2_eq]
  rfl

/-! ## One row of the row-indexed operands decides an entry -/

/-- An entry of a block's update is the entry of the whole arrays' update. -/
theorem upd_of_row {M R K : ℕ} (P A : Mat M K) (W : Mat K K) (x0 x1 : Mat R K) (x2 : Mat K K)
    (j : (⟨2, ![R, K]⟩ : Shape).Idx) (i : (⟨2, ![M, K]⟩ : Shape).Idx)
    (hp : x0 j = P i) (ha : ∀ k : Fin K, x1 (ix2 (j 0) k) = A (ix2 (i 0) k))
    (hw : ∀ k : Fin K, x2 (ix2 k (j 1)) = W (ix2 k (i 1))) :
    upd x0 x1 x2 j = upd P A W i := by
  show x0 j + mm x1 x2 j = P i + mm A W i
  rw [hp, mm_of_row_col A W x1 x2 j i ha hw]

/-- An entry of a block's activation step is the entry of the whole arrays' activation step. -/
theorem act_of_row {M R K : ℕ} (P Q : Mat M K) (Al : Mat 1 K) (x0 x1 : Mat R K) (x2 : Mat 1 K)
    (j : (⟨2, ![R, K]⟩ : Shape).Idx) (i : (⟨2, ![M, K]⟩ : Shape).Idx)
    (hp : x0 j = P i) (hq : x1 j = Q i) (hal : x2 (ix2 (0 : Fin 1) (j 1)) = Al (ix2 (0 : Fin 1) (i 1))) :
    act x0 x1 x2 j = act P Q Al i := by
  show x0 j + x2 (ix2 (0 : Fin 1) (j 1)) * Ideal.logistic (x1 j) = P i + Al (ix2 (0 : Fin 1) (i 1)) * Ideal.logistic (Q i)
  rw [hp, hq, hal]

variable (V : (c : Dev nD) → (b : Ref sig .tc) → Buf (Elt Ideal) ((c : Thread nD τ).loc b)) (c : Dev nD)

/-- The printed index maps over the grid: the row-block index of p, q, a and of the two outputs is the point, their
    column-block index and both block indices of w, α and β are 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0 :=
  (by decide +kernel : ∀ t : Fin grid8.N, _)

/-! ## The blocks of point t, read off the arrays: entry j of a row block is entry i of the array when i is j moved
    down by 2000 · t rows -/

/-- The updated q-block is the block of the whole update q + a · w. -/
theorem blk_upd (t : Fin cfg8.N) (j : S2000x128.Idx) (i : S50000x128.Idx)
    (h0 : (i 0).val = t.val * 2000 + (j 0).val) (h1 : (i 1).val = (j 1).val) :
    upd (iblk8 V c 1 t) (iblk8 V c 2 t) (iblk8 V c 3 t) j = upd (V c main_v111_1) (V c main_v134) (V c main_v142) i := by
  obtain ⟨e0, e1, e2, e3, e4, e5, e6, e7, e8, e9, e10, e11, e12, e13, e14, e15⟩ := idx_facts t
  refine upd_of_row (V c main_v111_1) (V c main_v134) (V c main_v142) (iblk8 V c 1 t) (iblk8 V c 2 t) (iblk8 V c 3 t) j i
    ?_ (fun k => ?_) (fun k => ?_)
  · show V c main_v111_1 (((cfg8.win 1).blk t).view.emb j) = V c main_v111_1 i
    refine congrArg (V c main_v111_1) (funext fun a => Fin.ext ?_)
    match a with
    | ⟨0, _⟩ => show win8_1.index t (0 : Fin 2) * 2000 + 1 * (j 0).val = (i 0).val; omega
    | ⟨1, _⟩ => show win8_1.index t (1 : Fin 2) * 128 + 1 * (j 1).val = (i 1).val; omega
  · show V c main_v134 (((cfg8.win 2).blk t).view.emb (ix2 (j 0) k)) = V c main_v134 (ix2 (i 0) k)
    refine congrArg (V c main_v134) (funext fun a => Fin.ext ?_)
    match a with
    | ⟨0, _⟩ => show win8_2.index t (0 : Fin 2) * 2000 + 1 * (j 0).val = (i 0).val; omega
    | ⟨1, _⟩ => show win8_2.index t (1 : Fin 2) * 128 + 1 * k.val = k.val; omega
  · show V c main_v142 (((cfg8.win 3).blk t).view.emb (ix2 k (j 1))) = V c main_v142 (ix2 k (i 1))
    refine congrArg (V c main_v142) (funext fun a => Fin.ext ?_)
    match a with
    | ⟨0, _⟩ => show win8_3.index t (0 : Fin 2) * 128 + 1 * k.val = k.val; omega
    | ⟨1, _⟩ => show win8_3.index t (1 : Fin 2) * 128 + 1 * (j 1).val = (i 1).val; omega

/-- The first store's block is the block of p' = p + α ⊙ σ(q + a · w). -/
theorem blk_actp (t : Fin cfg8.N) (j : S2000x128.Idx) (i : S50000x128.Idx)
    (h0 : (i 0).val = t.val * 2000 + (j 0).val) (h1 : (i 1).val = (j 1).val) :
    act (iblk8 V c 0 t) (upd (iblk8 V c 1 t) (iblk8 V c 2 t) (iblk8 V c 3 t)) (iblk8 V c 4 t) j
      = act (V c main_v124) (upd (V c main_v111_1) (V c main_v134) (V c main_v142)) (V c main_v137) i := by
  obtain ⟨e0, e1, e2, e3, e4, e5, e6, e7, e8, e9, e10, e11, e12, e13, e14, e15⟩ := idx_facts t
  refine act_of_row (V c main_v124) (upd (V c main_v111_1) (V c main_v134) (V c main_v142)) (V c main_v137)
    (iblk8 V c 0 t) (upd (iblk8 V c 1 t) (iblk8 V c 2 t) (iblk8 V c 3 t)) (iblk8 V c 4 t) j i ?_ (blk_upd V c t j i h0 h1) ?_
  · show V c main_v124 (((cfg8.win 0).blk t).view.emb j) = V c main_v124 i
    refine congrArg (V c main_v124) (funext fun a => Fin.ext ?_)
    match a with
    | ⟨0, _⟩ => show win8_0.index t (0 : Fin 2) * 2000 + 1 * (j 0).val = (i 0).val; omega
    | ⟨1, _⟩ => show win8_0.index t (1 : Fin 2) * 128 + 1 * (j 1).val = (i 1).val; omega
  · show V c main_v137 (((cfg8.win 4).blk t).view.emb (ix2 (0 : Fin 1) (j 1))) = V c main_v137 (ix2 (0 : Fin 1) (i 1))
    refine congrArg (V c main_v137) (funext fun a => Fin.ext ?_)
    match a with
    | ⟨0, _⟩ => show win8_4.index t (0 : Fin 2) * 1 + 1 * 0 = 0; omega
    | ⟨1, _⟩ => show win8_4.index t (1 : Fin 2) * 128 + 1 * (j 1).val = (i 1).val; omega

/-- The second store's block is the block of q' + β ⊙ σ(p'). -/
theorem blk_actq (t : Fin cfg8.N) (j : S2000x128.Idx) (i : S50000x128.Idx)
    (h0 : (i 0).val = t.val * 2000 + (j 0).val) (h1 : (i 1).val = (j 1).val) :
    act (upd (iblk8 V c 1 t) (iblk8 V c 2 t) (iblk8 V c 3 t))
        (act (iblk8 V c 0 t) (upd (iblk8 V c 1 t) (iblk8 V c 2 t) (iblk8 V c 3 t)) (iblk8 V c 4 t)) (iblk8 V c 5 t) j
      = act (upd (V c main_v111_1) (V c main_v134) (V c main_v142))
          (act (V c main_v124) (upd (V c main_v111_1) (V c main_v134) (V c main_v142)) (V c main_v137)) (V c main_v140) i := by
  obtain ⟨e0, e1, e2, e3, e4, e5, e6, e7, e8, e9, e10, e11, e12, e13, e14, e15⟩ := idx_facts t
  refine act_of_row (upd (V c main_v111_1) (V c main_v134) (V c main_v142))
    (act (V c main_v124) (upd (V c main_v111_1) (V c main_v134) (V c main_v142)) (V c main_v137)) (V c main_v140)
    (upd (iblk8 V c 1 t) (iblk8 V c 2 t) (iblk8 V c 3 t))
    (act (iblk8 V c 0 t) (upd (iblk8 V c 1 t) (iblk8 V c 2 t) (iblk8 V c 3 t)) (iblk8 V c 4 t)) (iblk8 V c 5 t) j i
    (blk_upd V c t j i h0 h1) (blk_actp V c t j i h0 h1) ?_
  show V c main_v140 (((cfg8.win 5).blk t).view.emb (ix2 (0 : Fin 1) (j 1))) = V c main_v140 (ix2 (0 : Fin 1) (i 1))
  refine congrArg (V c main_v140) (funext fun a => Fin.ext ?_)
  match a with
  | ⟨0, _⟩ => show win8_5.index t (0 : Fin 2) * 1 + 1 * 0 = 0; omega
  | ⟨1, _⟩ => show win8_5.index t (1 : Fin 2) * 128 + 1 * (j 1).val = (i 1).val; omega

/-! ## The first output -/

/-- What point t writes back to output 6 is block t of the whole-array result. -/
theorem flushed6_eq (t : Fin cfg8.N) :
    (dat8 (F := Ideal) V c).flushed 6 t = ((cfg8.win 6).blk t).view.read (Elt Ideal) (act (V c main_v124) (upd (V c main_v111_1) (V c main_v134) (V c main_v142)) (V c main_v137)) := by
  show (cfg8.win 6).cut (grid8.coords t) ((dat8 V c).after 6 t) = _
  rw [after8_6]
  unfold out8_6
  rw [View.canon_unit_zero hz]
  simp only [View.ld_unit_zero (S := S2000x128) hz, View.ld_unit_zero (S := S128x128) hz, View.ld_unit_zero (S := S1x128) hz]
  rw [pay2_eq]
  obtain ⟨e0, e1, e2, e3, e4, e5, e6, e7, e8, e9, e10, e11, e12, e13, e14, e15⟩ := idx_facts t
  funext j
  refine blk_actp V c t j (((cfg8.win 6).blk t).view.emb j) ?_ ?_
  · show win8_6.index t (0 : Fin 2) * 2000 + 1 * (j 0).val = t.val * 2000 + (j 0).val; omega
  · show win8_6.index t (1 : Fin 2) * 128 + 1 * (j 1).val = (j 1).val; omega

/-- An index of output 6's array is in point t's block iff each coordinate is in the block's range on its axis. -/
theorem mem_blk6 (t : Fin cfg8.N) (i : S50000x128.Idx) :
    i ∈ ((cfg8.win 6).blk t).view.set ↔ ∀ a : Fin 2, win8_6.index t a * S2000x128.size a ≤ (i a).val
      ∧ (i a).val < win8_6.index t a * S2000x128.size a + S2000x128.size a := by
  show i ∈ ((View.whole main_v143_0).slice (win8_6.rect t)).set ↔ _
  rw [View.set_slice_whole, Rect.mem_set_unit]
  exact Iff.rfl

/-- Row r of output 6's array is in the block of point r / 2000: the 25 row blocks cover the 50000 rows. -/
theorem cover6 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have ht : (i 0).val / 2000 < 25 := by omega
  refine ⟨⟨(i 0).val / 2000, ht⟩, flush8_6 _, ?_⟩
  rw [mem_blk6]
  obtain ⟨e0, e1, e2, e3, e4, e5, e6, e7, e8, e9, e10, e11, e12, e13, e14, e15⟩ := idx_facts ⟨(i 0).val / 2000, ht⟩
  intro a
  match a with
  | ⟨0, _⟩ =>
    show win8_6.index ⟨(i 0).val / 2000, ht⟩ (0 : Fin 2) * 2000 ≤ (i 0).val
      ∧ (i 0).val < win8_6.index ⟨(i 0).val / 2000, ht⟩ (0 : Fin 2) * 2000 + 2000
    rw [e12]
    show (i 0).val / 2000 * 2000 ≤ (i 0).val ∧ (i 0).val < (i 0).val / 2000 * 2000 + 2000
    omega
  | ⟨1, _⟩ =>
    show win8_6.index ⟨(i 0).val / 2000, ht⟩ (1 : Fin 2) * 128 ≤ (i 1).val
      ∧ (i 1).val < win8_6.index ⟨(i 0).val / 2000, ht⟩ (1 : Fin 2) * 128 + 128
    rw [e13]
    omega

/-- Output 6's array after the region's 25 points. -/
theorem finalp : (dat8 (F := Ideal) V c).arrAt 6 cfg8.N = act (V c main_v124) (upd (V c main_v111_1) (V c main_v134) (V c main_v142)) (V c main_v137) :=
  (dat8 (F := Ideal) V c).arrAt_eq_of_cover 6 (act (V c main_v124) (upd (V c main_v111_1) (V c main_v134) (V c main_v142)) (V c main_v137))
    (fun t _ => flushed6_eq V c t) cover6

/-! ## The second output -/

/-- What point t writes back to output 7 is block t of the whole-array result. -/
theorem flushed7_eq (t : Fin cfg8.N) :
    (dat8 (F := Ideal) V c).flushed 7 t = ((cfg8.win 7).blk t).view.read (Elt Ideal) (act (upd (V c main_v111_1) (V c main_v134) (V c main_v142)) (act (V c main_v124) (upd (V c main_v111_1) (V c main_v134) (V c main_v142)) (V c main_v137)) (V c main_v140)) := by
  show (cfg8.win 7).cut (grid8.coords t) ((dat8 V c).after 7 t) = _
  rw [after8_7]
  unfold out8_7
  rw [View.canon_unit_zero hz]
  simp only [View.ld_unit_zero (S := S2000x128) hz, View.ld_unit_zero (S := S128x128) hz, View.ld_unit_zero (S := S1x128) hz]
  rw [pay3_eq]
  obtain ⟨e0, e1, e2, e3, e4, e5, e6, e7, e8, e9, e10, e11, e12, e13, e14, e15⟩ := idx_facts t
  funext j
  refine blk_actq V c t j (((cfg8.win 7).blk t).view.emb j) ?_ ?_
  · show win8_7.index t (0 : Fin 2) * 2000 + 1 * (j 0).val = t.val * 2000 + (j 0).val; omega
  · show win8_7.index t (1 : Fin 2) * 128 + 1 * (j 1).val = (j 1).val; omega

/-- An index of output 7's array is in point t's block iff each coordinate is in the block's range on its axis. -/
theorem mem_blk7 (t : Fin cfg8.N) (i : S50000x128.Idx) :
    i ∈ ((cfg8.win 7).blk t).view.set ↔ ∀ a : Fin 2, win8_7.index t a * S2000x128.size a ≤ (i a).val
      ∧ (i a).val < win8_7.index t a * S2000x128.size a + S2000x128.size a := by
  show i ∈ ((View.whole main_v143_1).slice (win8_7.rect t)).set ↔ _
  rw [View.set_slice_whole, Rect.mem_set_unit]
  exact Iff.rfl

/-- Row r of output 7's array is in the block of point r / 2000: the 25 row blocks cover the 50000 rows. -/
theorem cover7 (i : S50000x128.Idx) :
    ∃ t : Fin cfg8.N, (cfg8.win 7).flush t = true ∧ i ∈ ((cfg8.win 7).blk t).view.set := by
  have hi0 : (i 0).val < 50000 := (i 0).isLt
  have hi1 : (i 1).val < 128 := (i 1).isLt
  have ht : (i 0).val / 2000 < 25 := by omega
  refine ⟨⟨(i 0).val / 2000, ht⟩, flush8_7 _, ?_⟩
  rw [mem_blk7]
  obtain ⟨e0, e1, e2, e3, e4, e5, e6, e7, e8, e9, e10, e11, e12, e13, e14, e15⟩ := idx_facts ⟨(i 0).val / 2000, ht⟩
  intro a
  match a with
  | ⟨0, _⟩ =>
    show win8_7.index ⟨(i 0).val / 2000, ht⟩ (0 : Fin 2) * 2000 ≤ (i 0).val
      ∧ (i 0).val < win8_7.index ⟨(i 0).val / 2000, ht⟩ (0 : Fin 2) * 2000 + 2000
    rw [e14]
    show (i 0).val / 2000 * 2000 ≤ (i 0).val ∧ (i 0).val < (i 0).val / 2000 * 2000 + 2000
    omega
  | ⟨1, _⟩ =>
    show win8_7.index ⟨(i 0).val / 2000, ht⟩ (1 : Fin 2) * 128 ≤ (i 1).val
      ∧ (i 1).val < win8_7.index ⟨(i 0).val / 2000, ht⟩ (1 : Fin 2) * 128 + 128
    rw [e15]
    omega

/-- Output 7's array after the region's 25 points. -/
theorem finalq : (dat8 (F := Ideal) V c).arrAt 7 cfg8.N = act (upd (V c main_v111_1) (V c main_v134) (V c main_v142)) (act (V c main_v124) (upd (V c main_v111_1) (V c main_v134) (V c main_v142)) (V c main_v137)) (V c main_v140) :=
  (dat8 (F := Ideal) V c).arrAt_eq_of_cover 7 (act (upd (V c main_v111_1) (V c main_v134) (V c main_v142)) (act (V c main_v124) (upd (V c main_v111_1) (V c main_v134) (V c main_v142)) (V c main_v137)) (V c main_v140))
    (fun t _ => flushed7_eq V c t) cover7

end Cert.KernelIdeal.FinalAct8

end
-- ==== Proof.FinalProj0.lean ====
/-
  Region 0 of the tiled program: what its 25 grid points leave in the output array is the whole-array product
  x · [Wp | Wq] of the arrays the region finds. Point t works on rows 2000·t … 2000·t + 1999 of x and on the whole of the
  256 × 256 matrix; an entry of a product depends on one row of the left factor only, so the block's product is the
  block of the whole arrays' product, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalProj0

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its two blocks: the x-block times the matrix into zeros (both narrowed to a shorter float
    format on the way in, the identity on the extended reals). -/
theorem pay_eq (x : FVec Ideal S2000x256 .f32) (w : FVec Ideal S256x256 .f32) : k0_pay1 (F := Ideal) x w = mm x w := by
  unfold k0_pay1
  refine (matmul_zero_eq_mm dot_S2000x256_S256x256_S2000x256_1_0_0_1_n_n_wf none _ _).trans ?_
  rw [shapeCast_self]
  rfl

variable (V : (c : Dev nD) → (b : Ref sig .tc) → Buf (Elt Ideal) ((c : Thread nD τ).loc b)) (c : Dev nD)

/-- The windows' block indices over the grid: the row-block index of x and of the output is the point, their column-block
    index and both block indices of the matrix are 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole-array product of the arrays the region finds. -/
theorem flushed_eq (t : Fin cfg0.N) :
    (dat0 (F := Ideal) V c).flushed 2 t
      = ((cfg0.win 2).blk t).view.read (Elt Ideal) (mm (V c main_arg0) (V c main_v4) : Mat 50000 256) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  rw [pay_eq]
  obtain ⟨e0, e1, e2, e3, e4, e5⟩ := idx_facts t
  funext j
  show mm (iblk0 V c 0 t) (iblk0 V c 1 t) j
    = (mm (V c main_arg0) (V c main_v4) : Mat 50000 256) (((cfg0.win 2).blk t).view.emb j)
  have hj0 : (j 0).val < 2000 := (j 0).isLt
  have hj1 : (j 1).val < 256 := (j 1).isLt
  refine mm_of_row_col (V c main_arg0) (V c main_v4) (iblk0 V c 0 t) (iblk0 V c 1 t) j
    (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_v4 (((cfg0.win 1).blk t).view.emb (ix2 k (j 1))) = V c main_v4 (ix2 k ((((cfg0.win 2).blk t).view.emb j) 1))
    refine congrArg (V c main_v4) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v5).slice (win0_2.rect t)).set ↔ _
  rw [View.set_slice_whole, Rect.mem_set_unit]
  exact Iff.rfl

/-- Row r of the array is in the block of point r / 2000: the 25 row blocks cover the 50000 rows. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < 25 := by omega
  refine ⟨⟨(i 0).val / 2000, ht⟩, flush0_2 _, ?_⟩
  rw [mem_blk]
  obtain ⟨e0, e1, e2, e3, e4, e5⟩ := idx_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]
    omega

/-- The output array after the region's 25 points: the whole-array product. -/
theorem final : (dat0 (F := Ideal) V c).arrAt 2 cfg0.N = (mm (V c main_arg0) (V c main_v4) : Mat 50000 256) :=
  (dat0 (F := Ideal) V c).arrAt_eq_of_cover 2 (mm (V c main_arg0) (V c main_v4) : Mat 50000 256)
    (fun t _ => flushed_eq V c t) cover

end Cert.KernelIdeal.FinalProj0

end
-- ==== Proof.FinalOut11.lean ====
/-
  Region 11 of the tiled program: what its 25 grid points leave in the output array is the whole-array output
  projection q · Wo + b of the arrays the region finds. Point t works on rows 2000·t … 2000·t + 1999 of q and on the
  whole of Wo and of the one-row array b; an entry of a product depends on one row of the left factor only, so the
  block's result is the block of the whole arrays' result, and the 25 row blocks cover the 50000 rows.
-/
import proofs.«109571_j64716567216291_1_alg».proof.Proof.Gen.KernelIdeal.Frame
import proofs.«109571_j64716567216291_1_alg».proof.Proof.Spec
import Idealize.ShloMosaic.Lib.Pipeline.Value
import Idealize.ShloMosaic.Lib.ValueIdx

set_option maxRecDepth 16384

noncomputable section

namespace Cert.KernelIdeal.FinalOut11

open Cert.KernelIdeal Cert.KernelIdeal.Gen Idealize.ShloMosaic Idealize.ShloMosaic.TcCoe Idealize.ShloMosaic.ValueIdx Idealize.SL.Sem
open Cert.Sympl Cert.MatrixProduct Cert.Gcn

theorem hz : (![0, 0] : Fin 2 → Nat) = fun _ => 0 := funext fun a => by fin_cases a <;> rfl

/-- The body's arithmetic on its three blocks: the q-block times Wo into zeros (both narrowed to a shorter float format
    on the way in, the identity on the extended reals), plus the row b repeated down the rows. -/
theorem pay_eq (x : FVec Ideal S2000x128 .f32) (w : FVec Ideal S128x40 .f32) (b : FVec Ideal S1x40 .f32) :
    k11_pay1 (F := Ideal) x w b = biasedProduct x w b := by
  unfold k11_pay1
  exact block_linear dot_S2000x128_S128x40_S2000x40_1_0_0_1_n_n_wf bitsLt_bf16_f32 shapeCasts_S2000x128_S2000x128
    shapeCasts_S1x40_S1x40 broadcasts_S1x40_S2000x40 x w b

/-- An entry of a block's product plus row is the entry of the whole arrays': entry j of the block is entry i of the
    array when row j 0 of the left block is row i 0 of the left array, column j 1 of the right block is column i 1 of
    the right array, and the rows agree at that column. -/
theorem biased_of_row {M R K N : ℕ} (X : Mat M K) (W : Mat K N) (B : Mat 1 N) (x0 : Mat R K) (x1 : Mat K N) (x2 : Mat 1 N)
    (j : (⟨2, ![R, N]⟩ : Shape).Idx) (i : (⟨2, ![M, N]⟩ : Shape).Idx)
    (h0 : ∀ k : Fin K, x0 (ix2 (j 0) k) = X (ix2 (i 0) k))
    (h1 : ∀ k : Fin K, x1 (ix2 k (j 1)) = W (ix2 k (i 1)))
    (h2 : x2 (ix2 (0 : Fin 1) (j 1)) = B (ix2 (0 : Fin 1) (i 1))) :
    biasedProduct x0 x1 x2 j = biasedProduct X W B i := by
  show mm x0 x1 j + x2 (ix2 (0 : Fin 1) (j 1)) = mm X W i + B (ix2 (0 : Fin 1) (i 1))
  rw [h2, mm_of_row_col X W x0 x1 j i h0 h1]

variable (V : (c : Dev nD) → (b : Ref sig .tc) → Buf (Elt Ideal) ((c : Thread nD τ).loc b)) (c : Dev nD)

/-- The windows' block indices over the grid: the row-block index of q and of the output is the point, their column-block
    index and both block indices of Wo and of b are 0. -/
theorem idx_facts : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = t.val
    ∧ win11_3.index t (1 : Fin 2) = 0 :=
  (by decide +kernel : ∀ t : Fin grid11.N, _)

/-- What point t writes back is block t of the whole-array output projection of the arrays the region finds. -/
theorem flushed_eq (t : Fin cfg11.N) :
    (dat11 (F := Ideal) V c).flushed 3 t
      = ((cfg11.win 3).blk t).view.read (Elt Ideal) (biasedProduct (V c main_v169) (V c main_arg8) (V c main_v170)) := by
  show (cfg11.win 3).cut (grid11.coords t) ((dat11 V c).after 3 t) = _
  rw [after11_3]
  unfold out11_3
  rw [View.canon_unit_zero hz]
  simp only [View.ld_unit_zero (S := S2000x128) hz, View.ld_unit_zero (S := S128x40) hz, View.ld_unit_zero (S := S1x40) hz]
  rw [pay_eq]
  obtain ⟨e0, e1, e2, e3, e4, e5, e6, e7⟩ := idx_facts t
  funext j
  show biasedProduct (iblk11 V c 0 t) (iblk11 V c 1 t) (iblk11 V c 2 t) j
    = biasedProduct (V c main_v169) (V c main_arg8) (V c main_v170) (((cfg11.win 3).blk t).view.emb j)
  have hj0 : (j 0).val < 2000 := (j 0).isLt
  have hj1 : (j 1).val < 40 := (j 1).isLt
  refine biased_of_row (V c main_v169) (V c main_arg8) (V c main_v170) (iblk11 V c 0 t) (iblk11 V c 1 t) (iblk11 V c 2 t) j
    (((cfg11.win 3).blk t).view.emb j) (fun k => ?_) (fun k => ?_) ?_
  · show V c main_v169 (((cfg11.win 0).blk t).view.emb (ix2 (j 0) k)) = V c main_v169 (ix2 ((((cfg11.win 3).blk t).view.emb j) 0) k)
    refine congrArg (V c main_v169) (funext fun a => Fin.ext ?_)
    match a with
    | ⟨0, _⟩ => show win11_0.index t (0 : Fin 2) * 2000 + 1 * (j 0).val = win11_3.index t (0 : Fin 2) * 2000 + 1 * (j 0).val; omega
    | ⟨1, _⟩ => show win11_0.index t (1 : Fin 2) * 128 + 1 * k.val = k.val; omega
  · show V c main_arg8 (((cfg11.win 1).blk t).view.emb (ix2 k (j 1))) = V c main_arg8 (ix2 k ((((cfg11.win 3).blk t).view.emb j) 1))
    refine congrArg (V c main_arg8) (funext fun a => Fin.ext ?_)
    match a with
    | ⟨0, _⟩ => show win11_1.index t (0 : Fin 2) * 128 + 1 * k.val = k.val; omega
    | ⟨1, _⟩ => show win11_1.index t (1 : Fin 2) * 40 + 1 * (j 1).val = win11_3.index t (1 : Fin 2) * 40 + 1 * (j 1).val; omega
  · show V c main_v170 (((cfg11.win 2).blk t).view.emb (ix2 (0 : Fin 1) (j 1)))
      = V c main_v170 (ix2 (0 : Fin 1) ((((cfg11.win 3).blk t).view.emb j) 1))
    refine congrArg (V c main_v170) (funext fun a => Fin.ext ?_)
    match a with
    | ⟨0, _⟩ => show win11_2.index t (0 : Fin 2) * 1 + 1 * 0 = 0; omega
    | ⟨1, _⟩ => show win11_2.index t (1 : Fin 2) * 40 + 1 * (j 1).val = win11_3.index t (1 : Fin 2) * 40 + 1 * (j 1).val; omega

/-- An index of the array is in point t's block iff each coordinate is in the block's range on its axis. -/
theorem mem_blk (t : Fin cfg11.N) (i : S50000x40.Idx) :
    i ∈ ((cfg11.win 3).blk t).view.set ↔ ∀ a : Fin 2, win11_3.index t a * S2000x40.size a ≤ (i a).val
      ∧ (i a).val < win11_3.index t a * S2000x40.size a + S2000x40.size a := by
  show i ∈ ((View.whole main_v171).slice (win11_3.rect t)).set ↔ _
  rw [View.set_slice_whole, Rect.mem_set_unit]
  exact Iff.rfl

/-- Row r of the array is in the block of point r / 2000: the 25 row blocks cover the 50000 rows. -/
theorem cover (i : S50000x40.Idx) :
    ∃ t : Fin cfg11.N, (cfg11.win 3).flush t = true ∧ i ∈ ((cfg11.win 3).blk t).view.set := by
  have hi0 : (i 0).val < 50000 := (i 0).isLt
  have hi1 : (i 1).val < 40 := (i 1).isLt
  have ht : (i 0).val / 2000 < 25 := by omega
  refine ⟨⟨(i 0).val / 2000, ht⟩, flush11_3 _, ?_⟩
  rw [mem_blk]
  obtain ⟨e0, e1, e2, e3, e4, e5, e6, e7⟩ := idx_facts ⟨(i 0).val / 2000, ht⟩
  intro a
  match a with
  | ⟨0, _⟩ =>
    show win11_3.index ⟨(i 0).val / 2000, ht⟩ (0 : Fin 2) * 2000 ≤ (i 0).val
      ∧ (i 0).val < win11_3.index ⟨(i 0).val / 2000, ht⟩ (0 : Fin 2) * 2000 + 2000
    rw [e6]
    show (i 0).val / 2000 * 2000 ≤ (i 0).val ∧ (i 0).val < (i 0).val / 2000 * 2000 + 2000
    omega
  | ⟨1, _⟩ =>
    show win11_3.index ⟨(i 0).val / 2000, ht⟩ (1 : Fin 2) * 40 ≤ (i 1).val
      ∧ (i 1).val < win11_3.index ⟨(i 0).val / 2000, ht⟩ (1 : Fin 2) * 40 + 40
    rw [e7]
    omega

/-- The output array after the region's 25 points: the whole-array output projection. -/
theorem final : (dat11 (F := Ideal) V c).arrAt 3 cfg11.N = biasedProduct (V c main_v169) (V c main_arg8) (V c main_v170) :=
  (dat11 (F := Ideal) V c).arrAt_eq_of_cover 3 (biasedProduct (V c main_v169) (V c main_arg8) (V c main_v170))
    (fun t _ => flushed_eq V c t) cover

end Cert.KernelIdeal.FinalOut11

end
-- ==== Proof.Finals.lean ====
/-
  What each of the twelve tiled regions leaves in its output arrays, as ONE whole-array function of the arrays the
  region finds (any contents `V`): the 2000-row blocks the grid points write back are the blocks of that function, and
  the 25 blocks cover the 50000 rows.
-/
import proofs.«109571_j64716567216291_1_alg».proof.Proof.Gen.KernelIdeal.Frame
import proofs.«109571_j64716567216291_1_alg».proof.Proof.Spec
import proofs.«109571_j64716567216291_1_alg».proof.Proof.FinalUpd1
import proofs.«109571_j64716567216291_1_alg».proof.Proof.FinalUpd3
import proofs.«109571_j64716567216291_1_alg».proof.Proof.FinalUpd5
import proofs.«109571_j64716567216291_1_alg».proof.Proof.FinalUpd7
import proofs.«109571_j64716567216291_1_alg».proof.Proof.FinalUpd9
import proofs.«109571_j64716567216291_1_alg».proof.Proof.FinalUpd10
import proofs.«109571_j64716567216291_1_alg».proof.Proof.FinalAct2
import proofs.«109571_j64716567216291_1_alg».proof.Proof.FinalAct4
import proofs.«109571_j64716567216291_1_alg».proof.Proof.FinalAct6
import proofs.«109571_j64716567216291_1_alg».proof.Proof.FinalAct8
import proofs.«109571_j64716567216291_1_alg».proof.Proof.FinalProj0
import proofs.«109571_j64716567216291_1_alg».proof.Proof.FinalOut11

noncomputable section

namespace Cert.KernelIdeal.Finals

open Cert.KernelIdeal Cert.KernelIdeal.Gen Idealize.ShloMosaic Idealize.ShloMosaic.TcCoe Idealize.ShloMosaic.ValueIdx Idealize.SL.Sem
open Cert.Sympl Cert.MatrixProduct Cert.Gcn

variable (V : (c : Dev nD) → (b : Ref sig .tc) → Buf (Elt Ideal) ((c : Thread nD τ).loc b)) (c : Dev nD)

/-- Region 0: the projection x · [Wp | Wq]. -/
theorem final0 : (dat0 (F := Ideal) V c).arrAt 2 cfg0.N = (mm (V c main_arg0) (V c main_v4) : Mat 50000 256) :=
  FinalProj0.final V c

/-- Region 1: `p + a · w`. -/
theorem final1 : (dat1 (F := Ideal) V c).arrAt 3 cfg1.N = upd (V c main_v6) (V c main_v25) (V c main_v27) :=
  FinalUpd1.final V c

/-- Region 3: `p + a · w`. -/
theorem final3 : (dat3 (F := Ideal) V c).arrAt 3 cfg3.N = upd (V c main_v47_0) (V c main_v57) (V c main_v59) :=
  FinalUpd3.final V c

/-- Region 5: `p + a · w`. -/
theorem final5 : (dat5 (F := Ideal) V c).arrAt 3 cfg5.N = upd (V c main_v79_0) (V c main_v89) (V c main_v91) :=
  FinalUpd5.final V c

/-- Region 7: `p + a · w`. -/
theorem final7 : (dat7 (F := Ideal) V c).arrAt 3 cfg7.N = upd (V c main_v111_0) (V c main_v121) (V c main_v123) :=
  FinalUpd7.final V c

/-- Region 9: `p + a · w`. -/
theorem final9 : (dat9 (F := Ideal) V c).arrAt 3 cfg9.N = upd (V c main_v143_0) (V c main_v153) (V c main_v155) :=
  FinalUpd9.final V c

/-- Region 10: `p + a · w`. -/
theorem final10 : (dat10 (F := Ideal) V c).arrAt 3 cfg10.N = upd (V c main_v143_1) (V c main_v166) (V c main_v168) :=
  FinalUpd10.final V c

/-- Region 2, first output: `p + α ⊙ σ(q + a · w)`. -/
theorem final2p : (dat2 (F := Ideal) V c).arrAt 6 cfg2.N = act (V c main_v28) (upd (V c main_v7) (V c main_v38) (V c main_v46)) (V c main_v41) :=
  FinalAct2.finalp V c

/-- Region 2, second output: `q' + β ⊙ σ(p')` with `q' = q + a · w` and `p'` the first output. -/
theorem final2q : (dat2 (F := Ideal) V c).arrAt 7 cfg2.N = act (upd (V c main_v7) (V c main_v38) (V c main_v46)) (act (V c main_v28) (upd (V c main_v7) (V c main_v38) (V c main_v46)) (V c main_v41)) (V c main_v44) :=
  FinalAct2.finalq V c

/-- Region 4, first output: `p + α ⊙ σ(q + a · w)`. -/
theorem final4p : (dat4 (F := Ideal) V c).arrAt 6 cfg4.N = act (V c main_v60) (upd (V c main_v47_1) (V c main_v70) (V c main_v78)) (V c main_v73) :=
  FinalAct4.finalp V c

/-- Region 4, second output: `q' + β ⊙ σ(p')` with `q' = q + a · w` and `p'` the first output. -/
theorem final4q : (dat4 (F := Ideal) V c).arrAt 7 cfg4.N = act (upd (V c main_v47_1) (V c main_v70) (V c main_v78)) (act (V c main_v60) (upd (V c main_v47_1) (V c main_v70) (V c main_v78)) (V c main_v73)) (V c main_v76) :=
  FinalAct4.finalq V c

/-- Region 6, first output: `p + α ⊙ σ(q + a · w)`. -/
theorem final6p : (dat6 (F := Ideal) V c).arrAt 6 cfg6.N = act (V c main_v92) (upd (V c main_v79_1) (V c main_v102) (V c main_v110)) (V c main_v105) :=
  FinalAct6.finalp V c

/-- Region 6, second output: `q' + β ⊙ σ(p')` with `q' = q + a · w` and `p'` the first output. -/
theorem final6q : (dat6 (F := Ideal) V c).arrAt 7 cfg6.N = act (upd (V c main_v79_1) (V c main_v102) (V c main_v110)) (act (V c main_v92) (upd (V c main_v79_1) (V c main_v102) (V c main_v110)) (V c main_v105)) (V c main_v108) :=
  FinalAct6.finalq V c

/-- Region 8, first output: `p + α ⊙ σ(q + a · w)`. -/
theorem final8p : (dat8 (F := Ideal) V c).arrAt 6 cfg8.N = act (V c main_v124) (upd (V c main_v111_1) (V c main_v134) (V c main_v142)) (V c main_v137) :=
  FinalAct8.finalp V c

/-- Region 8, second output: `q' + β ⊙ σ(p')` with `q' = q + a · w` and `p'` the first output. -/
theorem final8q : (dat8 (F := Ideal) V c).arrAt 7 cfg8.N = act (upd (V c main_v111_1) (V c main_v134) (V c main_v142)) (act (V c main_v124) (upd (V c main_v111_1) (V c main_v134) (V c main_v142)) (V c main_v137)) (V c main_v140) :=
  FinalAct8.finalq V c

/-- Region 11: the output projection `q · Wo + b`. -/
theorem final11 : (dat11 (F := Ideal) V c).arrAt 3 cfg11.N = biasedProduct (V c main_v169) (V c main_arg8) (V c main_v170) :=
  FinalOut11.final V c

end Cert.KernelIdeal.Finals

end
-- ==== Proof.ChainTac.lean ====
/-
  Two small tactics for walking a buffer back through a stretch of host operations: a buffer that none of the
  stretch's operations writes holds after the stretch what it held before it.
-/
import Idealize.ShloMosaic.Lib.StableHlo.Run

namespace Cert.KernelIdeal.Chain

open Idealize.ShloMosaic

/-- Closes `∀ op ∈ ops, b ∉ op.writes` for a literal list `ops` (named by its definition) and a literal buffer `b`:
    each operation writes one buffer, and that buffer is another one. -/
macro "host_unwritten " ops:ident : tactic =>
  `(tactic| exact List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

end Cert.KernelIdeal.Chain
-- ==== Proof.Stage0.lean ====
/-
  The tiled program up to the end of its first region: the index vectors cut from the edge list, the two projection
  matrices laid side by side, and the region's product x · [Wp | Wq]; every argument array is still as launched.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that the first stretch does not write, and that is not one of region 0's arrays, holds its launch contents. -/
theorem keep0 (b : Ref sig .tc)
    (hb : ∀ op ∈ (hostOps0 : List (HloOp τ sig (Elt Ideal))), (Proc.devRef .tc b : DevRef τ sig) ∉ op.writes)
    (hw : ∀ w, Pipeline.arrRef spec0 w ≠ b) :
    W2 (F := Ideal) m ρ c (Proc.devRef .tc b) = m ((c : Thread nD τ).loc b) :=
  (W2_of_ne m ρ c b hw).trans (StableHlo.after_of_forall_not_mem _ _ hb)

/-- The region finds x as launched. -/
theorem inX0 : V1 (F := Ideal) m ρ c main_arg0 = m ((c : Thread nD τ).loc main_arg0) :=
  StableHlo.after_of_forall_not_mem (b := Proc.devRef .tc main_arg0) _ _ (by host_unwritten hostOps0)

set_option maxHeartbeats 1000000 in
/-- The region finds the two projection matrices side by side. -/
theorem inW0 :
    V1 (F := Ideal) m ρ c main_v4 = sideBySide (m ((c : Thread nD τ).loc main_arg2)) (m ((c : Thread nD τ).loc main_arg3)) := by
  show StableHlo.after hostOps0 (W0 (F := Ideal) m ρ c) (Proc.devRef .tc main_v4) = _
  simp only [hostOps0]
  after_results
  rfl

set_option maxHeartbeats 1000000 in
/-- The senders, cut from the edge list. -/
theorem src0 :
    V1 (F := Ideal) m ρ c main_v1 = srcOf (m ((c : Thread nD τ).loc main_arg1)) := by
  show StableHlo.after hostOps0 (W0 (F := Ideal) m ρ c) (Proc.devRef .tc main_v1) = _
  simp only [hostOps0]
  after_results
  rfl

set_option maxHeartbeats 1000000 in
/-- The receivers, cut from the edge list. -/
theorem dst0 :
    V1 (F := Ideal) m ρ c main_v3 = dstOf (m ((c : Thread nD τ).loc main_arg1)) := by
  show StableHlo.after hostOps0 (W0 (F := Ideal) m ρ c) (Proc.devRef .tc main_v3) = _
  simp only [hostOps0]
  after_results
  rfl

theorem stage0 :

    W2 (F := Ideal) m ρ c (Proc.devRef .tc main_v1) = srcOf (m ((c : Thread nD τ).loc main_arg1))
    ∧ W2 (F := Ideal) m ρ c (Proc.devRef .tc main_v3) = dstOf (m ((c : Thread nD τ).loc main_arg1))
    ∧ W2 (F := Ideal) m ρ c (Proc.devRef .tc main_v5) = (mm (m ((c : Thread nD τ).loc main_arg0)) (sideBySide (m ((c : Thread nD τ).loc main_arg2)) (m ((c : Thread nD τ).loc main_arg3))) : Mat 50000 256)
    ∧ W2 (F := Ideal) m ρ c (Proc.devRef .tc main_arg4) = m ((c : Thread nD τ).loc main_arg4)
    ∧ W2 (F := Ideal) m ρ c (Proc.devRef .tc main_arg5) = m ((c : Thread nD τ).loc main_arg5)
    ∧ W2 (F := Ideal) m ρ c (Proc.devRef .tc main_arg6) = m ((c : Thread nD τ).loc main_arg6)
    ∧ W2 (F := Ideal) m ρ c (Proc.devRef .tc main_arg7) = m ((c : Thread nD τ).loc main_arg7)
    ∧ W2 (F := Ideal) m ρ c (Proc.devRef .tc main_arg8) = m ((c : Thread nD τ).loc main_arg8)
    ∧ W2 (F := Ideal) m ρ c (Proc.devRef .tc main_arg9) = m ((c : Thread nD τ).loc main_arg9) :=
  ⟨(W2_of_ne m ρ c main_v1 (by decide)).trans (src0 m ρ c),
   (W2_of_ne m ρ c main_v3 (by decide)).trans (dst0 m ρ c),
   (W2_arr m ρ c 2).trans ((Finals.final0 (V1 (F := Ideal) m ρ) c).trans (by rw [inX0 m ρ c, inW0 m ρ c])),
   keep0 m ρ c main_arg4 (by host_unwritten hostOps0) (by decide),
   keep0 m ρ c main_arg5 (by host_unwritten hostOps0) (by decide),
   keep0 m ρ c main_arg6 (by host_unwritten hostOps0) (by decide),
   keep0 m ρ c main_arg7 (by host_unwritten hostOps0) (by decide),
   keep0 m ρ c main_arg8 (by host_unwritten hostOps0) (by decide),
   keep0 m ρ c main_arg9 (by host_unwritten hostOps0) (by decide)⟩

end Cert.KernelIdeal.Chain

end
-- ==== Proof.Stage1.lean ====
/-
  The second stretch and region: p and q are the two halves of the projection, both stacks of matrices are
  symmetrised, and the region leaves p + agg(q) · ½(U_0 + U_0ᵀ).
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 1 does not write, and that is not one of region 1's arrays, is kept through both. -/
theorem keep1 (b : Ref sig .tc)
    (hb : ∀ op ∈ (hostOps1 : List (HloOp τ sig (Elt Ideal))), (Proc.devRef .tc b : DevRef τ sig) ∉ op.writes)
    (hw : ∀ w, Pipeline.arrRef spec1 w ≠ b) :
    W4 (F := Ideal) m ρ c (Proc.devRef .tc b) = W2 (F := Ideal) m ρ c (Proc.devRef .tc b) :=
  (W4_of_ne m ρ c b hw).trans (StableHlo.after_of_forall_not_mem _ _ hb)

set_option maxHeartbeats 1000000 in
/-- The region finds p: the first H columns of the projection. -/
theorem inP1 (PQ : Mat 50000 256)
    (hPQ : W2 (F := Ideal) m ρ c (Proc.devRef .tc main_v5) = PQ) :
    V3 (F := Ideal) m ρ c main_v6 = (extractStridedSlice S50000x128 ![0, 0] PQ Facts₀.slices_S50000x256_S50000x128_0_0) := by
  show StableHlo.after hostOps1 (W2 (F := Ideal) m ρ c) (Proc.devRef .tc main_v6) = _
  simp only [hostOps1]
  after_results
  rw [hPQ]

set_option maxHeartbeats 1000000 in
/-- q: the last H columns of the projection. -/
theorem inQ1 (PQ : Mat 50000 256)
    (hPQ : W2 (F := Ideal) m ρ c (Proc.devRef .tc main_v5) = PQ) :
    V3 (F := Ideal) m ρ c main_v7 = (extractStridedSlice S50000x128 ![0, 128] PQ Facts₀.slices_S50000x256_S50000x128_0_128) := by
  show StableHlo.after hostOps1 (W2 (F := Ideal) m ρ c) (Proc.devRef .tc main_v7) = _
  simp only [hostOps1]
  after_results
  rw [hPQ]

set_option maxHeartbeats 1000000 in
/-- The region finds the neighbourhood sum of q. -/
theorem inA1 (src dst : (⟨S800000, .i32⟩ : BufTy).Contents (Elt Ideal)) (PQ : Mat 50000 256)
    (h1 : W2 (F := Ideal) m ρ c (Proc.devRef .tc main_v1) = src)
    (h3 : W2 (F := Ideal) m ρ c (Proc.devRef .tc main_v3) = dst)
    (hPQ : W2 (F := Ideal) m ρ c (Proc.devRef .tc main_v5) = PQ) :
    V3 (F := Ideal) m ρ c main_v25 = aggK src dst (extractStridedSlice S50000x128 ![0, 128] PQ Facts₀.slices_S50000x256_S50000x128_0_128) := by
  show StableHlo.after hostOps1 (W2 (F := Ideal) m ρ c) (Proc.devRef .tc main_v25) = _
  simp only [hostOps1]
  after_results
  rw [h1, h3, hPQ]
  rfl

set_option maxHeartbeats 1000000 in
/-- The region finds ½(U_0 + U_0ᵀ), cut from the symmetrised stack. -/
theorem inW1 (U : FVec Ideal S5x128x128 .f32)
    (h4 : W2 (F := Ideal) m ρ c (Proc.devRef .tc main_arg4) = U) :
    V3 (F := Ideal) m ρ c main_v27 = symm (0 : Fin 5) U := by
  show StableHlo.after hostOps1 (W2 (F := Ideal) m ρ c) (Proc.devRef .tc main_v27) = _
  simp only [hostOps1]
  after_results
  rw [h4]
  exact layer_symStack 0 (by decide) U _

set_option maxHeartbeats 1000000 in
/-- The stretch symmetrises the whole U stack. -/
theorem symU1 (U : FVec Ideal S5x128x128 .f32)
    (h4 : W2 (F := Ideal) m ρ c (Proc.devRef .tc main_arg4) = U) :
    V3 (F := Ideal) m ρ c main_v11 = symStack U := by
  show StableHlo.after hostOps1 (W2 (F := Ideal) m ρ c) (Proc.devRef .tc main_v11) = _
  simp only [hostOps1]
  after_results
  rw [h4]
  rfl

set_option maxHeartbeats 1000000 in
/-- The stretch symmetrises the whole D stack. -/
theorem symD1 (D : FVec Ideal S5x128x128 .f32)
    (h5 : W2 (F := Ideal) m ρ c (Proc.devRef .tc main_arg5) = D) :
    V3 (F := Ideal) m ρ c main_v15 = symStack D := by
  show StableHlo.after hostOps1 (W2 (F := Ideal) m ρ c) (Proc.devRef .tc main_v15) = _
  simp only [hostOps1]
  after_results
  rw [h5]
  rfl

/-- The region's output: p + agg(q) · ½(U_0 + U_0ᵀ). -/
theorem out1 (src dst : (⟨S800000, .i32⟩ : BufTy).Contents (Elt Ideal)) (PQ : Mat 50000 256) (U : FVec Ideal S5x128x128 .f32)
    (eP : V3 (F := Ideal) m ρ c main_v6 = (extractStridedSlice S50000x128 ![0, 0] PQ Facts₀.slices_S50000x256_S50000x128_0_0)) (eA : V3 (F := Ideal) m ρ c main_v25 = aggK src dst (extractStridedSlice S50000x128 ![0, 128] PQ Facts₀.slices_S50000x256_S50000x128_0_128))
    (eW : V3 (F := Ideal) m ρ c main_v27 = symm (0 : Fin 5) U) :
    W4 (F := Ideal) m ρ c (Proc.devRef .tc main_v28) = upd (extractStridedSlice S50000x128 ![0, 0] PQ Facts₀.slices_S50000x256_S50000x128_0_0) (aggK src dst (extractStridedSlice S50000x128 ![0, 128] PQ Facts₀.slices_S50000x256_S50000x128_0_128)) (symm (0 : Fin 5) U) := by
  refine (W4_arr m ρ c 3).trans ((Finals.final1 (V3 (F := Ideal) m ρ) c).trans ?_)
  rw [eP, eA, eW]

theorem stage1 (src dst : (⟨S800000, .i32⟩ : BufTy).Contents (Elt Ideal)) (PQ : Mat 50000 256) (U D : FVec Ideal S5x128x128 .f32) (A6 A7 : FVec Ideal S4x128 .f32) (A8 : FVec Ideal S128x40 .f32) (A9 : FVec Ideal S40 .f32)
    (h1 : W2 (F := Ideal) m ρ c (Proc.devRef .tc main_v1) = src)
    (h3 : W2 (F := Ideal) m ρ c (Proc.devRef .tc main_v3) = dst)
    (hPQ : W2 (F := Ideal) m ρ c (Proc.devRef .tc main_v5) = PQ)
    (h4 : W2 (F := Ideal) m ρ c (Proc.devRef .tc main_arg4) = U)
    (h5 : W2 (F := Ideal) m ρ c (Proc.devRef .tc main_arg5) = D)
    (h6 : W2 (F := Ideal) m ρ c (Proc.devRef .tc main_arg6) = A6)
    (h7 : W2 (F := Ideal) m ρ c (Proc.devRef .tc main_arg7) = A7)
    (h8 : W2 (F := Ideal) m ρ c (Proc.devRef .tc main_arg8) = A8)
    (h9 : W2 (F := Ideal) m ρ c (Proc.devRef .tc main_arg9) = A9) :
    W4 (F := Ideal) m ρ c (Proc.devRef .tc main_v1) = src
    ∧ W4 (F := Ideal) m ρ c (Proc.devRef .tc main_v3) = dst
    ∧ W4 (F := Ideal) m ρ c (Proc.devRef .tc main_v11) = symStack U
    ∧ W4 (F := Ideal) m ρ c (Proc.devRef .tc main_v15) = symStack D
    ∧ W4 (F := Ideal) m ρ c (Proc.devRef .tc main_arg6) = A6
    ∧ W4 (F := Ideal) m ρ c (Proc.devRef .tc main_arg7) = A7
    ∧ W4 (F := Ideal) m ρ c (Proc.devRef .tc main_arg8) = A8
    ∧ W4 (F := Ideal) m ρ c (Proc.devRef .tc main_arg9) = A9
    ∧ W4 (F := Ideal) m ρ c (Proc.devRef .tc main_v28) = upd (extractStridedSlice S50000x128 ![0, 0] PQ Facts₀.slices_S50000x256_S50000x128_0_0) (aggK src dst (extractStridedSlice S50000x128 ![0, 128] PQ Facts₀.slices_S50000x256_S50000x128_0_128)) (symm (0 : Fin 5) U)
    ∧ W4 (F := Ideal) m ρ c (Proc.devRef .tc main_v7) = (extractStridedSlice S50000x128 ![0, 128] PQ Facts₀.slices_S50000x256_S50000x128_0_128) :=
  ⟨(keep1 m ρ c main_v1 (by host_unwritten hostOps1) (by decide)).trans h1,
   (keep1 m ρ c main_v3 (by host_unwritten hostOps1) (by decide)).trans h3,
   (W4_of_ne m ρ c main_v11 (by decide)).trans (symU1 m ρ c U h4),
   (W4_of_ne m ρ c main_v15 (by decide)).trans (symD1 m ρ c D h5),
   (keep1 m ρ c main_arg6 (by host_unwritten hostOps1) (by decide)).trans h6,
   (keep1 m ρ c main_arg7 (by host_unwritten hostOps1) (by decide)).trans h7,
   (keep1 m ρ c main_arg8 (by host_unwritten hostOps1) (by decide)).trans h8,
   (keep1 m ρ c main_arg9 (by host_unwritten hostOps1) (by decide)).trans h9,
   out1 m ρ c src dst PQ U (inP1 m ρ c PQ hPQ) (inA1 m ρ c src dst PQ h1 h3 hPQ) (inW1 m ρ c U h4),
   (W4_of_ne m ρ c main_v7 (by decide)).trans (inQ1 m ρ c PQ hPQ)⟩

end Cert.KernelIdeal.Chain

end
-- ==== Proof.Stage2.lean ====
/-
  Stretch and region 2: the neighbourhood sum of p, the matrix ½(D_0 + D_0ᵀ) and the activation rows α_0, β_0; the
  region leaves q' = q + agg(p) · ½(D_0 + D_0ᵀ), then p' = p + α_0 ⊙ σ(q') and q' + β_0 ⊙ σ(p').
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 2 does not write, and that is not one of region 2's arrays, is kept through both. -/
theorem keep2 (b : Ref sig .tc)
    (hb : ∀ op ∈ (hostOps2 : List (HloOp τ sig (Elt Ideal))), (Proc.devRef .tc b : DevRef τ sig) ∉ op.writes)
    (hw : ∀ w, Pipeline.arrRef spec2 w ≠ b) :
    W6 (F := Ideal) m ρ c (Proc.devRef .tc b) = W4 (F := Ideal) m ρ c (Proc.devRef .tc b) :=
  (W6_of_ne m ρ c b hw).trans (StableHlo.after_of_forall_not_mem _ _ hb)

/-- The region finds p where the stretch left it. -/
theorem inP2 (P : Mat 50000 128)
    (hP : W4 (F := Ideal) m ρ c (Proc.devRef .tc main_v28) = P) :
    V5 (F := Ideal) m ρ c main_v28 = P :=
  (StableHlo.after_of_forall_not_mem (b := Proc.devRef .tc main_v28) _ _ (by host_unwritten hostOps2)).trans hP

/-- The region finds q where the stretch left it. -/
theorem inQ2 (Q : Mat 50000 128)
    (hQ : W4 (F := Ideal) m ρ c (Proc.devRef .tc main_v7) = Q) :
    V5 (F := Ideal) m ρ c main_v7 = Q :=
  (StableHlo.after_of_forall_not_mem (b := Proc.devRef .tc main_v7) _ _ (by host_unwritten hostOps2)).trans hQ

set_option maxHeartbeats 1000000 in
/-- The region finds the neighbourhood sum of p. -/
theorem inA2 (src dst : (⟨S800000, .i32⟩ : BufTy).Contents (Elt Ideal)) (P : Mat 50000 128)
    (h1 : W4 (F := Ideal) m ρ c (Proc.devRef .tc main_v1) = src)
    (h3 : W4 (F := Ideal) m ρ c (Proc.devRef .tc main_v3) = dst)
    (hP : W4 (F := Ideal) m ρ c (Proc.devRef .tc main_v28) = P) :
    V5 (F := Ideal) m ρ c main_v38 = aggK src dst P := by
  show StableHlo.after hostOps2 (W4 (F := Ideal) m ρ c) (Proc.devRef .tc main_v38) = _
  simp only [hostOps2]
  after_results
  rw [h1, h3, hP]
  rfl

set_option maxHeartbeats 1000000 in
/-- The region finds ½(D_0 + D_0ᵀ), cut from the symmetrised stack. -/
theorem inW2 (D : FVec Ideal S5x128x128 .f32)
    (h15 : W4 (F := Ideal) m ρ c (Proc.devRef .tc main_v15) = symStack D) :
    V5 (F := Ideal) m ρ c main_v46 = symm (0 : Fin 5) D := by
  show StableHlo.after hostOps2 (W4 (F := Ideal) m ρ c) (Proc.devRef .tc main_v46) = _
  simp only [hostOps2]
  after_results
  rw [h15]
  exact layer_symStack 0 (by decide) D _

set_option maxHeartbeats 1000000 in
/-- The region finds row 0 of α as a one-row array. -/
theorem inAl2 (A6 : FVec Ideal S4x128 .f32)
    (h6 : W4 (F := Ideal) m ρ c (Proc.devRef .tc main_arg6) = A6) :
    V5 (F := Ideal) m ρ c main_v41 = biasRow (0 : Fin 4) A6 := by
  show StableHlo.after hostOps2 (W4 (F := Ideal) m ρ c) (Proc.devRef .tc main_v41) = _
  simp only [hostOps2]
  after_results
  rw [h6]
  exact row_of_rows 0 (by decide) A6 _

set_option maxHeartbeats 1000000 in
/-- The region finds row 0 of β as a one-row array. -/
theorem inBe2 (A7 : FVec Ideal S4x128 .f32)
    (h7 : W4 (F := Ideal) m ρ c (Proc.devRef .tc main_arg7) = A7) :
    V5 (F := Ideal) m ρ c main_v44 = biasRow (0 : Fin 4) A7 := by
  show StableHlo.after hostOps2 (W4 (F := Ideal) m ρ c) (Proc.devRef .tc main_v44) = _
  simp only [hostOps2]
  after_results
  rw [h7]
  exact row_of_rows 0 (by decide) A7 _

/-- The region's first output: p + α_0 ⊙ σ(q + agg(p) · ½(D_0 + D_0ᵀ)). -/
theorem outP2 (src dst : (⟨S800000, .i32⟩ : BufTy).Contents (Elt Ideal)) (D : FVec Ideal S5x128x128 .f32) (A6 : FVec Ideal S4x128 .f32) (P Q : Mat 50000 128)
    (eP : V5 (F := Ideal) m ρ c main_v28 = P) (eQ : V5 (F := Ideal) m ρ c main_v7 = Q) (eA : V5 (F := Ideal) m ρ c main_v38 = aggK src dst P)
    (eW : V5 (F := Ideal) m ρ c main_v46 = symm (0 : Fin 5) D) (eAl : V5 (F := Ideal) m ρ c main_v41 = biasRow (0 : Fin 4) A6) :
    W6 (F := Ideal) m ρ c (Proc.devRef .tc main_v47_0) = act P (upd Q (aggK src dst P) (symm (0 : Fin 5) D)) (biasRow (0 : Fin 4) A6) := by
  refine (W6_arr m ρ c 6).trans ((Finals.final2p (V5 (F := Ideal) m ρ) c).trans ?_)
  rw [eP, eQ, eA, eW, eAl]

/-- The region's second output: q' + β_0 ⊙ σ(p'), with q' the updated q and p' the first output. -/
theorem outQ2 (src dst : (⟨S800000, .i32⟩ : BufTy).Contents (Elt Ideal)) (D : FVec Ideal S5x128x128 .f32) (A6 A7 : FVec Ideal S4x128 .f32) (P Q : Mat 50000 128)
    (eP : V5 (F := Ideal) m ρ c main_v28 = P) (eQ : V5 (F := Ideal) m ρ c main_v7 = Q) (eA : V5 (F := Ideal) m ρ c main_v38 = aggK src dst P)
    (eW : V5 (F := Ideal) m ρ c main_v46 = symm (0 : Fin 5) D) (eAl : V5 (F := Ideal) m ρ c main_v41 = biasRow (0 : Fin 4) A6)
    (eBe : V5 (F := Ideal) m ρ c main_v44 = biasRow (0 : Fin 4) A7) :
    W6 (F := Ideal) m ρ c (Proc.devRef .tc main_v47_1) = act (upd Q (aggK src dst P) (symm (0 : Fin 5) D)) (act P (upd Q (aggK src dst P) (symm (0 : Fin 5) D)) (biasRow (0 : Fin 4) A6)) (biasRow (0 : Fin 4) A7) := by
  refine (W6_arr m ρ c 7).trans ((Finals.final2q (V5 (F := Ideal) m ρ) c).trans ?_)
  rw [eP, eQ, eA, eW, eAl, eBe]

theorem stage2 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W4 (F := Ideal) m ρ c (Proc.devRef .tc main_v1) = src)
    (h3 : W4 (F := Ideal) m ρ c (Proc.devRef .tc main_v3) = dst)
    (h11 : W4 (F := Ideal) m ρ c (Proc.devRef .tc main_v11) = symStack U)
    (h15 : W4 (F := Ideal) m ρ c (Proc.devRef .tc main_v15) = symStack D)
    (h6 : W4 (F := Ideal) m ρ c (Proc.devRef .tc main_arg6) = A6)
    (h7 : W4 (F := Ideal) m ρ c (Proc.devRef .tc main_arg7) = A7)
    (h8 : W4 (F := Ideal) m ρ c (Proc.devRef .tc main_arg8) = A8)
    (h9 : W4 (F := Ideal) m ρ c (Proc.devRef .tc main_arg9) = A9)
    (hP : W4 (F := Ideal) m ρ c (Proc.devRef .tc main_v28) = P)
    (hQ : W4 (F := Ideal) m ρ c (Proc.devRef .tc main_v7) = Q) :
    W6 (F := Ideal) m ρ c (Proc.devRef .tc main_v1) = src
    ∧ W6 (F := Ideal) m ρ c (Proc.devRef .tc main_v3) = dst
    ∧ W6 (F := Ideal) m ρ c (Proc.devRef .tc main_v11) = symStack U
    ∧ W6 (F := Ideal) m ρ c (Proc.devRef .tc main_v15) = symStack D
    ∧ W6 (F := Ideal) m ρ c (Proc.devRef .tc main_arg6) = A6
    ∧ W6 (F := Ideal) m ρ c (Proc.devRef .tc main_arg7) = A7
    ∧ W6 (F := Ideal) m ρ c (Proc.devRef .tc main_arg8) = A8
    ∧ W6 (F := Ideal) m ρ c (Proc.devRef .tc main_arg9) = A9
    ∧ W6 (F := Ideal) m ρ c (Proc.devRef .tc main_v47_0) = act P (upd Q (aggK src dst P) (symm (0 : Fin 5) D)) (biasRow (0 : Fin 4) A6)
    ∧ W6 (F := Ideal) m ρ c (Proc.devRef .tc main_v47_1) = act (upd Q (aggK src dst P) (symm (0 : Fin 5) D)) (act P (upd Q (aggK src dst P) (symm (0 : Fin 5) D)) (biasRow (0 : Fin 4) A6)) (biasRow (0 : Fin 4) A7) :=
  ⟨(keep2 m ρ c main_v1 (by host_unwritten hostOps2) (by decide)).trans h1,
   (keep2 m ρ c main_v3 (by host_unwritten hostOps2) (by decide)).trans h3,
   (keep2 m ρ c main_v11 (by host_unwritten hostOps2) (by decide)).trans h11,
   (keep2 m ρ c main_v15 (by host_unwritten hostOps2) (by decide)).trans h15,
   (keep2 m ρ c main_arg6 (by host_unwritten hostOps2) (by decide)).trans h6,
   (keep2 m ρ c main_arg7 (by host_unwritten hostOps2) (by decide)).trans h7,
   (keep2 m ρ c main_arg8 (by host_unwritten hostOps2) (by decide)).trans h8,
   (keep2 m ρ c main_arg9 (by host_unwritten hostOps2) (by decide)).trans h9,
   outP2 m ρ c src dst D A6 P Q (inP2 m ρ c P hP) (inQ2 m ρ c Q hQ) (inA2 m ρ c src dst P h1 h3 hP) (inW2 m ρ c D h15) (inAl2 m ρ c A6 h6),
   outQ2 m ρ c src dst D A6 A7 P Q (inP2 m ρ c P hP) (inQ2 m ρ c Q hQ) (inA2 m ρ c src dst P h1 h3 hP) (inW2 m ρ c D h15) (inAl2 m ρ c A6 h6) (inBe2 m ρ c A7 h7)⟩

end Cert.KernelIdeal.Chain

end
-- ==== Proof.Stage3.lean ====
/-
  Stretch and region 3: the neighbourhood sum of q and the matrix ½(U_1 + U_1ᵀ) cut from the symmetrised stack; the
  region leaves p + agg(q) · ½(U_1 + U_1ᵀ), and q, the index vectors, the stacks and the arguments stay as they were.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 3 does not write, and that is not one of region 3's arrays, is kept through both. -/
theorem keep3 (b : Ref sig .tc)
    (hb : ∀ op ∈ (hostOps3 : List (HloOp τ sig (Elt Ideal))), (Proc.devRef .tc b : DevRef τ sig) ∉ op.writes)
    (hw : ∀ w, Pipeline.arrRef spec3 w ≠ b) :
    W8 (F := Ideal) m ρ c (Proc.devRef .tc b) = W6 (F := Ideal) m ρ c (Proc.devRef .tc b) :=
  (W8_of_ne m ρ c b hw).trans (StableHlo.after_of_forall_not_mem _ _ hb)

/-- The region finds p where the stretch left it. -/
theorem inP3 (P : Mat 50000 128)
    (hP : W6 (F := Ideal) m ρ c (Proc.devRef .tc main_v47_0) = P) :
    V7 (F := Ideal) m ρ c main_v47_0 = P :=
  (StableHlo.after_of_forall_not_mem (b := Proc.devRef .tc main_v47_0) _ _ (by host_unwritten hostOps3)).trans hP

set_option maxHeartbeats 1000000 in
/-- The region finds the neighbourhood sum of q. -/
theorem inA3 (src dst : (⟨S800000, .i32⟩ : BufTy).Contents (Elt Ideal)) (Q : Mat 50000 128)
    (h1 : W6 (F := Ideal) m ρ c (Proc.devRef .tc main_v1) = src)
    (h3 : W6 (F := Ideal) m ρ c (Proc.devRef .tc main_v3) = dst)
    (hQ : W6 (F := Ideal) m ρ c (Proc.devRef .tc main_v47_1) = Q) :
    V7 (F := Ideal) m ρ c main_v57 = aggK src dst Q := by
  show StableHlo.after hostOps3 (W6 (F := Ideal) m ρ c) (Proc.devRef .tc main_v57) = _
  simp only [hostOps3]
  after_results
  rw [h1, h3, hQ]
  rfl

set_option maxHeartbeats 1000000 in
/-- The region finds ½(U_1 + U_1ᵀ), cut from the symmetrised stack. -/
theorem inW3 (U : FVec Ideal S5x128x128 .f32)
    (h11 : W6 (F := Ideal) m ρ c (Proc.devRef .tc main_v11) = symStack U) :
    V7 (F := Ideal) m ρ c main_v59 = symm (1 : Fin 5) U := by
  show StableHlo.after hostOps3 (W6 (F := Ideal) m ρ c) (Proc.devRef .tc main_v59) = _
  simp only [hostOps3]
  after_results
  rw [h11]
  exact layer_symStack 1 (by decide) U _

/-- The region's output: p + agg(q) · ½(U_1 + U_1ᵀ). -/
theorem out3 (src dst : (⟨S800000, .i32⟩ : BufTy).Contents (Elt Ideal)) (U : FVec Ideal S5x128x128 .f32) (P Q : Mat 50000 128)
    (eP : V7 (F := Ideal) m ρ c main_v47_0 = P) (eA : V7 (F := Ideal) m ρ c main_v57 = aggK src dst Q)
    (eW : V7 (F := Ideal) m ρ c main_v59 = symm (1 : Fin 5) U) :
    W8 (F := Ideal) m ρ c (Proc.devRef .tc main_v60) = upd P (aggK src dst Q) (symm (1 : Fin 5) U) := by
  refine (W8_arr m ρ c 3).trans ((Finals.final3 (V7 (F := Ideal) m ρ) c).trans ?_)
  rw [eP, eA, eW]

theorem stage3 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W6 (F := Ideal) m ρ c (Proc.devRef .tc main_v1) = src)
    (h3 : W6 (F := Ideal) m ρ c (Proc.devRef .tc main_v3) = dst)
    (h11 : W6 (F := Ideal) m ρ c (Proc.devRef .tc main_v11) = symStack U)
    (h15 : W6 (F := Ideal) m ρ c (Proc.devRef .tc main_v15) = symStack D)
    (h6 : W6 (F := Ideal) m ρ c (Proc.devRef .tc main_arg6) = A6)
    (h7 : W6 (F := Ideal) m ρ c (Proc.devRef .tc main_arg7) = A7)
    (h8 : W6 (F := Ideal) m ρ c (Proc.devRef .tc main_arg8) = A8)
    (h9 : W6 (F := Ideal) m ρ c (Proc.devRef .tc main_arg9) = A9)
    (hP : W6 (F := Ideal) m ρ c (Proc.devRef .tc main_v47_0) = P)
    (hQ : W6 (F := Ideal) m ρ c (Proc.devRef .tc main_v47_1) = Q) :
    W8 (F := Ideal) m ρ c (Proc.devRef .tc main_v1) = src
    ∧ W8 (F := Ideal) m ρ c (Proc.devRef .tc main_v3) = dst
    ∧ W8 (F := Ideal) m ρ c (Proc.devRef .tc main_v11) = symStack U
    ∧ W8 (F := Ideal) m ρ c (Proc.devRef .tc main_v15) = symStack D
    ∧ W8 (F := Ideal) m ρ c (Proc.devRef .tc main_arg6) = A6
    ∧ W8 (F := Ideal) m ρ c (Proc.devRef .tc main_arg7) = A7
    ∧ W8 (F := Ideal) m ρ c (Proc.devRef .tc main_arg8) = A8
    ∧ W8 (F := Ideal) m ρ c (Proc.devRef .tc main_arg9) = A9
    ∧ W8 (F := Ideal) m ρ c (Proc.devRef .tc main_v60) = upd P (aggK src dst Q) (symm (1 : Fin 5) U)
    ∧ W8 (F := Ideal) m ρ c (Proc.devRef .tc main_v47_1) = Q :=
  ⟨(keep3 m ρ c main_v1 (by host_unwritten hostOps3) (by decide)).trans h1,
   (keep3 m ρ c main_v3 (by host_unwritten hostOps3) (by decide)).trans h3,
   (keep3 m ρ c main_v11 (by host_unwritten hostOps3) (by decide)).trans h11,
   (keep3 m ρ c main_v15 (by host_unwritten hostOps3) (by decide)).trans h15,
   (keep3 m ρ c main_arg6 (by host_unwritten hostOps3) (by decide)).trans h6,
   (keep3 m ρ c main_arg7 (by host_unwritten hostOps3) (by decide)).trans h7,
   (keep3 m ρ c main_arg8 (by host_unwritten hostOps3) (by decide)).trans h8,
   (keep3 m ρ c main_arg9 (by host_unwritten hostOps3) (by decide)).trans h9,
   out3 m ρ c src dst U P Q (inP3 m ρ c P hP) (inA3 m ρ c src dst Q h1 h3 hQ) (inW3 m ρ c U h11),
   (keep3 m ρ c main_v47_1 (by host_unwritten hostOps3) (by decide)).trans hQ⟩

end Cert.KernelIdeal.Chain

end
-- ==== Proof.Stage4.lean ====
/-
  Stretch and region 4: the neighbourhood sum of p, the matrix ½(D_1 + D_1ᵀ) and the activation rows α_1, β_1; the
  region leaves q' = q + agg(p) · ½(D_1 + D_1ᵀ), then p' = p + α_1 ⊙ σ(q') and q' + β_1 ⊙ σ(p').
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 4 does not write, and that is not one of region 4's arrays, is kept through both. -/
theorem keep4 (b : Ref sig .tc)
    (hb : ∀ op ∈ (hostOps4 : List (HloOp τ sig (Elt Ideal))), (Proc.devRef .tc b : DevRef τ sig) ∉ op.writes)
    (hw : ∀ w, Pipeline.arrRef spec4 w ≠ b) :
    W10 (F := Ideal) m ρ c (Proc.devRef .tc b) = W8 (F := Ideal) m ρ c (Proc.devRef .tc b) :=
  (W10_of_ne m ρ c b hw).trans (StableHlo.after_of_forall_not_mem _ _ hb)

/-- The region finds p where the stretch left it. -/
theorem inP4 (P : Mat 50000 128)
    (hP : W8 (F := Ideal) m ρ c (Proc.devRef .tc main_v60) = P) :
    V9 (F := Ideal) m ρ c main_v60 = P :=
  (StableHlo.after_of_forall_not_mem (b := Proc.devRef .tc main_v60) _ _ (by host_unwritten hostOps4)).trans hP

/-- The region finds q where the stretch left it. -/
theorem inQ4 (Q : Mat 50000 128)
    (hQ : W8 (F := Ideal) m ρ c (Proc.devRef .tc main_v47_1) = Q) :
    V9 (F := Ideal) m ρ c main_v47_1 = Q :=
  (StableHlo.after_of_forall_not_mem (b := Proc.devRef .tc main_v47_1) _ _ (by host_unwritten hostOps4)).trans hQ

set_option maxHeartbeats 1000000 in
/-- The region finds the neighbourhood sum of p. -/
theorem inA4 (src dst : (⟨S800000, .i32⟩ : BufTy).Contents (Elt Ideal)) (P : Mat 50000 128)
    (h1 : W8 (F := Ideal) m ρ c (Proc.devRef .tc main_v1) = src)
    (h3 : W8 (F := Ideal) m ρ c (Proc.devRef .tc main_v3) = dst)
    (hP : W8 (F := Ideal) m ρ c (Proc.devRef .tc main_v60) = P) :
    V9 (F := Ideal) m ρ c main_v70 = aggK src dst P := by
  show StableHlo.after hostOps4 (W8 (F := Ideal) m ρ c) (Proc.devRef .tc main_v70) = _
  simp only [hostOps4]
  after_results
  rw [h1, h3, hP]
  rfl

set_option maxHeartbeats 1000000 in
/-- The region finds ½(D_1 + D_1ᵀ), cut from the symmetrised stack. -/
theorem inW4 (D : FVec Ideal S5x128x128 .f32)
    (h15 : W8 (F := Ideal) m ρ c (Proc.devRef .tc main_v15) = symStack D) :
    V9 (F := Ideal) m ρ c main_v78 = symm (1 : Fin 5) D := by
  show StableHlo.after hostOps4 (W8 (F := Ideal) m ρ c) (Proc.devRef .tc main_v78) = _
  simp only [hostOps4]
  after_results
  rw [h15]
  exact layer_symStack 1 (by decide) D _

set_option maxHeartbeats 1000000 in
/-- The region finds row 1 of α as a one-row array. -/
theorem inAl4 (A6 : FVec Ideal S4x128 .f32)
    (h6 : W8 (F := Ideal) m ρ c (Proc.devRef .tc main_arg6) = A6) :
    V9 (F := Ideal) m ρ c main_v73 = biasRow (1 : Fin 4) A6 := by
  show StableHlo.after hostOps4 (W8 (F := Ideal) m ρ c) (Proc.devRef .tc main_v73) = _
  simp only [hostOps4]
  after_results
  rw [h6]
  exact row_of_rows 1 (by decide) A6 _

set_option maxHeartbeats 1000000 in
/-- The region finds row 1 of β as a one-row array. -/
theorem inBe4 (A7 : FVec Ideal S4x128 .f32)
    (h7 : W8 (F := Ideal) m ρ c (Proc.devRef .tc main_arg7) = A7) :
    V9 (F := Ideal) m ρ c main_v76 = biasRow (1 : Fin 4) A7 := by
  show StableHlo.after hostOps4 (W8 (F := Ideal) m ρ c) (Proc.devRef .tc main_v76) = _
  simp only [hostOps4]
  after_results
  rw [h7]
  exact row_of_rows 1 (by decide) A7 _

/-- The region's first output: p + α_1 ⊙ σ(q + agg(p) · ½(D_1 + D_1ᵀ)). -/
theorem outP4 (src dst : (⟨S800000, .i32⟩ : BufTy).Contents (Elt Ideal)) (D : FVec Ideal S5x128x128 .f32) (A6 : FVec Ideal S4x128 .f32) (P Q : Mat 50000 128)
    (eP : V9 (F := Ideal) m ρ c main_v60 = P) (eQ : V9 (F := Ideal) m ρ c main_v47_1 = Q) (eA : V9 (F := Ideal) m ρ c main_v70 = aggK src dst P)
    (eW : V9 (F := Ideal) m ρ c main_v78 = symm (1 : Fin 5) D) (eAl : V9 (F := Ideal) m ρ c main_v73 = biasRow (1 : Fin 4) A6) :
    W10 (F := Ideal) m ρ c (Proc.devRef .tc main_v79_0) = act P (upd Q (aggK src dst P) (symm (1 : Fin 5) D)) (biasRow (1 : Fin 4) A6) := by
  refine (W10_arr m ρ c 6).trans ((Finals.final4p (V9 (F := Ideal) m ρ) c).trans ?_)
  rw [eP, eQ, eA, eW, eAl]

/-- The region's second output: q' + β_1 ⊙ σ(p'), with q' the updated q and p' the first output. -/
theorem outQ4 (src dst : (⟨S800000, .i32⟩ : BufTy).Contents (Elt Ideal)) (D : FVec Ideal S5x128x128 .f32) (A6 A7 : FVec Ideal S4x128 .f32) (P Q : Mat 50000 128)
    (eP : V9 (F := Ideal) m ρ c main_v60 = P) (eQ : V9 (F := Ideal) m ρ c main_v47_1 = Q) (eA : V9 (F := Ideal) m ρ c main_v70 = aggK src dst P)
    (eW : V9 (F := Ideal) m ρ c main_v78 = symm (1 : Fin 5) D) (eAl : V9 (F := Ideal) m ρ c main_v73 = biasRow (1 : Fin 4) A6)
    (eBe : V9 (F := Ideal) m ρ c main_v76 = biasRow (1 : Fin 4) A7) :
    W10 (F := Ideal) m ρ c (Proc.devRef .tc main_v79_1) = act (upd Q (aggK src dst P) (symm (1 : Fin 5) D)) (act P (upd Q (aggK src dst P) (symm (1 : Fin 5) D)) (biasRow (1 : Fin 4) A6)) (biasRow (1 : Fin 4) A7) := by
  refine (W10_arr m ρ c 7).trans ((Finals.final4q (V9 (F := Ideal) m ρ) c).trans ?_)
  rw [eP, eQ, eA, eW, eAl, eBe]

theorem stage4 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W8 (F := Ideal) m ρ c (Proc.devRef .tc main_v1) = src)
    (h3 : W8 (F := Ideal) m ρ c (Proc.devRef .tc main_v3) = dst)
    (h11 : W8 (F := Ideal) m ρ c (Proc.devRef .tc main_v11) = symStack U)
    (h15 : W8 (F := Ideal) m ρ c (Proc.devRef .tc main_v15) = symStack D)
    (h6 : W8 (F := Ideal) m ρ c (Proc.devRef .tc main_arg6) = A6)
    (h7 : W8 (F := Ideal) m ρ c (Proc.devRef .tc main_arg7) = A7)
    (h8 : W8 (F := Ideal) m ρ c (Proc.devRef .tc main_arg8) = A8)
    (h9 : W8 (F := Ideal) m ρ c (Proc.devRef .tc main_arg9) = A9)
    (hP : W8 (F := Ideal) m ρ c (Proc.devRef .tc main_v60) = P)
    (hQ : W8 (F := Ideal) m ρ c (Proc.devRef .tc main_v47_1) = Q) :
    W10 (F := Ideal) m ρ c (Proc.devRef .tc main_v1) = src
    ∧ W10 (F := Ideal) m ρ c (Proc.devRef .tc main_v3) = dst
    ∧ W10 (F := Ideal) m ρ c (Proc.devRef .tc main_v11) = symStack U
    ∧ W10 (F := Ideal) m ρ c (Proc.devRef .tc main_v15) = symStack D
    ∧ W10 (F := Ideal) m ρ c (Proc.devRef .tc main_arg6) = A6
    ∧ W10 (F := Ideal) m ρ c (Proc.devRef .tc main_arg7) = A7
    ∧ W10 (F := Ideal) m ρ c (Proc.devRef .tc main_arg8) = A8
    ∧ W10 (F := Ideal) m ρ c (Proc.devRef .tc main_arg9) = A9
    ∧ W10 (F := Ideal) m ρ c (Proc.devRef .tc main_v79_0) = act P (upd Q (aggK src dst P) (symm (1 : Fin 5) D)) (biasRow (1 : Fin 4) A6)
    ∧ W10 (F := Ideal) m ρ c (Proc.devRef .tc main_v79_1) = act (upd Q (aggK src dst P) (symm (1 : Fin 5) D)) (act P (upd Q (aggK src dst P) (symm (1 : Fin 5) D)) (biasRow (1 : Fin 4) A6)) (biasRow (1 : Fin 4) A7) :=
  ⟨(keep4 m ρ c main_v1 (by host_unwritten hostOps4) (by decide)).trans h1,
   (keep4 m ρ c main_v3 (by host_unwritten hostOps4) (by decide)).trans h3,
   (keep4 m ρ c main_v11 (by host_unwritten hostOps4) (by decide)).trans h11,
   (keep4 m ρ c main_v15 (by host_unwritten hostOps4) (by decide)).trans h15,
   (keep4 m ρ c main_arg6 (by host_unwritten hostOps4) (by decide)).trans h6,
   (keep4 m ρ c main_arg7 (by host_unwritten hostOps4) (by decide)).trans h7,
   (keep4 m ρ c main_arg8 (by host_unwritten hostOps4) (by decide)).trans h8,
   (keep4 m ρ c main_arg9 (by host_unwritten hostOps4) (by decide)).trans h9,
   outP4 m ρ c src dst D A6 P Q (inP4 m ρ c P hP) (inQ4 m ρ c Q hQ) (inA4 m ρ c src dst P h1 h3 hP) (inW4 m ρ c D h15) (inAl4 m ρ c A6 h6),
   outQ4 m ρ c src dst D A6 A7 P Q (inP4 m ρ c P hP) (inQ4 m ρ c Q hQ) (inA4 m ρ c src dst P h1 h3 hP) (inW4 m ρ c D h15) (inAl4 m ρ c A6 h6) (inBe4 m ρ c A7 h7)⟩

end Cert.KernelIdeal.Chain

end
-- ==== Proof.Stage5.lean ====
/-
  Stretch and region 5: the neighbourhood sum of q and the matrix ½(U_2 + U_2ᵀ) cut from the symmetrised stack; the
  region leaves p + agg(q) · ½(U_2 + U_2ᵀ), and q, the index vectors, the stacks and the arguments stay as they were.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 5 does not write, and that is not one of region 5's arrays, is kept through both. -/
theorem keep5 (b : Ref sig .tc)
    (hb : ∀ op ∈ (hostOps5 : List (HloOp τ sig (Elt Ideal))), (Proc.devRef .tc b : DevRef τ sig) ∉ op.writes)
    (hw : ∀ w, Pipeline.arrRef spec5 w ≠ b) :
    W12 (F := Ideal) m ρ c (Proc.devRef .tc b) = W10 (F := Ideal) m ρ c (Proc.devRef .tc b) :=
  (W12_of_ne m ρ c b hw).trans (StableHlo.after_of_forall_not_mem _ _ hb)

/-- The region finds p where the stretch left it. -/
theorem inP5 (P : Mat 50000 128)
    (hP : W10 (F := Ideal) m ρ c (Proc.devRef .tc main_v79_0) = P) :
    V11 (F := Ideal) m ρ c main_v79_0 = P :=
  (StableHlo.after_of_forall_not_mem (b := Proc.devRef .tc main_v79_0) _ _ (by host_unwritten hostOps5)).trans hP

set_option maxHeartbeats 1000000 in
/-- The region finds the neighbourhood sum of q. -/
theorem inA5 (src dst : (⟨S800000, .i32⟩ : BufTy).Contents (Elt Ideal)) (Q : Mat 50000 128)
    (h1 : W10 (F := Ideal) m ρ c (Proc.devRef .tc main_v1) = src)
    (h3 : W10 (F := Ideal) m ρ c (Proc.devRef .tc main_v3) = dst)
    (hQ : W10 (F := Ideal) m ρ c (Proc.devRef .tc main_v79_1) = Q) :
    V11 (F := Ideal) m ρ c main_v89 = aggK src dst Q := by
  show StableHlo.after hostOps5 (W10 (F := Ideal) m ρ c) (Proc.devRef .tc main_v89) = _
  simp only [hostOps5]
  after_results
  rw [h1, h3, hQ]
  rfl

set_option maxHeartbeats 1000000 in
/-- The region finds ½(U_2 + U_2ᵀ), cut from the symmetrised stack. -/
theorem inW5 (U : FVec Ideal S5x128x128 .f32)
    (h11 : W10 (F := Ideal) m ρ c (Proc.devRef .tc main_v11) = symStack U) :
    V11 (F := Ideal) m ρ c main_v91 = symm (2 : Fin 5) U := by
  show StableHlo.after hostOps5 (W10 (F := Ideal) m ρ c) (Proc.devRef .tc main_v91) = _
  simp only [hostOps5]
  after_results
  rw [h11]
  exact layer_symStack 2 (by decide) U _

/-- The region's output: p + agg(q) · ½(U_2 + U_2ᵀ). -/
theorem out5 (src dst : (⟨S800000, .i32⟩ : BufTy).Contents (Elt Ideal)) (U : FVec Ideal S5x128x128 .f32) (P Q : Mat 50000 128)
    (eP : V11 (F := Ideal) m ρ c main_v79_0 = P) (eA : V11 (F := Ideal) m ρ c main_v89 = aggK src dst Q)
    (eW : V11 (F := Ideal) m ρ c main_v91 = symm (2 : Fin 5) U) :
    W12 (F := Ideal) m ρ c (Proc.devRef .tc main_v92) = upd P (aggK src dst Q) (symm (2 : Fin 5) U) := by
  refine (W12_arr m ρ c 3).trans ((Finals.final5 (V11 (F := Ideal) m ρ) c).trans ?_)
  rw [eP, eA, eW]

theorem stage5 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W10 (F := Ideal) m ρ c (Proc.devRef .tc main_v1) = src)
    (h3 : W10 (F := Ideal) m ρ c (Proc.devRef .tc main_v3) = dst)
    (h11 : W10 (F := Ideal) m ρ c (Proc.devRef .tc main_v11) = symStack U)
    (h15 : W10 (F := Ideal) m ρ c (Proc.devRef .tc main_v15) = symStack D)
    (h6 : W10 (F := Ideal) m ρ c (Proc.devRef .tc main_arg6) = A6)
    (h7 : W10 (F := Ideal) m ρ c (Proc.devRef .tc main_arg7) = A7)
    (h8 : W10 (F := Ideal) m ρ c (Proc.devRef .tc main_arg8) = A8)
    (h9 : W10 (F := Ideal) m ρ c (Proc.devRef .tc main_arg9) = A9)
    (hP : W10 (F := Ideal) m ρ c (Proc.devRef .tc main_v79_0) = P)
    (hQ : W10 (F := Ideal) m ρ c (Proc.devRef .tc main_v79_1) = Q) :
    W12 (F := Ideal) m ρ c (Proc.devRef .tc main_v1) = src
    ∧ W12 (F := Ideal) m ρ c (Proc.devRef .tc main_v3) = dst
    ∧ W12 (F := Ideal) m ρ c (Proc.devRef .tc main_v11) = symStack U
    ∧ W12 (F := Ideal) m ρ c (Proc.devRef .tc main_v15) = symStack D
    ∧ W12 (F := Ideal) m ρ c (Proc.devRef .tc main_arg6) = A6
    ∧ W12 (F := Ideal) m ρ c (Proc.devRef .tc main_arg7) = A7
    ∧ W12 (F := Ideal) m ρ c (Proc.devRef .tc main_arg8) = A8
    ∧ W12 (F := Ideal) m ρ c (Proc.devRef .tc main_arg9) = A9
    ∧ W12 (F := Ideal) m ρ c (Proc.devRef .tc main_v92) = upd P (aggK src dst Q) (symm (2 : Fin 5) U)
    ∧ W12 (F := Ideal) m ρ c (Proc.devRef .tc main_v79_1) = Q :=
  ⟨(keep5 m ρ c main_v1 (by host_unwritten hostOps5) (by decide)).trans h1,
   (keep5 m ρ c main_v3 (by host_unwritten hostOps5) (by decide)).trans h3,
   (keep5 m ρ c main_v11 (by host_unwritten hostOps5) (by decide)).trans h11,
   (keep5 m ρ c main_v15 (by host_unwritten hostOps5) (by decide)).trans h15,
   (keep5 m ρ c main_arg6 (by host_unwritten hostOps5) (by decide)).trans h6,
   (keep5 m ρ c main_arg7 (by host_unwritten hostOps5) (by decide)).trans h7,
   (keep5 m ρ c main_arg8 (by host_unwritten hostOps5) (by decide)).trans h8,
   (keep5 m ρ c main_arg9 (by host_unwritten hostOps5) (by decide)).trans h9,
   out5 m ρ c src dst U P Q (inP5 m ρ c P hP) (inA5 m ρ c src dst Q h1 h3 hQ) (inW5 m ρ c U h11),
   (keep5 m ρ c main_v79_1 (by host_unwritten hostOps5) (by decide)).trans hQ⟩

end Cert.KernelIdeal.Chain

end
-- ==== Proof.Stage6.lean ====
/-
  Stretch and region 6: the neighbourhood sum of p, the matrix ½(D_2 + D_2ᵀ) and the activation rows α_2, β_2; the
  region leaves q' = q + agg(p) · ½(D_2 + D_2ᵀ), then p' = p + α_2 ⊙ σ(q') and q' + β_2 ⊙ σ(p').
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 6 does not write, and that is not one of region 6's arrays, is kept through both. -/
theorem keep6 (b : Ref sig .tc)
    (hb : ∀ op ∈ (hostOps6 : List (HloOp τ sig (Elt Ideal))), (Proc.devRef .tc b : DevRef τ sig) ∉ op.writes)
    (hw : ∀ w, Pipeline.arrRef spec6 w ≠ b) :
    W14 (F := Ideal) m ρ c (Proc.devRef .tc b) = W12 (F := Ideal) m ρ c (Proc.devRef .tc b) :=
  (W14_of_ne m ρ c b hw).trans (StableHlo.after_of_forall_not_mem _ _ hb)

/-- The region finds p where the stretch left it. -/
theorem inP6 (P : Mat 50000 128)
    (hP : W12 (F := Ideal) m ρ c (Proc.devRef .tc main_v92) = P) :
    V13 (F := Ideal) m ρ c main_v92 = P :=
  (StableHlo.after_of_forall_not_mem (b := Proc.devRef .tc main_v92) _ _ (by host_unwritten hostOps6)).trans hP

/-- The region finds q where the stretch left it. -/
theorem inQ6 (Q : Mat 50000 128)
    (hQ : W12 (F := Ideal) m ρ c (Proc.devRef .tc main_v79_1) = Q) :
    V13 (F := Ideal) m ρ c main_v79_1 = Q :=
  (StableHlo.after_of_forall_not_mem (b := Proc.devRef .tc main_v79_1) _ _ (by host_unwritten hostOps6)).trans hQ

set_option maxHeartbeats 1000000 in
/-- The region finds the neighbourhood sum of p. -/
theorem inA6 (src dst : (⟨S800000, .i32⟩ : BufTy).Contents (Elt Ideal)) (P : Mat 50000 128)
    (h1 : W12 (F := Ideal) m ρ c (Proc.devRef .tc main_v1) = src)
    (h3 : W12 (F := Ideal) m ρ c (Proc.devRef .tc main_v3) = dst)
    (hP : W12 (F := Ideal) m ρ c (Proc.devRef .tc main_v92) = P) :
    V13 (F := Ideal) m ρ c main_v102 = aggK src dst P := by
  show StableHlo.after hostOps6 (W12 (F := Ideal) m ρ c) (Proc.devRef .tc main_v102) = _
  simp only [hostOps6]
  after_results
  rw [h1, h3, hP]
  rfl

set_option maxHeartbeats 1000000 in
/-- The region finds ½(D_2 + D_2ᵀ), cut from the symmetrised stack. -/
theorem inW6 (D : FVec Ideal S5x128x128 .f32)
    (h15 : W12 (F := Ideal) m ρ c (Proc.devRef .tc main_v15) = symStack D) :
    V13 (F := Ideal) m ρ c main_v110 = symm (2 : Fin 5) D := by
  show StableHlo.after hostOps6 (W12 (F := Ideal) m ρ c) (Proc.devRef .tc main_v110) = _
  simp only [hostOps6]
  after_results
  rw [h15]
  exact layer_symStack 2 (by decide) D _

set_option maxHeartbeats 1000000 in
/-- The region finds row 2 of α as a one-row array. -/
theorem inAl6 (A6 : FVec Ideal S4x128 .f32)
    (h6 : W12 (F := Ideal) m ρ c (Proc.devRef .tc main_arg6) = A6) :
    V13 (F := Ideal) m ρ c main_v105 = biasRow (2 : Fin 4) A6 := by
  show StableHlo.after hostOps6 (W12 (F := Ideal) m ρ c) (Proc.devRef .tc main_v105) = _
  simp only [hostOps6]
  after_results
  rw [h6]
  exact row_of_rows 2 (by decide) A6 _

set_option maxHeartbeats 1000000 in
/-- The region finds row 2 of β as a one-row array. -/
theorem inBe6 (A7 : FVec Ideal S4x128 .f32)
    (h7 : W12 (F := Ideal) m ρ c (Proc.devRef .tc main_arg7) = A7) :
    V13 (F := Ideal) m ρ c main_v108 = biasRow (2 : Fin 4) A7 := by
  show StableHlo.after hostOps6 (W12 (F := Ideal) m ρ c) (Proc.devRef .tc main_v108) = _
  simp only [hostOps6]
  after_results
  rw [h7]
  exact row_of_rows 2 (by decide) A7 _

/-- The region's first output: p + α_2 ⊙ σ(q + agg(p) · ½(D_2 + D_2ᵀ)). -/
theorem outP6 (src dst : (⟨S800000, .i32⟩ : BufTy).Contents (Elt Ideal)) (D : FVec Ideal S5x128x128 .f32) (A6 : FVec Ideal S4x128 .f32) (P Q : Mat 50000 128)
    (eP : V13 (F := Ideal) m ρ c main_v92 = P) (eQ : V13 (F := Ideal) m ρ c main_v79_1 = Q) (eA : V13 (F := Ideal) m ρ c main_v102 = aggK src dst P)
    (eW : V13 (F := Ideal) m ρ c main_v110 = symm (2 : Fin 5) D) (eAl : V13 (F := Ideal) m ρ c main_v105 = biasRow (2 : Fin 4) A6) :
    W14 (F := Ideal) m ρ c (Proc.devRef .tc main_v111_0) = act P (upd Q (aggK src dst P) (symm (2 : Fin 5) D)) (biasRow (2 : Fin 4) A6) := by
  refine (W14_arr m ρ c 6).trans ((Finals.final6p (V13 (F := Ideal) m ρ) c).trans ?_)
  rw [eP, eQ, eA, eW, eAl]

/-- The region's second output: q' + β_2 ⊙ σ(p'), with q' the updated q and p' the first output. -/
theorem outQ6 (src dst : (⟨S800000, .i32⟩ : BufTy).Contents (Elt Ideal)) (D : FVec Ideal S5x128x128 .f32) (A6 A7 : FVec Ideal S4x128 .f32) (P Q : Mat 50000 128)
    (eP : V13 (F := Ideal) m ρ c main_v92 = P) (eQ : V13 (F := Ideal) m ρ c main_v79_1 = Q) (eA : V13 (F := Ideal) m ρ c main_v102 = aggK src dst P)
    (eW : V13 (F := Ideal) m ρ c main_v110 = symm (2 : Fin 5) D) (eAl : V13 (F := Ideal) m ρ c main_v105 = biasRow (2 : Fin 4) A6)
    (eBe : V13 (F := Ideal) m ρ c main_v108 = biasRow (2 : Fin 4) A7) :
    W14 (F := Ideal) m ρ c (Proc.devRef .tc main_v111_1) = act (upd Q (aggK src dst P) (symm (2 : Fin 5) D)) (act P (upd Q (aggK src dst P) (symm (2 : Fin 5) D)) (biasRow (2 : Fin 4) A6)) (biasRow (2 : Fin 4) A7) := by
  refine (W14_arr m ρ c 7).trans ((Finals.final6q (V13 (F := Ideal) m ρ) c).trans ?_)
  rw [eP, eQ, eA, eW, eAl, eBe]

theorem stage6 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W12 (F := Ideal) m ρ c (Proc.devRef .tc main_v1) = src)
    (h3 : W12 (F := Ideal) m ρ c (Proc.devRef .tc main_v3) = dst)
    (h11 : W12 (F := Ideal) m ρ c (Proc.devRef .tc main_v11) = symStack U)
    (h15 : W12 (F := Ideal) m ρ c (Proc.devRef .tc main_v15) = symStack D)
    (h6 : W12 (F := Ideal) m ρ c (Proc.devRef .tc main_arg6) = A6)
    (h7 : W12 (F := Ideal) m ρ c (Proc.devRef .tc main_arg7) = A7)
    (h8 : W12 (F := Ideal) m ρ c (Proc.devRef .tc main_arg8) = A8)
    (h9 : W12 (F := Ideal) m ρ c (Proc.devRef .tc main_arg9) = A9)
    (hP : W12 (F := Ideal) m ρ c (Proc.devRef .tc main_v92) = P)
    (hQ : W12 (F := Ideal) m ρ c (Proc.devRef .tc main_v79_1) = Q) :
    W14 (F := Ideal) m ρ c (Proc.devRef .tc main_v1) = src
    ∧ W14 (F := Ideal) m ρ c (Proc.devRef .tc main_v3) = dst
    ∧ W14 (F := Ideal) m ρ c (Proc.devRef .tc main_v11) = symStack U
    ∧ W14 (F := Ideal) m ρ c (Proc.devRef .tc main_v15) = symStack D
    ∧ W14 (F := Ideal) m ρ c (Proc.devRef .tc main_arg6) = A6
    ∧ W14 (F := Ideal) m ρ c (Proc.devRef .tc main_arg7) = A7
    ∧ W14 (F := Ideal) m ρ c (Proc.devRef .tc main_arg8) = A8
    ∧ W14 (F := Ideal) m ρ c (Proc.devRef .tc main_arg9) = A9
    ∧ W14 (F := Ideal) m ρ c (Proc.devRef .tc main_v111_0) = act P (upd Q (aggK src dst P) (symm (2 : Fin 5) D)) (biasRow (2 : Fin 4) A6)
    ∧ W14 (F := Ideal) m ρ c (Proc.devRef .tc main_v111_1) = act (upd Q (aggK src dst P) (symm (2 : Fin 5) D)) (act P (upd Q (aggK src dst P) (symm (2 : Fin 5) D)) (biasRow (2 : Fin 4) A6)) (biasRow (2 : Fin 4) A7) :=
  ⟨(keep6 m ρ c main_v1 (by host_unwritten hostOps6) (by decide)).trans h1,
   (keep6 m ρ c main_v3 (by host_unwritten hostOps6) (by decide)).trans h3,
   (keep6 m ρ c main_v11 (by host_unwritten hostOps6) (by decide)).trans h11,
   (keep6 m ρ c main_v15 (by host_unwritten hostOps6) (by decide)).trans h15,
   (keep6 m ρ c main_arg6 (by host_unwritten hostOps6) (by decide)).trans h6,
   (keep6 m ρ c main_arg7 (by host_unwritten hostOps6) (by decide)).trans h7,
   (keep6 m ρ c main_arg8 (by host_unwritten hostOps6) (by decide)).trans h8,
   (keep6 m ρ c main_arg9 (by host_unwritten hostOps6) (by decide)).trans h9,
   outP6 m ρ c src dst D A6 P Q (inP6 m ρ c P hP) (inQ6 m ρ c Q hQ) (inA6 m ρ c src dst P h1 h3 hP) (inW6 m ρ c D h15) (inAl6 m ρ c A6 h6),
   outQ6 m ρ c src dst D A6 A7 P Q (inP6 m ρ c P hP) (inQ6 m ρ c Q hQ) (inA6 m ρ c src dst P h1 h3 hP) (inW6 m ρ c D h15) (inAl6 m ρ c A6 h6) (inBe6 m ρ c A7 h7)⟩

end Cert.KernelIdeal.Chain

end
-- ==== Proof.Stage7.lean ====
/-
  Stretch and region 7: the neighbourhood sum of q and the matrix ½(U_3 + U_3ᵀ) cut from the symmetrised stack; the
  region leaves p + agg(q) · ½(U_3 + U_3ᵀ), and q, the index vectors, the stacks and the arguments stay as they were.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 7 does not write, and that is not one of region 7's arrays, is kept through both. -/
theorem keep7 (b : Ref sig .tc)
    (hb : ∀ op ∈ (hostOps7 : List (HloOp τ sig (Elt Ideal))), (Proc.devRef .tc b : DevRef τ sig) ∉ op.writes)
    (hw : ∀ w, Pipeline.arrRef spec7 w ≠ b) :
    W16 (F := Ideal) m ρ c (Proc.devRef .tc b) = W14 (F := Ideal) m ρ c (Proc.devRef .tc b) :=
  (W16_of_ne m ρ c b hw).trans (StableHlo.after_of_forall_not_mem _ _ hb)

/-- The region finds p where the stretch left it. -/
theorem inP7 (P : Mat 50000 128)
    (hP : W14 (F := Ideal) m ρ c (Proc.devRef .tc main_v111_0) = P) :
    V15 (F := Ideal) m ρ c main_v111_0 = P :=
  (StableHlo.after_of_forall_not_mem (b := Proc.devRef .tc main_v111_0) _ _ (by host_unwritten hostOps7)).trans hP

set_option maxHeartbeats 1000000 in
/-- The region finds the neighbourhood sum of q. -/
theorem inA7 (src dst : (⟨S800000, .i32⟩ : BufTy).Contents (Elt Ideal)) (Q : Mat 50000 128)
    (h1 : W14 (F := Ideal) m ρ c (Proc.devRef .tc main_v1) = src)
    (h3 : W14 (F := Ideal) m ρ c (Proc.devRef .tc main_v3) = dst)
    (hQ : W14 (F := Ideal) m ρ c (Proc.devRef .tc main_v111_1) = Q) :
    V15 (F := Ideal) m ρ c main_v121 = aggK src dst Q := by
  show StableHlo.after hostOps7 (W14 (F := Ideal) m ρ c) (Proc.devRef .tc main_v121) = _
  simp only [hostOps7]
  after_results
  rw [h1, h3, hQ]
  rfl

set_option maxHeartbeats 1000000 in
/-- The region finds ½(U_3 + U_3ᵀ), cut from the symmetrised stack. -/
theorem inW7 (U : FVec Ideal S5x128x128 .f32)
    (h11 : W14 (F := Ideal) m ρ c (Proc.devRef .tc main_v11) = symStack U) :
    V15 (F := Ideal) m ρ c main_v123 = symm (3 : Fin 5) U := by
  show StableHlo.after hostOps7 (W14 (F := Ideal) m ρ c) (Proc.devRef .tc main_v123) = _
  simp only [hostOps7]
  after_results
  rw [h11]
  exact layer_symStack 3 (by decide) U _

/-- The region's output: p + agg(q) · ½(U_3 + U_3ᵀ). -/
theorem out7 (src dst : (⟨S800000, .i32⟩ : BufTy).Contents (Elt Ideal)) (U : FVec Ideal S5x128x128 .f32) (P Q : Mat 50000 128)
    (eP : V15 (F := Ideal) m ρ c main_v111_0 = P) (eA : V15 (F := Ideal) m ρ c main_v121 = aggK src dst Q)
    (eW : V15 (F := Ideal) m ρ c main_v123 = symm (3 : Fin 5) U) :
    W16 (F := Ideal) m ρ c (Proc.devRef .tc main_v124) = upd P (aggK src dst Q) (symm (3 : Fin 5) U) := by
  refine (W16_arr m ρ c 3).trans ((Finals.final7 (V15 (F := Ideal) m ρ) c).trans ?_)
  rw [eP, eA, eW]

theorem stage7 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W14 (F := Ideal) m ρ c (Proc.devRef .tc main_v1) = src)
    (h3 : W14 (F := Ideal) m ρ c (Proc.devRef .tc main_v3) = dst)
    (h11 : W14 (F := Ideal) m ρ c (Proc.devRef .tc main_v11) = symStack U)
    (h15 : W14 (F := Ideal) m ρ c (Proc.devRef .tc main_v15) = symStack D)
    (h6 : W14 (F := Ideal) m ρ c (Proc.devRef .tc main_arg6) = A6)
    (h7 : W14 (F := Ideal) m ρ c (Proc.devRef .tc main_arg7) = A7)
    (h8 : W14 (F := Ideal) m ρ c (Proc.devRef .tc main_arg8) = A8)
    (h9 : W14 (F := Ideal) m ρ c (Proc.devRef .tc main_arg9) = A9)
    (hP : W14 (F := Ideal) m ρ c (Proc.devRef .tc main_v111_0) = P)
    (hQ : W14 (F := Ideal) m ρ c (Proc.devRef .tc main_v111_1) = Q) :
    W16 (F := Ideal) m ρ c (Proc.devRef .tc main_v1) = src
    ∧ W16 (F := Ideal) m ρ c (Proc.devRef .tc main_v3) = dst
    ∧ W16 (F := Ideal) m ρ c (Proc.devRef .tc main_v11) = symStack U
    ∧ W16 (F := Ideal) m ρ c (Proc.devRef .tc main_v15) = symStack D
    ∧ W16 (F := Ideal) m ρ c (Proc.devRef .tc main_arg6) = A6
    ∧ W16 (F := Ideal) m ρ c (Proc.devRef .tc main_arg7) = A7
    ∧ W16 (F := Ideal) m ρ c (Proc.devRef .tc main_arg8) = A8
    ∧ W16 (F := Ideal) m ρ c (Proc.devRef .tc main_arg9) = A9
    ∧ W16 (F := Ideal) m ρ c (Proc.devRef .tc main_v124) = upd P (aggK src dst Q) (symm (3 : Fin 5) U)
    ∧ W16 (F := Ideal) m ρ c (Proc.devRef .tc main_v111_1) = Q :=
  ⟨(keep7 m ρ c main_v1 (by host_unwritten hostOps7) (by decide)).trans h1,
   (keep7 m ρ c main_v3 (by host_unwritten hostOps7) (by decide)).trans h3,
   (keep7 m ρ c main_v11 (by host_unwritten hostOps7) (by decide)).trans h11,
   (keep7 m ρ c main_v15 (by host_unwritten hostOps7) (by decide)).trans h15,
   (keep7 m ρ c main_arg6 (by host_unwritten hostOps7) (by decide)).trans h6,
   (keep7 m ρ c main_arg7 (by host_unwritten hostOps7) (by decide)).trans h7,
   (keep7 m ρ c main_arg8 (by host_unwritten hostOps7) (by decide)).trans h8,
   (keep7 m ρ c main_arg9 (by host_unwritten hostOps7) (by decide)).trans h9,
   out7 m ρ c src dst U P Q (inP7 m ρ c P hP) (inA7 m ρ c src dst Q h1 h3 hQ) (inW7 m ρ c U h11),
   (keep7 m ρ c main_v111_1 (by host_unwritten hostOps7) (by decide)).trans hQ⟩

end Cert.KernelIdeal.Chain

end
-- ==== Proof.Stage8.lean ====
/-
  Stretch and region 8: the neighbourhood sum of p, the matrix ½(D_3 + D_3ᵀ) and the activation rows α_3, β_3; the
  region leaves q' = q + agg(p) · ½(D_3 + D_3ᵀ), then p' = p + α_3 ⊙ σ(q') and q' + β_3 ⊙ σ(p').
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 8 does not write, and that is not one of region 8's arrays, is kept through both. -/
theorem keep8 (b : Ref sig .tc)
    (hb : ∀ op ∈ (hostOps8 : List (HloOp τ sig (Elt Ideal))), (Proc.devRef .tc b : DevRef τ sig) ∉ op.writes)
    (hw : ∀ w, Pipeline.arrRef spec8 w ≠ b) :
    W18 (F := Ideal) m ρ c (Proc.devRef .tc b) = W16 (F := Ideal) m ρ c (Proc.devRef .tc b) :=
  (W18_of_ne m ρ c b hw).trans (StableHlo.after_of_forall_not_mem _ _ hb)

/-- The region finds p where the stretch left it. -/
theorem inP8 (P : Mat 50000 128)
    (hP : W16 (F := Ideal) m ρ c (Proc.devRef .tc main_v124) = P) :
    V17 (F := Ideal) m ρ c main_v124 = P :=
  (StableHlo.after_of_forall_not_mem (b := Proc.devRef .tc main_v124) _ _ (by host_unwritten hostOps8)).trans hP

/-- The region finds q where the stretch left it. -/
theorem inQ8 (Q : Mat 50000 128)
    (hQ : W16 (F := Ideal) m ρ c (Proc.devRef .tc main_v111_1) = Q) :
    V17 (F := Ideal) m ρ c main_v111_1 = Q :=
  (StableHlo.after_of_forall_not_mem (b := Proc.devRef .tc main_v111_1) _ _ (by host_unwritten hostOps8)).trans hQ

set_option maxHeartbeats 1000000 in
/-- The region finds the neighbourhood sum of p. -/
theorem inA8 (src dst : (⟨S800000, .i32⟩ : BufTy).Contents (Elt Ideal)) (P : Mat 50000 128)
    (h1 : W16 (F := Ideal) m ρ c (Proc.devRef .tc main_v1) = src)
    (h3 : W16 (F := Ideal) m ρ c (Proc.devRef .tc main_v3) = dst)
    (hP : W16 (F := Ideal) m ρ c (Proc.devRef .tc main_v124) = P) :
    V17 (F := Ideal) m ρ c main_v134 = aggK src dst P := by
  show StableHlo.after hostOps8 (W16 (F := Ideal) m ρ c) (Proc.devRef .tc main_v134) = _
  simp only [hostOps8]
  after_results
  rw [h1, h3, hP]
  rfl

set_option maxHeartbeats 1000000 in
/-- The region finds ½(D_3 + D_3ᵀ), cut from the symmetrised stack. -/
theorem inW8 (D : FVec Ideal S5x128x128 .f32)
    (h15 : W16 (F := Ideal) m ρ c (Proc.devRef .tc main_v15) = symStack D) :
    V17 (F := Ideal) m ρ c main_v142 = symm (3 : Fin 5) D := by
  show StableHlo.after hostOps8 (W16 (F := Ideal) m ρ c) (Proc.devRef .tc main_v142) = _
  simp only [hostOps8]
  after_results
  rw [h15]
  exact layer_symStack 3 (by decide) D _

set_option maxHeartbeats 1000000 in
/-- The region finds row 3 of α as a one-row array. -/
theorem inAl8 (A6 : FVec Ideal S4x128 .f32)
    (h6 : W16 (F := Ideal) m ρ c (Proc.devRef .tc main_arg6) = A6) :
    V17 (F := Ideal) m ρ c main_v137 = biasRow (3 : Fin 4) A6 := by
  show StableHlo.after hostOps8 (W16 (F := Ideal) m ρ c) (Proc.devRef .tc main_v137) = _
  simp only [hostOps8]
  after_results
  rw [h6]
  exact row_of_rows 3 (by decide) A6 _

set_option maxHeartbeats 1000000 in
/-- The region finds row 3 of β as a one-row array. -/
theorem inBe8 (A7 : FVec Ideal S4x128 .f32)
    (h7 : W16 (F := Ideal) m ρ c (Proc.devRef .tc main_arg7) = A7) :
    V17 (F := Ideal) m ρ c main_v140 = biasRow (3 : Fin 4) A7 := by
  show StableHlo.after hostOps8 (W16 (F := Ideal) m ρ c) (Proc.devRef .tc main_v140) = _
  simp only [hostOps8]
  after_results
  rw [h7]
  exact row_of_rows 3 (by decide) A7 _

/-- The region's first output: p + α_3 ⊙ σ(q + agg(p) · ½(D_3 + D_3ᵀ)). -/
theorem outP8 (src dst : (⟨S800000, .i32⟩ : BufTy).Contents (Elt Ideal)) (D : FVec Ideal S5x128x128 .f32) (A6 : FVec Ideal S4x128 .f32) (P Q : Mat 50000 128)
    (eP : V17 (F := Ideal) m ρ c main_v124 = P) (eQ : V17 (F := Ideal) m ρ c main_v111_1 = Q) (eA : V17 (F := Ideal) m ρ c main_v134 = aggK src dst P)
    (eW : V17 (F := Ideal) m ρ c main_v142 = symm (3 : Fin 5) D) (eAl : V17 (F := Ideal) m ρ c main_v137 = biasRow (3 : Fin 4) A6) :
    W18 (F := Ideal) m ρ c (Proc.devRef .tc main_v143_0) = act P (upd Q (aggK src dst P) (symm (3 : Fin 5) D)) (biasRow (3 : Fin 4) A6) := by
  refine (W18_arr m ρ c 6).trans ((Finals.final8p (V17 (F := Ideal) m ρ) c).trans ?_)
  rw [eP, eQ, eA, eW, eAl]

/-- The region's second output: q' + β_3 ⊙ σ(p'), with q' the updated q and p' the first output. -/
theorem outQ8 (src dst : (⟨S800000, .i32⟩ : BufTy).Contents (Elt Ideal)) (D : FVec Ideal S5x128x128 .f32) (A6 A7 : FVec Ideal S4x128 .f32) (P Q : Mat 50000 128)
    (eP : V17 (F := Ideal) m ρ c main_v124 = P) (eQ : V17 (F := Ideal) m ρ c main_v111_1 = Q) (eA : V17 (F := Ideal) m ρ c main_v134 = aggK src dst P)
    (eW : V17 (F := Ideal) m ρ c main_v142 = symm (3 : Fin 5) D) (eAl : V17 (F := Ideal) m ρ c main_v137 = biasRow (3 : Fin 4) A6)
    (eBe : V17 (F := Ideal) m ρ c main_v140 = biasRow (3 : Fin 4) A7) :
    W18 (F := Ideal) m ρ c (Proc.devRef .tc main_v143_1) = act (upd Q (aggK src dst P) (symm (3 : Fin 5) D)) (act P (upd Q (aggK src dst P) (symm (3 : Fin 5) D)) (biasRow (3 : Fin 4) A6)) (biasRow (3 : Fin 4) A7) := by
  refine (W18_arr m ρ c 7).trans ((Finals.final8q (V17 (F := Ideal) m ρ) c).trans ?_)
  rw [eP, eQ, eA, eW, eAl, eBe]

theorem stage8 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W16 (F := Ideal) m ρ c (Proc.devRef .tc main_v1) = src)
    (h3 : W16 (F := Ideal) m ρ c (Proc.devRef .tc main_v3) = dst)
    (h11 : W16 (F := Ideal) m ρ c (Proc.devRef .tc main_v11) = symStack U)
    (h15 : W16 (F := Ideal) m ρ c (Proc.devRef .tc main_v15) = symStack D)
    (h6 : W16 (F := Ideal) m ρ c (Proc.devRef .tc main_arg6) = A6)
    (h7 : W16 (F := Ideal) m ρ c (Proc.devRef .tc main_arg7) = A7)
    (h8 : W16 (F := Ideal) m ρ c (Proc.devRef .tc main_arg8) = A8)
    (h9 : W16 (F := Ideal) m ρ c (Proc.devRef .tc main_arg9) = A9)
    (hP : W16 (F := Ideal) m ρ c (Proc.devRef .tc main_v124) = P)
    (hQ : W16 (F := Ideal) m ρ c (Proc.devRef .tc main_v111_1) = Q) :
    W18 (F := Ideal) m ρ c (Proc.devRef .tc main_v1) = src
    ∧ W18 (F := Ideal) m ρ c (Proc.devRef .tc main_v3) = dst
    ∧ W18 (F := Ideal) m ρ c (Proc.devRef .tc main_v11) = symStack U
    ∧ W18 (F := Ideal) m ρ c (Proc.devRef .tc main_v15) = symStack D
    ∧ W18 (F := Ideal) m ρ c (Proc.devRef .tc main_arg6) = A6
    ∧ W18 (F := Ideal) m ρ c (Proc.devRef .tc main_arg7) = A7
    ∧ W18 (F := Ideal) m ρ c (Proc.devRef .tc main_arg8) = A8
    ∧ W18 (F := Ideal) m ρ c (Proc.devRef .tc main_arg9) = A9
    ∧ W18 (F := Ideal) m ρ c (Proc.devRef .tc main_v143_0) = act P (upd Q (aggK src dst P) (symm (3 : Fin 5) D)) (biasRow (3 : Fin 4) A6)
    ∧ W18 (F := Ideal) m ρ c (Proc.devRef .tc main_v143_1) = act (upd Q (aggK src dst P) (symm (3 : Fin 5) D)) (act P (upd Q (aggK src dst P) (symm (3 : Fin 5) D)) (biasRow (3 : Fin 4) A6)) (biasRow (3 : Fin 4) A7) :=
  ⟨(keep8 m ρ c main_v1 (by host_unwritten hostOps8) (by decide)).trans h1,
   (keep8 m ρ c main_v3 (by host_unwritten hostOps8) (by decide)).trans h3,
   (keep8 m ρ c main_v11 (by host_unwritten hostOps8) (by decide)).trans h11,
   (keep8 m ρ c main_v15 (by host_unwritten hostOps8) (by decide)).trans h15,
   (keep8 m ρ c main_arg6 (by host_unwritten hostOps8) (by decide)).trans h6,
   (keep8 m ρ c main_arg7 (by host_unwritten hostOps8) (by decide)).trans h7,
   (keep8 m ρ c main_arg8 (by host_unwritten hostOps8) (by decide)).trans h8,
   (keep8 m ρ c main_arg9 (by host_unwritten hostOps8) (by decide)).trans h9,
   outP8 m ρ c src dst D A6 P Q (inP8 m ρ c P hP) (inQ8 m ρ c Q hQ) (inA8 m ρ c src dst P h1 h3 hP) (inW8 m ρ c D h15) (inAl8 m ρ c A6 h6),
   outQ8 m ρ c src dst D A6 A7 P Q (inP8 m ρ c P hP) (inQ8 m ρ c Q hQ) (inA8 m ρ c src dst P h1 h3 hP) (inW8 m ρ c D h15) (inAl8 m ρ c A6 h6) (inBe8 m ρ c A7 h7)⟩

end Cert.KernelIdeal.Chain

end
-- ==== Proof.Stage9.lean ====
/-
  Stretch and region 9: the neighbourhood sum of q and the matrix ½(U_4 + U_4ᵀ) cut from the symmetrised stack; the
  region leaves p + agg(q) · ½(U_4 + U_4ᵀ), and q, the index vectors, the stacks and the arguments stay as they were.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 9 does not write, and that is not one of region 9's arrays, is kept through both. -/
theorem keep9 (b : Ref sig .tc)
    (hb : ∀ op ∈ (hostOps9 : List (HloOp τ sig (Elt Ideal))), (Proc.devRef .tc b : DevRef τ sig) ∉ op.writes)
    (hw : ∀ w, Pipeline.arrRef spec9 w ≠ b) :
    W20 (F := Ideal) m ρ c (Proc.devRef .tc b) = W18 (F := Ideal) m ρ c (Proc.devRef .tc b) :=
  (W20_of_ne m ρ c b hw).trans (StableHlo.after_of_forall_not_mem _ _ hb)

/-- The region finds p where the stretch left it. -/
theorem inP9 (P : Mat 50000 128)
    (hP : W18 (F := Ideal) m ρ c (Proc.devRef .tc main_v143_0) = P) :
    V19 (F := Ideal) m ρ c main_v143_0 = P :=
  (StableHlo.after_of_forall_not_mem (b := Proc.devRef .tc main_v143_0) _ _ (by host_unwritten hostOps9)).trans hP

set_option maxHeartbeats 1000000 in
/-- The region finds the neighbourhood sum of q. -/
theorem inA9 (src dst : (⟨S800000, .i32⟩ : BufTy).Contents (Elt Ideal)) (Q : Mat 50000 128)
    (h1 : W18 (F := Ideal) m ρ c (Proc.devRef .tc main_v1) = src)
    (h3 : W18 (F := Ideal) m ρ c (Proc.devRef .tc main_v3) = dst)
    (hQ : W18 (F := Ideal) m ρ c (Proc.devRef .tc main_v143_1) = Q) :
    V19 (F := Ideal) m ρ c main_v153 = aggK src dst Q := by
  show StableHlo.after hostOps9 (W18 (F := Ideal) m ρ c) (Proc.devRef .tc main_v153) = _
  simp only [hostOps9]
  after_results
  rw [h1, h3, hQ]
  rfl

set_option maxHeartbeats 1000000 in
/-- The region finds ½(U_4 + U_4ᵀ), cut from the symmetrised stack. -/
theorem inW9 (U : FVec Ideal S5x128x128 .f32)
    (h11 : W18 (F := Ideal) m ρ c (Proc.devRef .tc main_v11) = symStack U) :
    V19 (F := Ideal) m ρ c main_v155 = symm (4 : Fin 5) U := by
  show StableHlo.after hostOps9 (W18 (F := Ideal) m ρ c) (Proc.devRef .tc main_v155) = _
  simp only [hostOps9]
  after_results
  rw [h11]
  exact layer_symStack 4 (by decide) U _

/-- The region's output: p + agg(q) · ½(U_4 + U_4ᵀ). -/
theorem out9 (src dst : (⟨S800000, .i32⟩ : BufTy).Contents (Elt Ideal)) (U : FVec Ideal S5x128x128 .f32) (P Q : Mat 50000 128)
    (eP : V19 (F := Ideal) m ρ c main_v143_0 = P) (eA : V19 (F := Ideal) m ρ c main_v153 = aggK src dst Q)
    (eW : V19 (F := Ideal) m ρ c main_v155 = symm (4 : Fin 5) U) :
    W20 (F := Ideal) m ρ c (Proc.devRef .tc main_v156) = upd P (aggK src dst Q) (symm (4 : Fin 5) U) := by
  refine (W20_arr m ρ c 3).trans ((Finals.final9 (V19 (F := Ideal) m ρ) c).trans ?_)
  rw [eP, eA, eW]

theorem stage9 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W18 (F := Ideal) m ρ c (Proc.devRef .tc main_v1) = src)
    (h3 : W18 (F := Ideal) m ρ c (Proc.devRef .tc main_v3) = dst)
    (h11 : W18 (F := Ideal) m ρ c (Proc.devRef .tc main_v11) = symStack U)
    (h15 : W18 (F := Ideal) m ρ c (Proc.devRef .tc main_v15) = symStack D)
    (h6 : W18 (F := Ideal) m ρ c (Proc.devRef .tc main_arg6) = A6)
    (h7 : W18 (F := Ideal) m ρ c (Proc.devRef .tc main_arg7) = A7)
    (h8 : W18 (F := Ideal) m ρ c (Proc.devRef .tc main_arg8) = A8)
    (h9 : W18 (F := Ideal) m ρ c (Proc.devRef .tc main_arg9) = A9)
    (hP : W18 (F := Ideal) m ρ c (Proc.devRef .tc main_v143_0) = P)
    (hQ : W18 (F := Ideal) m ρ c (Proc.devRef .tc main_v143_1) = Q) :
    W20 (F := Ideal) m ρ c (Proc.devRef .tc main_v1) = src
    ∧ W20 (F := Ideal) m ρ c (Proc.devRef .tc main_v3) = dst
    ∧ W20 (F := Ideal) m ρ c (Proc.devRef .tc main_v11) = symStack U
    ∧ W20 (F := Ideal) m ρ c (Proc.devRef .tc main_v15) = symStack D
    ∧ W20 (F := Ideal) m ρ c (Proc.devRef .tc main_arg6) = A6
    ∧ W20 (F := Ideal) m ρ c (Proc.devRef .tc main_arg7) = A7
    ∧ W20 (F := Ideal) m ρ c (Proc.devRef .tc main_arg8) = A8
    ∧ W20 (F := Ideal) m ρ c (Proc.devRef .tc main_arg9) = A9
    ∧ W20 (F := Ideal) m ρ c (Proc.devRef .tc main_v156) = upd P (aggK src dst Q) (symm (4 : Fin 5) U)
    ∧ W20 (F := Ideal) m ρ c (Proc.devRef .tc main_v143_1) = Q :=
  ⟨(keep9 m ρ c main_v1 (by host_unwritten hostOps9) (by decide)).trans h1,
   (keep9 m ρ c main_v3 (by host_unwritten hostOps9) (by decide)).trans h3,
   (keep9 m ρ c main_v11 (by host_unwritten hostOps9) (by decide)).trans h11,
   (keep9 m ρ c main_v15 (by host_unwritten hostOps9) (by decide)).trans h15,
   (keep9 m ρ c main_arg6 (by host_unwritten hostOps9) (by decide)).trans h6,
   (keep9 m ρ c main_arg7 (by host_unwritten hostOps9) (by decide)).trans h7,
   (keep9 m ρ c main_arg8 (by host_unwritten hostOps9) (by decide)).trans h8,
   (keep9 m ρ c main_arg9 (by host_unwritten hostOps9) (by decide)).trans h9,
   out9 m ρ c src dst U P Q (inP9 m ρ c P hP) (inA9 m ρ c src dst Q h1 h3 hQ) (inW9 m ρ c U h11),
   (keep9 m ρ c main_v143_1 (by host_unwritten hostOps9) (by decide)).trans hQ⟩

end Cert.KernelIdeal.Chain

end
-- ==== Proof.Stage10.lean ====
/-
  Stretch and region 10: the last update of q, q + agg(p) · ½(D_4 + D_4ᵀ).
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- A buffer that stretch 10 does not write, and that is not one of region 10's arrays, is kept through both. -/
theorem keep10 (b : Ref sig .tc)
    (hb : ∀ op ∈ (hostOps10 : List (HloOp τ sig (Elt Ideal))), (Proc.devRef .tc b : DevRef τ sig) ∉ op.writes)
    (hw : ∀ w, Pipeline.arrRef spec10 w ≠ b) :
    W22 (F := Ideal) m ρ c (Proc.devRef .tc b) = W20 (F := Ideal) m ρ c (Proc.devRef .tc b) :=
  (W22_of_ne m ρ c b hw).trans (StableHlo.after_of_forall_not_mem _ _ hb)

/-- The region finds q where the stretch left it. -/
theorem inQ10 (Q : Mat 50000 128)
    (hQ : W20 (F := Ideal) m ρ c (Proc.devRef .tc main_v143_1) = Q) :
    V21 (F := Ideal) m ρ c main_v143_1 = Q :=
  (StableHlo.after_of_forall_not_mem (b := Proc.devRef .tc main_v143_1) _ _ (by host_unwritten hostOps10)).trans hQ

set_option maxHeartbeats 1000000 in
/-- The region finds the neighbourhood sum of p. -/
theorem inA10 (src dst : (⟨S800000, .i32⟩ : BufTy).Contents (Elt Ideal)) (P : Mat 50000 128)
    (h1 : W20 (F := Ideal) m ρ c (Proc.devRef .tc main_v1) = src)
    (h3 : W20 (F := Ideal) m ρ c (Proc.devRef .tc main_v3) = dst)
    (hP : W20 (F := Ideal) m ρ c (Proc.devRef .tc main_v156) = P) :
    V21 (F := Ideal) m ρ c main_v166 = aggK src dst P := by
  show StableHlo.after hostOps10 (W20 (F := Ideal) m ρ c) (Proc.devRef .tc main_v166) = _
  simp only [hostOps10]
  after_results
  rw [h1, h3, hP]
  rfl

set_option maxHeartbeats 1000000 in
/-- The region finds ½(D_4 + D_4ᵀ), cut from the symmetrised stack. -/
theorem inW10 (D : FVec Ideal S5x128x128 .f32)
    (h15 : W20 (F := Ideal) m ρ c (Proc.devRef .tc main_v15) = symStack D) :
    V21 (F := Ideal) m ρ c main_v168 = symm (4 : Fin 5) D := by
  show StableHlo.after hostOps10 (W20 (F := Ideal) m ρ c) (Proc.devRef .tc main_v168) = _
  simp only [hostOps10]
  after_results
  rw [h15]
  exact layer_symStack 4 (by decide) D _

/-- The region's output: q + agg(p) · ½(D_4 + D_4ᵀ). -/
theorem out10 (src dst : (⟨S800000, .i32⟩ : BufTy).Contents (Elt Ideal)) (D : FVec Ideal S5x128x128 .f32) (P Q : Mat 50000 128)
    (eQ : V21 (F := Ideal) m ρ c main_v143_1 = Q) (eA : V21 (F := Ideal) m ρ c main_v166 = aggK src dst P)
    (eW : V21 (F := Ideal) m ρ c main_v168 = symm (4 : Fin 5) D) :
    W22 (F := Ideal) m ρ c (Proc.devRef .tc main_v169) = upd Q (aggK src dst P) (symm (4 : Fin 5) D) := by
  refine (W22_arr m ρ c 3).trans ((Finals.final10 (V21 (F := Ideal) m ρ) c).trans ?_)
  rw [eQ, eA, eW]

theorem stage10 (src dst : (⟨S800000, .i32⟩ : BufTy).Contents (Elt Ideal)) (U D : FVec Ideal S5x128x128 .f32) (A6 A7 : FVec Ideal S4x128 .f32) (A8 : FVec Ideal S128x40 .f32) (A9 : FVec Ideal S40 .f32) (P Q : Mat 50000 128)
    (h1 : W20 (F := Ideal) m ρ c (Proc.devRef .tc main_v1) = src)
    (h3 : W20 (F := Ideal) m ρ c (Proc.devRef .tc main_v3) = dst)
    (h11 : W20 (F := Ideal) m ρ c (Proc.devRef .tc main_v11) = symStack U)
    (h15 : W20 (F := Ideal) m ρ c (Proc.devRef .tc main_v15) = symStack D)
    (h6 : W20 (F := Ideal) m ρ c (Proc.devRef .tc main_arg6) = A6)
    (h7 : W20 (F := Ideal) m ρ c (Proc.devRef .tc main_arg7) = A7)
    (h8 : W20 (F := Ideal) m ρ c (Proc.devRef .tc main_arg8) = A8)
    (h9 : W20 (F := Ideal) m ρ c (Proc.devRef .tc main_arg9) = A9)
    (hP : W20 (F := Ideal) m ρ c (Proc.devRef .tc main_v156) = P)
    (hQ : W20 (F := Ideal) m ρ c (Proc.devRef .tc main_v143_1) = Q) :
    W22 (F := Ideal) m ρ c (Proc.devRef .tc main_v169) = upd Q (aggK src dst P) (symm (4 : Fin 5) D)
    ∧ W22 (F := Ideal) m ρ c (Proc.devRef .tc main_arg8) = A8
    ∧ W22 (F := Ideal) m ρ c (Proc.devRef .tc main_arg9) = A9 :=
  ⟨out10 m ρ c src dst D P Q (inQ10 m ρ c Q hQ) (inA10 m ρ c src dst P h1 h3 hP) (inW10 m ρ c D h15),
   (keep10 m ρ c main_arg8 (by host_unwritten hostOps10) (by decide)).trans h8,
   (keep10 m ρ c main_arg9 (by host_unwritten hostOps10) (by decide)).trans h9⟩

end Cert.KernelIdeal.Chain

end
-- ==== Proof.Stage11.lean ====
/-
  The last stretch and region: the bias vector laid out as a row, and the output projection q · Wo + b.
-/
import proofs.«109571_j64716567216291_1_alg».proof.Proof.Gen.KernelIdeal.Frame
import proofs.«109571_j64716567216291_1_alg».proof.Proof.KTerms
import proofs.«109571_j64716567216291_1_alg».proof.Proof.Glue
import proofs.«109571_j64716567216291_1_alg».proof.Proof.Finals
import Idealize.ShloMosaic.Lib.StableHlo.Run
import proofs.«109571_j64716567216291_1_alg».proof.Proof.ChainTac

noncomputable section

namespace Cert.KernelIdeal.Chain

open Cert.KernelIdeal Cert.KernelIdeal.Gen Idealize.ShloMosaic Idealize.ShloMosaic.TcCoe Idealize.ShloMosaic.ValueIdx Idealize.SL.Sem
open Cert.KernelIdeal.Facts₀ Cert.KernelIdeal.Facts
open Cert.Sympl Cert.MatrixProduct Cert.Gcn Cert.Stack

variable (m : (ℓ : Loc nD τ sig) → Buf (Elt Ideal) ℓ) (ρ : Dev nD → PrngReg) (c : Dev nD)

/-- The region finds q where the stretch left it. -/
theorem inQ11 (Qf : Mat 50000 128)
    (hQ : W22 (F := Ideal) m ρ c (Proc.devRef .tc main_v169) = Qf) :
    V23 (F := Ideal) m ρ c main_v169 = Qf :=
  (StableHlo.after_of_forall_not_mem (b := Proc.devRef .tc main_v169) _ _ (by host_unwritten hostOps11)).trans hQ

/-- The region finds the output matrix as launched. -/
theorem inW11 (A8 : FVec Ideal S128x40 .f32)
    (h8 : W22 (F := Ideal) m ρ c (Proc.devRef .tc main_arg8) = A8) :
    V23 (F := Ideal) m ρ c main_arg8 = A8 :=
  (StableHlo.after_of_forall_not_mem (b := Proc.devRef .tc main_arg8) _ _ (by host_unwritten hostOps11)).trans h8

set_option maxHeartbeats 1000000 in
/-- The region finds the bias vector laid out as a row. -/
theorem inB11 (A9 : FVec Ideal S40 .f32)
    (h9 : W22 (F := Ideal) m ρ c (Proc.devRef .tc main_arg9) = A9) :
    V23 (F := Ideal) m ρ c main_v170 = rowOf A9 := by
  show StableHlo.after hostOps11 (W22 (F := Ideal) m ρ c) (Proc.devRef .tc main_v170) = _
  simp only [hostOps11]
  after_results
  rw [h9]
  exact bias_row A9

theorem stage11 (Qf : Mat 50000 128) (A8 : FVec Ideal S128x40 .f32) (A9 : FVec Ideal S40 .f32)
    (hQ : W22 (F := Ideal) m ρ c (Proc.devRef .tc main_v169) = Qf)
    (h8 : W22 (F := Ideal) m ρ c (Proc.devRef .tc main_arg8) = A8)
    (h9 : W22 (F := Ideal) m ρ c (Proc.devRef .tc main_arg9) = A9) :
    W24 (F := Ideal) m ρ c (Proc.devRef .tc main_v171) = biasedProduct Qf A8 (rowOf A9) := by
  refine (W24_arr m ρ c 3).trans ((Finals.final11 (V23 (F := Ideal) m ρ) c).trans ?_)
  rw [inQ11 m ρ c Qf hQ, inW11 m ρ c A8 h8, inB11 m ρ c A9 h9]

end Cert.KernelIdeal.Chain

end
-- ==== Proof.KernelValue.lean ====
/-
  The tiled program computes the network: walking its twelve stretches and regions in order, the result array ends
  at `Cert.Sympl.model` of the argument arrays, the neighbourhood sum being the program's own gather and scatter-add
  over the edge list. Each step hands the next one the two running arrays p and q, the index vectors, the two
  symmetrised stacks and the untouched arguments.
-/
import proofs.«109571_j64716567216291_1_alg».proof.Proof.RunResult
import proofs.«109571_j64716567216291_1_alg».proof.Proof.Stage0
import proofs.«109571_j64716567216291_1_alg».proof.Proof.Stage1
import proofs.«109571_j64716567216291_1_alg».proof.Proof.Stage2
import proofs.«109571_j64716567216291_1_alg».proof.Proof.Stage3
import proofs.«109571_j64716567216291_1_alg».proof.Proof.Stage4
import proofs.«109571_j64716567216291_1_alg».proof.Proof.Stage5
import proofs.«109571_j64716567216291_1_alg».proof.Proof.Stage6
import proofs.«109571_j64716567216291_1_alg».proof.Proof.Stage7
import proofs.«109571_j64716567216291_1_alg».proof.Proof.Stage8
import proofs.«109571_j64716567216291_1_alg».proof.Proof.Stage9
import proofs.«109571_j64716567216291_1_alg».proof.Proof.Stage10
import proofs.«109571_j64716567216291_1_alg».proof.Proof.Stage11

noncomputable section

namespace Cert.KernelIdeal.Chain

open Cert.KernelIdeal Cert.KernelIdeal.Gen Idealize.ShloMosaic Idealize.ShloMosaic.TcCoe Idealize.ShloMosaic.ValueIdx Idealize.SL.Sem
open Cert.Sympl Cert.MatrixProduct Cert.Gcn Cert.Stack

variable (m : (ℓ : Loc nD τ sig) → Buf (Elt Ideal) ℓ) (ρ : Dev nD → PrngReg)

/-- The network of the launch contents of the ten arguments, as the tiled program spells its neighbourhood sum. -/
def kernelModel (c : Dev nD) : Mat 50000 40 :=
  model (aggK (srcOf (m ((c : Thread nD τ).loc main_arg1))) (dstOf (m ((c : Thread nD τ).loc main_arg1)))) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- After the last region the result buffer holds the network of the arguments. -/
theorem result_value (c : Dev nD) : W24 (F := Ideal) m ρ c (Proc.devRef .tc main_v171) = kernelModel m c := by
  obtain ⟨a1, a3, aPQ, a4, a5, a6, a7, a8, a9⟩ := stage0 m ρ c
  obtain ⟨b1, b3, b11, b15, b6, b7, b8, b9, bP, bQ⟩ := stage1 m ρ c _ _ _ _ _ _ _ _ _ a1 a3 aPQ a4 a5 a6 a7 a8 a9
  rw [left_cols, right_cols] at bP
  rw [right_cols] at bQ
  obtain ⟨c1, c3, c11, c15, c6, c7, c8, c9, cP, cQ⟩ := stage2 m ρ c _ _ _ _ _ _ _ _ _ _ b1 b3 b11 b15 b6 b7 b8 b9 bP bQ
  obtain ⟨d1, d3, d11, d15, d6, d7, d8, d9, dP, dQ⟩ := stage3 m ρ c _ _ _ _ _ _ _ _ _ _ c1 c3 c11 c15 c6 c7 c8 c9 cP cQ
  obtain ⟨e1, e3, e11, e15, e6, e7, e8, e9, eP, eQ⟩ := stage4 m ρ c _ _ _ _ _ _ _ _ _ _ d1 d3 d11 d15 d6 d7 d8 d9 dP dQ
  obtain ⟨f1, f3, f11, f15, f6, f7, f8, f9, fP, fQ⟩ := stage5 m ρ c _ _ _ _ _ _ _ _ _ _ e1 e3 e11 e15 e6 e7 e8 e9 eP eQ
  obtain ⟨g1, g3, g11, g15, g6, g7, g8, g9, gP, gQ⟩ := stage6 m ρ c _ _ _ _ _ _ _ _ _ _ f1 f3 f11 f15 f6 f7 f8 f9 fP fQ
  obtain ⟨i1, i3, i11, i15, i6, i7, i8, i9, iP, iQ⟩ := stage7 m ρ c _ _ _ _ _ _ _ _ _ _ g1 g3 g11 g15 g6 g7 g8 g9 gP gQ
  obtain ⟨j1, j3, j11, j15, j6, j7, j8, j9, jP, jQ⟩ := stage8 m ρ c _ _ _ _ _ _ _ _ _ _ i1 i3 i11 i15 i6 i7 i8 i9 iP iQ
  obtain ⟨k1, k3, k11, k15, k6, k7, k8, k9, kP, kQ⟩ := stage9 m ρ c _ _ _ _ _ _ _ _ _ _ j1 j3 j11 j15 j6 j7 j8 j9 jP jQ
  obtain ⟨lQ, l8, l9⟩ := stage10 m ρ c _ _ _ _ _ _ _ _ _ _ k1 k3 k11 k15 k6 k7 k8 k9 kP kQ
  exact (stage11 m ρ c _ _ _ lQ l8 l9).trans rfl

/-- The tiled program's run, re-posted: the result is the network of the argument arrays, the arguments unchanged. -/
theorem run_model : θ_run defs (onTc (τ := τ) (main (F := Ideal))) ⟨m, fun _ => 0, ρ⟩ fun r => ∀ c : Dev nD,
      r.2.mem ((c.tc : Thread nD τ).loc main_v171) = kernelModel m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (result_value m ρ c), (h c).2⟩) (Cert.KernelIdeal.GenP.run_result (F := Ideal) m ρ)

end Cert.KernelIdeal.Chain

end
-- ==== Proof.RefSteps.lean ====
/-
  The plain program's operations, one kind at a time, as the network's steps.

  Over the extended reals a `dot_general` contracting the left operand's columns against the right operand's rows is
  the matrix product; half of a matrix plus its transpose is the symmetrised matrix; a vector laid out as a row and
  repeated down the rows multiplies columnwise; and 1 / (1 + e^{-t}), with the float word of one read as the number 1,
  is the logistic function. Every lemma is stated over arbitrary arrays.
-/
import proofs.«109571_j64716567216291_1_alg».proof.ReferenceIdeal
import proofs.«109571_j64716567216291_1_alg».proof.Proof.Gen.ReferenceIdeal
import proofs.«109571_j64716567216291_1_alg».proof.Proof.Spec
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.Sympl Cert.MatrixProduct Cert.Gcn Cert.Stack

/-- The float word 0x3F800000 is the number one. -/
theorem one_word : Ideal.ofBits .f32 0x3F800000#32 = 1 := by
  simp [Ideal.ofBits, Ideal.ieee, -EReal.coe_mul]; norm_num

/-- The N × H by H × H `dot_general` is the matrix product. -/
theorem dot_hidden (A : FVec Ideal S50000x128 .f32) (B : FVec Ideal S128x128 .f32) :
    Host.dotGeneral dot_S50000x128_S128x128_S50000x128_1_0_0_1_n_n none A B = mm A B :=
  dotGeneral_eq_mm _ none A B

/-- The N × F by F × H `dot_general` is the matrix product. -/
theorem dot_input (A : FVec Ideal S50000x256 .f32) (B : FVec Ideal S256x128 .f32) :
    Host.dotGeneral dot_S50000x256_S256x128_S50000x128_1_0_0_1_n_n none A B = mm A B :=
  dotGeneral_eq_mm _ none A B

/-- An update: p plus the product of the aggregated array with a matrix. -/
theorem upd_eq (p a : FVec Ideal S50000x128 .f32) (w : FVec Ideal S128x128 .f32) :
    addf p (Host.dotGeneral dot_S50000x128_S128x128_S50000x128_1_0_0_1_n_n none a w) = upd p a w := by
  rw [dot_hidden]
  rfl

/-- Half of the l-th matrix of a stack plus its transpose is the symmetrised l-th matrix. -/
theorem half_symm (l : Fin 5) (S : FVec Ideal S5x128x128 .f32) :
    mulf (broadcastInDim S128x128 ![] bcast_S_S128x128 (constant (F := Ideal) S_ .f32 0x3F000000#32))
        (addf (layer l S) (transpose S128x128 [1, 0] (layer l S) transposes_S128x128_S128x128_1_0))
      = symm l S := by
  funext i
  obtain ⟨j, k, rfl⟩ : ∃ (j : Fin 128) (k : Fin 128), i = ix2 j k := ⟨i 0, i 1, eq_ix2 i⟩
  rw [mulf_apply, addf_apply, transpose_ix2_apply]
  rfl

/-- An update by the symmetrised l-th matrix of a stack, the matrix spelled as half of the slice plus its transpose. -/
theorem upd_step (p a : FVec Ideal S50000x128 .f32) (l : Fin 5) (S : FVec Ideal S5x128x128 .f32) :
    addf p (Host.dotGeneral dot_S50000x128_S128x128_S50000x128_1_0_0_1_n_n none a
        (mulf (broadcastInDim S128x128 ![] bcast_S_S128x128 (constant (F := Ideal) S_ .f32 0x3F000000#32))
          (addf (layer l S) (transpose S128x128 [1, 0] (layer l S) transposes_S128x128_S128x128_1_0))))
      = upd p a (symm l S) := by
  rw [half_symm, upd_eq]

/-- A one-row array repeated down M rows reads, at (r, k), the row at (0, k). -/
theorem rows_apply {M N : ℕ} (h2 : (⟨2, ![1, N]⟩ : Shape).BroadcastsInDim ⟨2, ![M, N]⟩ (![0, 1] : Fin 2 → Fin 2))
    (B : (⟨2, ![1, N]⟩ : Shape).Idx → EReal) (p : Fin M) (q : Fin N) :
    broadcastInDim ⟨2, ![M, N]⟩ (![0, 1] : Fin 2 → Fin 2) h2 B (ix2 p q) = B (ix2 (0 : Fin 1) q) := by
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- The quotient 1 / (1 + e^{-t}) in the plain program's operations is the logistic function. -/
theorem logistic_eq (t : Ideal .f32) :
    FloatOps.hostDivf (1 : Ideal .f32) (FloatOps.addf 1 (FloatOps.hostUnary .exp (FloatOps.hostNegf t))) = Ideal.logistic t := rfl

/-- An activation: p plus the l-th row of the activation array, repeated down the rows, times σ(q). -/
theorem act_eq (l : ℕ) (hl : l < 4) (A : FVec Ideal S4x128 .f32) (hs : S4x128.Slices ![l, 0] S1x128)
    (p q : FVec Ideal S50000x128 .f32) :
    addf p (mulf (broadcastInDim S50000x128 ![0, 1] bcast_S1x128_S50000x128_0_1
          (broadcastInDim S1x128 ![1] bcast_S128_S1x128_1
            (shapeCast S128 (extractStridedSlice S1x128 ![l, 0] A hs) shapeCasts_S1x128_S128)))
        (Host.divf (broadcastInDim S50000x128 ![] bcast_S_S50000x128 (constant (F := Ideal) S_ .f32 0x3F800000#32))
          (addf (broadcastInDim S50000x128 ![] bcast_S_S50000x128 (constant (F := Ideal) S_ .f32 0x3F800000#32))
            (Host.exp (Host.negf q)))))
      = act p q (biasRow ⟨l, hl⟩ A) := by
  rw [bcast_row_eq_rowOf, slice_biasRow A l hl hs]
  funext i
  obtain ⟨r, k, rfl⟩ : ∃ (r : Fin 50000) (k : Fin 128), i = ix2 r k := ⟨i 0, i 1, eq_ix2 i⟩
  rw [addf_apply, mulf_apply, rows_apply]
  show p (ix2 r k) + biasRow ⟨l, hl⟩ A (ix2 (0 : Fin 1) k)
      * FloatOps.hostDivf (Ideal.ofBits .f32 0x3F800000#32)
          (FloatOps.addf (Ideal.ofBits .f32 0x3F800000#32) (FloatOps.hostUnary .exp (FloatOps.hostNegf (q (ix2 r k)))))
    = p (ix2 r k) + biasRow ⟨l, hl⟩ A (ix2 (0 : Fin 1) k) * Ideal.logistic (q (ix2 r k))
  rw [one_word, logistic_eq]

/-- The output projection: q · Wo plus the vector b laid out as a row and repeated down the rows. -/
theorem out_eq (q : FVec Ideal S50000x128 .f32) (Wo : FVec Ideal S128x40 .f32) (b : FVec Ideal S40 .f32) :
    addf (Host.dotGeneral dot_S50000x128_S128x40_S50000x40_1_0_0_1_n_n none q Wo)
        (broadcastInDim S50000x40 ![0, 1] bcast_S1x40_S50000x40_0_1 (broadcastInDim S1x40 ![1] bcast_S40_S1x40_1 b))
      = biasedProduct q Wo (rowOf b) := by
  rw [bcast_row_eq_rowOf]
  exact host_linear _ _ q Wo (rowOf b)

end Cert.ReferenceIdeal.RefValue

end
-- ==== Proof.RefModel.lean ====
/-
  The plain program computes the network: its run, read back, ends with the result array at `Cert.Sympl.model` of the
  argument arrays, the neighbourhood sum being the program's own gather and scatter-add over the edge list.

  The program's run states the result as a tower of named intermediate arrays, one per update: p and q after each
  half-step. Each is one of the network's steps applied to the previous ones: a `dot_general` is the matrix product, the
  slice-reshape-transpose-add-halve of a stack is the symmetrised matrix, a row of the activation array broadcast down
  the rows multiplies columnwise, and 1 / (1 + e^{-t}) is the logistic function.
-/
import proofs.«109571_j64716567216291_1_alg».proof.ReferenceIdeal
import proofs.«109571_j64716567216291_1_alg».proof.Proof.Gen.ReferenceIdeal
import proofs.«109571_j64716567216291_1_alg».proof.Proof.Gen.ReferenceIdeal.Run
import proofs.«109571_j64716567216291_1_alg».proof.Proof.Spec
import proofs.«109571_j64716567216291_1_alg».proof.Proof.RefSteps
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo
open Cert.Sympl Cert.MatrixProduct Cert.Gcn Cert.Stack

/-- The senders: row 0 of the 2 × E edge list, as a vector. -/
def srcR (E : (⟨S2x800000, .i32⟩ : BufTy).Contents (Elt Ideal)) : (⟨S800000, .i32⟩ : BufTy).Contents (Elt Ideal) :=
  shapeCast S800000 (extractStridedSlice S1x800000 ![0, 0] E slices_S2x800000_S1x800000_0_0) shapeCasts_S1x800000_S800000

/-- The receivers: row 1 of the edge list, as a vector. -/
def dstR (E : (⟨S2x800000, .i32⟩ : BufTy).Contents (Elt Ideal)) : (⟨S800000, .i32⟩ : BufTy).Contents (Elt Ideal) :=
  shapeCast S800000 (extractStridedSlice S1x800000 ![1, 0] E slices_S2x800000_S1x800000_1_0) shapeCasts_S1x800000_S800000

/-- The neighbourhood sum in the plain program's operations: gather the rows of `v` named by the senders, add each into
    the row named by its receiver, starting from zeros. -/
def aggR (src dst : (⟨S800000, .i32⟩ : BufTy).Contents (Elt Ideal)) (v : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 v
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The last half-layer and the output projection, in the plain program's operations, over arbitrary arrays. -/
theorem tail_eq (src dst : (⟨S800000, .i32⟩ : BufTy).Contents (Elt Ideal)) (p q : FVec Ideal S50000x128 .f32)
    (U D : FVec Ideal S5x128x128 .f32) (Wo : FVec Ideal S128x40 .f32) (b : FVec Ideal S40 .f32) :
    addf (Host.dotGeneral dot_S50000x128_S128x40_S50000x40_1_0_0_1_n_n none
          (addf q (Host.dotGeneral dot_S50000x128_S128x128_S50000x128_1_0_0_1_n_n none
            (aggR src dst (addf p (Host.dotGeneral dot_S50000x128_S128x128_S50000x128_1_0_0_1_n_n none (aggR src dst q)
              (mulf (broadcastInDim S128x128 ![] bcast_S_S128x128 (constant (F := Ideal) S_ .f32 0x3F000000#32))
                (addf (layer (4 : Fin 5) U) (transpose S128x128 [1, 0] (layer (4 : Fin 5) U) transposes_S128x128_S128x128_1_0))))))
            (mulf (broadcastInDim S128x128 ![] bcast_S_S128x128 (constant (F := Ideal) S_ .f32 0x3F000000#32))
              (addf (layer (4 : Fin 5) D) (transpose S128x128 [1, 0] (layer (4 : Fin 5) D) transposes_S128x128_S128x128_1_0)))))
          Wo)
        (broadcastInDim S50000x40 ![0, 1] bcast_S1x40_S50000x40_0_1 (broadcastInDim S1x40 ![1] bcast_S40_S1x40_1 b))
      = biasedProduct (upd q (aggR src dst (upd p (aggR src dst q) (symm (4 : Fin 5) U))) (symm (4 : Fin 5) D)) Wo (rowOf b) := by
  rw [out_eq, upd_step, upd_step]

/-! ## The named intermediate arrays, each as one step of the network applied to the previous ones -/

section Tower

variable (V0 : Valuation τ sig (Elt Ideal))

/-- q at the start: x · Wq. -/
theorem v5_eq : res_main_v5 V0 = mm (V0 (Proc.devRef .tc main_arg0)) (V0 (Proc.devRef .tc main_arg3)) := by
  unfold res_main_v5
  exact dot_input _ _

/-- The up matrix 0 of its stack. -/
theorem v17_eq : res_main_v17 V0 = layer (0 : Fin 5) (V0 (Proc.devRef .tc main_arg4)) := by
  unfold res_main_v17
  exact slice_layer _ 0 (by norm_num) _ _

/-- The down matrix 0 of its stack. -/
theorem v35_eq : res_main_v35 V0 = layer (0 : Fin 5) (V0 (Proc.devRef .tc main_arg5)) := by
  unfold res_main_v35
  exact slice_layer _ 0 (by norm_num) _ _

/-- The up matrix 1 of its stack. -/
theorem v77_eq : res_main_v77 V0 = layer (1 : Fin 5) (V0 (Proc.devRef .tc main_arg4)) := by
  unfold res_main_v77
  exact slice_layer _ 1 (by norm_num) _ _

/-- The down matrix 1 of its stack. -/
theorem v95_eq : res_main_v95 V0 = layer (1 : Fin 5) (V0 (Proc.devRef .tc main_arg5)) := by
  unfold res_main_v95
  exact slice_layer _ 1 (by norm_num) _ _

/-- The up matrix 2 of its stack. -/
theorem v137_eq : res_main_v137 V0 = layer (2 : Fin 5) (V0 (Proc.devRef .tc main_arg4)) := by
  unfold res_main_v137
  exact slice_layer _ 2 (by norm_num) _ _

/-- The down matrix 2 of its stack. -/
theorem v155_eq : res_main_v155 V0 = layer (2 : Fin 5) (V0 (Proc.devRef .tc main_arg5)) := by
  unfold res_main_v155
  exact slice_layer _ 2 (by norm_num) _ _

/-- The up matrix 3 of its stack. -/
theorem v197_eq : res_main_v197 V0 = layer (3 : Fin 5) (V0 (Proc.devRef .tc main_arg4)) := by
  unfold res_main_v197
  exact slice_layer _ 3 (by norm_num) _ _

/-- The down matrix 3 of its stack. -/
theorem v215_eq : res_main_v215 V0 = layer (3 : Fin 5) (V0 (Proc.devRef .tc main_arg5)) := by
  unfold res_main_v215
  exact slice_layer _ 3 (by norm_num) _ _

/-- The up matrix 4 of its stack. -/
theorem v257_eq : res_main_v257 V0 = layer (4 : Fin 5) (V0 (Proc.devRef .tc main_arg4)) := by
  unfold res_main_v257
  exact slice_layer _ 4 (by norm_num) _ _

/-- The down matrix 4 of its stack. -/
theorem v275_eq : res_main_v275 V0 = layer (4 : Fin 5) (V0 (Proc.devRef .tc main_arg5)) := by
  unfold res_main_v275
  exact slice_layer _ 4 (by norm_num) _ _

/-- p after the update of layer 0. -/
theorem v23_eq : res_main_v23 V0 = upd (mm (V0 (Proc.devRef .tc main_arg0)) (V0 (Proc.devRef .tc main_arg2))) (aggR (res_main_v1 V0) (res_main_v3 V0) (res_main_v5 V0)) (symm (0 : Fin 5) (V0 (Proc.devRef .tc main_arg4))) := by
  unfold res_main_v23
  rw [v17_eq, dot_input]
  exact upd_step _ _ _ _

/-- q after the update of layer 0. -/
theorem v41_eq : res_main_v41 V0 = upd (res_main_v5 V0) (aggR (res_main_v1 V0) (res_main_v3 V0) (res_main_v23 V0)) (symm (0 : Fin 5) (V0 (Proc.devRef .tc main_arg5))) := by
  unfold res_main_v41
  rw [v35_eq]
  exact upd_step _ _ _ _

/-- p after the activation of layer 0. -/
theorem v53_eq : res_main_v53 V0 = act (res_main_v23 V0) (res_main_v41 V0) (biasRow (0 : Fin 4) (V0 (Proc.devRef .tc main_arg6))) := by
  unfold res_main_v53
  exact act_eq 0 (by norm_num) _ _ _ _

/-- q after the activation of layer 0. -/
theorem v65_eq : res_main_v65 V0 = act (res_main_v41 V0) (res_main_v53 V0) (biasRow (0 : Fin 4) (V0 (Proc.devRef .tc main_arg7))) := by
  unfold res_main_v65
  exact act_eq 0 (by norm_num) _ _ _ _

/-- p after the update of layer 1. -/
theorem v83_eq : res_main_v83 V0 = upd (res_main_v53 V0) (aggR (res_main_v1 V0) (res_main_v3 V0) (res_main_v65 V0)) (symm (1 : Fin 5) (V0 (Proc.devRef .tc main_arg4))) := by
  unfold res_main_v83
  rw [v77_eq]
  exact upd_step _ _ _ _

/-- q after the update of layer 1. -/
theorem v101_eq : res_main_v101 V0 = upd (res_main_v65 V0) (aggR (res_main_v1 V0) (res_main_v3 V0) (res_main_v83 V0)) (symm (1 : Fin 5) (V0 (Proc.devRef .tc main_arg5))) := by
  unfold res_main_v101
  rw [v95_eq]
  exact upd_step _ _ _ _

/-- p after the activation of layer 1. -/
theorem v113_eq : res_main_v113 V0 = act (res_main_v83 V0) (res_main_v101 V0) (biasRow (1 : Fin 4) (V0 (Proc.devRef .tc main_arg6))) := by
  unfold res_main_v113
  exact act_eq 1 (by norm_num) _ _ _ _

/-- q after the activation of layer 1. -/
theorem v125_eq : res_main_v125 V0 = act (res_main_v101 V0) (res_main_v113 V0) (biasRow (1 : Fin 4) (V0 (Proc.devRef .tc main_arg7))) := by
  unfold res_main_v125
  exact act_eq 1 (by norm_num) _ _ _ _

/-- p after the update of layer 2. -/
theorem v143_eq : res_main_v143 V0 = upd (res_main_v113 V0) (aggR (res_main_v1 V0) (res_main_v3 V0) (res_main_v125 V0)) (symm (2 : Fin 5) (V0 (Proc.devRef .tc main_arg4))) := by
  unfold res_main_v143
  rw [v137_eq]
  exact upd_step _ _ _ _

/-- q after the update of layer 2. -/
theorem v161_eq : res_main_v161 V0 = upd (res_main_v125 V0) (aggR (res_main_v1 V0) (res_main_v3 V0) (res_main_v143 V0)) (symm (2 : Fin 5) (V0 (Proc.devRef .tc main_arg5))) := by
  unfold res_main_v161
  rw [v155_eq]
  exact upd_step _ _ _ _

/-- p after the activation of layer 2. -/
theorem v173_eq : res_main_v173 V0 = act (res_main_v143 V0) (res_main_v161 V0) (biasRow (2 : Fin 4) (V0 (Proc.devRef .tc main_arg6))) := by
  unfold res_main_v173
  exact act_eq 2 (by norm_num) _ _ _ _

/-- q after the activation of layer 2. -/
theorem v185_eq : res_main_v185 V0 = act (res_main_v161 V0) (res_main_v173 V0) (biasRow (2 : Fin 4) (V0 (Proc.devRef .tc main_arg7))) := by
  unfold res_main_v185
  exact act_eq 2 (by norm_num) _ _ _ _

/-- p after the update of layer 3. -/
theorem v203_eq : res_main_v203 V0 = upd (res_main_v173 V0) (aggR (res_main_v1 V0) (res_main_v3 V0) (res_main_v185 V0)) (symm (3 : Fin 5) (V0 (Proc.devRef .tc main_arg4))) := by
  unfold res_main_v203
  rw [v197_eq]
  exact upd_step _ _ _ _

/-- q after the update of layer 3. -/
theorem v221_eq : res_main_v221 V0 = upd (res_main_v185 V0) (aggR (res_main_v1 V0) (res_main_v3 V0) (res_main_v203 V0)) (symm (3 : Fin 5) (V0 (Proc.devRef .tc main_arg5))) := by
  unfold res_main_v221
  rw [v215_eq]
  exact upd_step _ _ _ _

/-- p after the activation of layer 3. -/
theorem v233_eq : res_main_v233 V0 = act (res_main_v203 V0) (res_main_v221 V0) (biasRow (3 : Fin 4) (V0 (Proc.devRef .tc main_arg6))) := by
  unfold res_main_v233
  exact act_eq 3 (by norm_num) _ _ _ _

/-- q after the activation of layer 3. -/
theorem v245_eq : res_main_v245 V0 = act (res_main_v221 V0) (res_main_v233 V0) (biasRow (3 : Fin 4) (V0 (Proc.devRef .tc main_arg7))) := by
  unfold res_main_v245
  exact act_eq 3 (by norm_num) _ _ _ _

/-- The pair (p, q) after layer 0 is the network's layer applied to the pair before it. -/
theorem layer0_eq :
    layerStep (aggR (res_main_v1 V0) (res_main_v3 V0)) (symm (0 : Fin 5) (V0 (Proc.devRef .tc main_arg4))) (symm (0 : Fin 5) (V0 (Proc.devRef .tc main_arg5)))
        (biasRow (0 : Fin 4) (V0 (Proc.devRef .tc main_arg6))) (biasRow (0 : Fin 4) (V0 (Proc.devRef .tc main_arg7))) (mm (V0 (Proc.devRef .tc main_arg0)) (V0 (Proc.devRef .tc main_arg2)), mm (V0 (Proc.devRef .tc main_arg0)) (V0 (Proc.devRef .tc main_arg3)))
      = ((res_main_v53 V0), (res_main_v65 V0)) := by
  rw [v65_eq, v53_eq, v41_eq, v23_eq, v5_eq]
  rfl

/-- The pair (p, q) after layer 1 is the network's layer applied to the pair before it. -/
theorem layer1_eq :
    layerStep (aggR (res_main_v1 V0) (res_main_v3 V0)) (symm (1 : Fin 5) (V0 (Proc.devRef .tc main_arg4))) (symm (1 : Fin 5) (V0 (Proc.devRef .tc main_arg5)))
        (biasRow (1 : Fin 4) (V0 (Proc.devRef .tc main_arg6))) (biasRow (1 : Fin 4) (V0 (Proc.devRef .tc main_arg7))) ((res_main_v53 V0), (res_main_v65 V0))
      = ((res_main_v113 V0), (res_main_v125 V0)) := by
  rw [v125_eq, v113_eq, v101_eq, v83_eq]
  rfl

/-- The pair (p, q) after layer 2 is the network's layer applied to the pair before it. -/
theorem layer2_eq :
    layerStep (aggR (res_main_v1 V0) (res_main_v3 V0)) (symm (2 : Fin 5) (V0 (Proc.devRef .tc main_arg4))) (symm (2 : Fin 5) (V0 (Proc.devRef .tc main_arg5)))
        (biasRow (2 : Fin 4) (V0 (Proc.devRef .tc main_arg6))) (biasRow (2 : Fin 4) (V0 (Proc.devRef .tc main_arg7))) ((res_main_v113 V0), (res_main_v125 V0))
      = ((res_main_v173 V0), (res_main_v185 V0)) := by
  rw [v185_eq, v173_eq, v161_eq, v143_eq]
  rfl

/-- The pair (p, q) after layer 3 is the network's layer applied to the pair before it. -/
theorem layer3_eq :
    layerStep (aggR (res_main_v1 V0) (res_main_v3 V0)) (symm (3 : Fin 5) (V0 (Proc.devRef .tc main_arg4))) (symm (3 : Fin 5) (V0 (Proc.devRef .tc main_arg5)))
        (biasRow (3 : Fin 4) (V0 (Proc.devRef .tc main_arg6))) (biasRow (3 : Fin 4) (V0 (Proc.devRef .tc main_arg7))) ((res_main_v173 V0), (res_main_v185 V0))
      = ((res_main_v233 V0), (res_main_v245 V0)) := by
  rw [v245_eq, v233_eq, v221_eq, v203_eq]
  rfl

/-- The pair (p, q) after the four layers. -/
theorem afterLayers_eq :
    afterLayers (aggR (res_main_v1 V0) (res_main_v3 V0)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) = ((res_main_v233 V0), (res_main_v245 V0)) := by
  unfold afterLayers
  rw [layer0_eq, layer1_eq, layer2_eq, layer3_eq]

end Tower

/-- The run's composed term of the result is the network of the argument arrays. -/
theorem result_eq (V0 : Valuation τ sig (Elt Ideal)) :
    addf (Host.dotGeneral (φ₂ := .f32) dot_S50000x128_S128x40_S50000x40_1_0_0_1_n_n none
          (addf (res_main_v245 V0) (Host.dotGeneral dot_S50000x128_S128x128_S50000x128_1_0_0_1_n_n none
            (aggR (res_main_v1 V0) (res_main_v3 V0) (addf (res_main_v233 V0) (Host.dotGeneral dot_S50000x128_S128x128_S50000x128_1_0_0_1_n_n none (aggR (res_main_v1 V0) (res_main_v3 V0) (res_main_v245 V0))
              (mulf (broadcastInDim S128x128 ![] bcast_S_S128x128 (constant (F := Ideal) S_ .f32 0x3F000000#32))
                (addf (res_main_v257 V0) (transpose S128x128 [1, 0] (res_main_v257 V0) transposes_S128x128_S128x128_1_0))))))
            (mulf (broadcastInDim S128x128 ![] bcast_S_S128x128 (constant (F := Ideal) S_ .f32 0x3F000000#32))
              (addf (res_main_v275 V0) (transpose S128x128 [1, 0] (res_main_v275 V0) transposes_S128x128_S128x128_1_0)))))
          (V0 (Proc.devRef .tc main_arg8) : FVec Ideal S128x40 .f32))
        (broadcastInDim S50000x40 ![0, 1] bcast_S1x40_S50000x40_0_1 (broadcastInDim S1x40 ![1] bcast_S40_S1x40_1 (V0 (Proc.devRef .tc main_arg9))))
      = model (aggR (srcR (V0 (Proc.devRef .tc main_arg1))) (dstR (V0 (Proc.devRef .tc main_arg1)))) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  rw [v257_eq, v275_eq, tail_eq]
  show _ = biasedProduct
      (upd (afterLayers (aggR (res_main_v1 V0) (res_main_v3 V0)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))).2
        (aggR (res_main_v1 V0) (res_main_v3 V0)
          (upd (afterLayers (aggR (res_main_v1 V0) (res_main_v3 V0)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))).1
            (aggR (res_main_v1 V0) (res_main_v3 V0) (afterLayers (aggR (res_main_v1 V0) (res_main_v3 V0)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))).2)
            (symm (4 : Fin 5) (V0 (Proc.devRef .tc main_arg4)))))
        (symm (4 : Fin 5) (V0 (Proc.devRef .tc main_arg5))))
      (V0 (Proc.devRef .tc main_arg8)) (rowOf (V0 (Proc.devRef .tc main_arg9)))
  rw [afterLayers_eq]

/-- The plain program's run, re-posted: the result is the network of the argument arrays, the arguments unchanged. -/
theorem run_model (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v285)
        = (model (aggR (srcR (m ((c.tc : Thread nD τ).loc main_arg1))) (dstR (m ((c.tc : Thread nD τ).loc main_arg1)))) (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) : Mat 50000 40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (result_eq (launchContents m c)), (h c).2⟩)
    (Cert.ReferenceIdeal.Value.run (F := Ideal) m ρ)

end Cert.ReferenceIdeal.RefValue

end
-- ==== Proof.lean ====
/-
  Two programs for one graph network, equal over the extended reals.

  The network (Proof/Spec.lean, `Cert.Sympl.model`) keeps two N × H arrays p, q over the nodes of a graph; a layer adds to
  p the neighbourhood sums of q times a symmetrised matrix ½(U + Uᵀ), to q those of p times ½(D + Dᵀ), then
  p ← p + α ⊙ σ(q) and q ← q + β ⊙ σ(p); after four layers and one more half-layer the result is q · Wo + b.

  The plain program does this with whole-array operations (Proof/RefModel.lean reads its run back as the model). The
  tiled program computes x · [Wp | Wq] in one pass and cuts p and q out of it, symmetrises all five matrices of each
  stack at once and slices them afterwards, and runs every dense update — p + a · w, the fused update with its two
  logistic activations, the output projection — over 25 blocks of 2000 rows, the operands narrowed to a shorter float
  format on the way into the matrix unit. Over the extended reals narrowing is the identity, a product into a zero
  accumulator is the matrix product whatever the tiling, an entry of a product depends on one row of its left factor
  only, and slicing commutes with entrywise operations; so each region leaves one whole-array function of what it
  finds (Proof/Finals.lean), the stretches between regions hand the arrays on (Proof/Stage0 … Stage11.lean), and the
  result is the same model (Proof/KernelValue.lean). The neighbourhood sum itself — a gather by sender followed by a
  scatter-add by receiver — is the same operation on equal arrays in both programs and is never opened. No law used
  needs finiteness: the precondition is not consulted.
-/
import proofs.«109571_j64716567216291_1_alg».proof.Defs
import proofs.«109571_j64716567216291_1_alg».proof.Proof.Gen.Kernel
import proofs.«109571_j64716567216291_1_alg».proof.Proof.Gen.Kernel.Frame
import proofs.«109571_j64716567216291_1_alg».proof.Proof.Gen.KernelIdeal
import proofs.«109571_j64716567216291_1_alg».proof.Proof.Gen.KernelIdeal.Frame
import proofs.«109571_j64716567216291_1_alg».proof.Proof.Gen.ReferenceIdeal
import proofs.«109571_j64716567216291_1_alg».proof.Proof.Gen.ReferenceIdeal.Run
import proofs.«109571_j64716567216291_1_alg».proof.Proof.Gen.Pre_finite_inputs
import proofs.«109571_j64716567216291_1_alg».proof.Proof.KernelValue
import proofs.«109571_j64716567216291_1_alg».proof.Proof.RefModel
import Idealize.ShloMosaic.Adequacy
import Idealize.ShloMosaic.Init

noncomputable section

namespace Cert.Proof

open Idealize.ShloMosaic Idealize.SL.Sem

/-- The tiled program as printed runs, and keeps its arguments. -/
theorem frame_kernel : Cert.frame_Kernel := fun m ρ _ => Cert.Kernel.Gen.frame m ρ

/-- The tiled program read over the extended reals runs, and keeps its arguments. -/
theorem frame_kernelIdeal : Cert.frame_KernelIdeal := fun m ρ _ => Cert.KernelIdeal.Gen.frame m ρ

/-- The plain program runs, and keeps its arguments: its run with the result dropped. -/
theorem frame_reference : Cert.frame_ReferenceIdeal := fun m ρ _ =>
  (θ_run Cert.ReferenceIdeal.defs _ _).mono (fun _ h c => (h c).2) (Cert.ReferenceIdeal.RefValue.run_model m ρ)

/-- Nothing was rewritten on the way to the extended reals. -/
theorem preserves : Cert.preserves_Kernel_KernelIdeal := trivial

/-- From memories agreeing on the arguments both programs end with the network of those arguments: the two spellings
    of the neighbourhood sum and of the index vectors are the same operations. -/
theorem algebraic : Cert.algebraic_KernelIdeal_ReferenceIdeal := by
  intro m ρ m' ρ' _ hagree
  refine ⟨fun c => Cert.KernelIdeal.Chain.kernelModel m c, Cert.KernelIdeal.Chain.run_model m ρ, ?_⟩
  refine (θ_run Cert.ReferenceIdeal.defs _ _).mono (fun _ h c => ⟨(h c).1.trans ?_, (h c).2⟩)
    (Cert.ReferenceIdeal.RefValue.run_model m' ρ')
  obtain ⟨e0, e1, e2, e3, e4, e5, e6, e7, e8, e9⟩ := hagree c
  rw [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
